-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)) →
    ∃ (v0 : (c : Dev Cert.KernelIdeal.nD) → Buf (Elt Ideal) ((c.tc : Thread Cert.KernelIdeal.nD Cert.KernelIdeal.τ).loc Cert.KernelIdeal.main_v42)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v42) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v180) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S50000x2 : Shape := ⟨2, ![50000, 2]⟩
abbrev S300000 : Shape := ⟨1, ![300000]⟩
abbrev S128x2 : Shape := ⟨2, ![128, 2]⟩
abbrev S128 : Shape := ⟨1, ![128]⟩
abbrev S128x128 : Shape := ⟨2, ![128, 128]⟩
abbrev S128x384 : Shape := ⟨2, ![128, 384]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S50000x2 : S_.BroadcastsInDim S50000x2 (![] : Fin 0 → Fin S50000x2.rank)
  reducesTo_S50000x2_S_d0_1 : S50000x2.ReducesTo [0, 1] S_
  bcast_S_S128x2 : S_.BroadcastsInDim S128x2 (![] : Fin 0 → Fin S128x2.rank)
  reducesTo_S128x2_S_d0_1 : S128x2.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S128x384 : S_.BroadcastsInDim S128x384 (![] : Fin 0 → Fin S128x384.rank)
  reducesTo_S128x384_S_d0_1 : S128x384.ReducesTo [0, 1] S_

variable [Facts]

def fn_part6 {F : FTy → Type} [FloatOps F] (main_arg23 : FVec F S128 .f32) (main_v98 : IVec S_ 1) (main_v101 : IVec S128 1) (main_c_39 : IVec S_ 1) : IVec S_ 1 :=
  let main_v102 : IVec S_ 1 := (fun x v => Host.reduce IntOp.andi x v reducesTo_S128_S_d0 h_S_) main_v101 main_c_39
  let main_v103 : IVec S_ 1 := andi main_v98 main_v102
  let main_v104 : FVec F S128 .f32 := Host.absf main_arg23
  let main_cst_40 : FVec F S_ .f32 := constant S_ .f32 0x7F800000#32
  let main_v105 : FVec F S128 .f32 := broadcastInDim S128 ![] bcast_S_S128 main_cst_40
  let main_v106 : IVec S128 1 := cmpf .olt main_v104 main_v105
  let main_c_41 : IVec S_ 1 := constantI S_ 1 1#1
  let main_v107 : IVec S_ 1 := (fun x v => Host.reduce IntOp.andi x v reducesTo_S128_S_d0 h_S_) main_v106 main_c_41
  let main_v108 : IVec S_ 1 := andi main_v103 main_v107
  main_v108

def fn_part5 {F : FTy → Type} [FloatOps F] (main_arg20 : FVec F S128 .f32) (main_arg21 : FVec F S128x128 .f32) (main_arg22 : FVec F S128 .f32) (main_arg23 : FVec F S128 .f32) (main_v83 : IVec S_ 1) (main_v84 : FVec F S128 .f32) (main_cst_32 : FVec F S_ .f32) : IVec S_ 1 :=
  let main_v85 : FVec F S128 .f32 := broadcastInDim S128 ![] bcast_S_S128 main_cst_32
  let main_v86 : IVec S128 1 := cmpf .olt main_v84 main_v85
  let main_c_33 : IVec S_ 1 := constantI S_ 1 1#1
  let main_v87 : IVec S_ 1 := (fun x v => Host.reduce IntOp.andi x v reducesTo_S128_S_d0 h_S_) main_v86 main_c_33
  let main_v88 : IVec S_ 1 := andi main_v83 main_v87
  let main_v89 : FVec F S128 .f32 := Host.absf main_arg20
  let main_cst_34 : FVec F S_ .f32 := constant S_ .f32 0x7F800000#32
  let main_v90 : FVec F S128 .f32 := broadcastInDim S128 ![] bcast_S_S128 main_cst_34
  let main_v91 : IVec S128 1 := cmpf .olt main_v89 main_v90
  let main_c_35 : IVec S_ 1 := constantI S_ 1 1#1
  let main_v92 : IVec S_ 1 := (fun x v => Host.reduce IntOp.andi x v reducesTo_S128_S_d0 h_S_) main_v91 main_c_35
  let main_v93 : IVec S_ 1 := andi main_v88 main_v92
  let main_v94 : FVec F S128x128 .f32 := Host.absf main_arg21
  let main_cst_36 : FVec F S_ .f32 := constant S_ .f32 0x7F800000#32
  let main_v95 : FVec F S128x128 .f32 := broadcastInDim S128x128 ![] bcast_S_S128x128 main_cst_36
  let main_v96 : IVec S128x128 1 := cmpf .olt main_v94 main_v95
  let main_c_37 : IVec S_ 1 := constantI S_ 1 1#1
  let main_v97 : IVec S_ 1 := (fun x v => Host.reduce IntOp.andi x v reducesTo_S128x128_S_d0_1 h_S_) main_v96 main_c_37
  let main_v98 : IVec S_ 1 := andi main_v93 main_v97
  let main_v99 : FVec F S128 .f32 := Host.absf main_arg22
  let main_cst_38 : FVec F S_ .f32 := constant S_ .f32 0x7F800000#32
  let main_v100 : FVec F S128 .f32 := broadcastInDim S128 ![] bcast_S_S128 main_cst_38
  let main_v101 : IVec S128 1 := cmpf .olt main_v99 main_v100
  let main_c_39 : IVec S_ 1 := constantI S_ 1 1#1
  fn_part6 (F := F) main_arg23 main_v98 main_v101 main_c_39

def fn_part4 {F : FTy → Type} [FloatOps F] (main_arg16 : FVec F S128 .f32) (main_arg17 : FVec F S128x128 .f32) (main_arg18 : FVec F S128x128 .f32) (main_arg19 : FVec F S128 .f32) (main_arg20 : FVec F S128 .f32) (main_arg21 : FVec F S128x128 .f32) (main_arg22 : FVec F S128 .f32) (main_arg23 : FVec F S128 .f32) (main_v63 : IVec S_ 1) (main_v67 : IVec S_ 1) : IVec S_ 1 :=
  let main_v68 : IVec S_ 1 := andi main_v63 main_v67
  let main_v69 : FVec F S128 .f32 := Host.absf main_arg16
  let main_cst_26 : FVec F S_ .f32 := constant S_ .f32 0x7F800000#32
  let main_v70 : FVec F S128 .f32 := broadcastInDim S128 ![] bcast_S_S128 main_cst_26
  let main_v71 : IVec S128 1 := cmpf .olt main_v69 main_v70
  let main_c_27 : IVec S_ 1 := constantI S_ 1 1#1
  let main_v72 : IVec S_ 1 := (fun x v => Host.reduce IntOp.andi x v reducesTo_S128_S_d0 h_S_) main_v71 main_c_27
  let main_v73 : IVec S_ 1 := andi main_v68 main_v72
  let main_v74 : FVec F S128x128 .f32 := Host.absf main_arg17
  let main_cst_28 : FVec F S_ .f32 := constant S_ .f32 0x7F800000#32
  let main_v75 : FVec F S128x128 .f32 := broadcastInDim S128x128 ![] bcast_S_S128x128 main_cst_28
  let main_v76 : IVec S128x128 1 := cmpf .olt main_v74 main_v75
  let main_c_29 : IVec S_ 1 := constantI S_ 1 1#1
  let main_v77 : IVec S_ 1 := (fun x v => Host.reduce IntOp.andi x v reducesTo_S128x128_S_d0_1 h_S_) main_v76 main_c_29
  let main_v78 : IVec S_ 1 := andi main_v73 main_v77
  let main_v79 : FVec F S128x128 .f32 := Host.absf main_arg18
  let main_cst_30 : FVec F S_ .f32 := constant S_ .f32 0x7F800000#32
  let main_v80 : FVec F S128x128 .f32 := broadcastInDim S128x128 ![] bcast_S_S128x128 main_cst_30
  let main_v81 : IVec S128x128 1 := cmpf .olt main_v79 main_v80
  let main_c_31 : IVec S_ 1 := constantI S_ 1 1#1
  let main_v82 : IVec S_ 1 := (fun x v => Host.reduce IntOp.andi x v reducesTo_S128x128_S_d0_1 h_S_) main_v81 main_c_31
  let main_v83 : IVec S_ 1 := andi main_v78 main_v82
  let main_v84 : FVec F S128 .f32 := Host.absf main_arg19
  let main_cst_32 : FVec F S_ .f32 := constant S_ .f32 0x7F800000#32
  fn_part5 (F := F) main_arg20 main_arg21 main_arg22 main_arg23 main_v83 main_v84 main_cst_32

def fn_part3 {F : FTy → Type} [FloatOps F] (main_arg13 : FVec F S128 .f32) (main_arg14 : FVec F S128x384 .f32) (main_arg15 : FVec F S128 .f32) (main_arg16 : FVec F S128 .f32) (main_arg17 : FVec F S128x128 .f32) (main_arg18 : FVec F S128x128 .f32) (main_arg19 : FVec F S128 .f32) (main_arg20 : FVec F S128 .f32) (main_arg21 : FVec F S128x128 .f32) (main_arg22 : FVec F S128 .f32) (main_arg23 : FVec F S128 .f32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S128 .f32 := Host.absf main_arg13
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  let main_v59 : FVec F S128x384 .f32 := Host.absf main_arg14
  let main_cst_22 : FVec F S_ .f32 := constant S_ .f32 0x7F800000#32
  let main_v60 : FVec F S128x384 .f32 := broadcastInDim S128x384 ![] bcast_S_S128x384 main_cst_22
  let main_v61 : IVec S128x384 1 := cmpf .olt main_v59 main_v60
  let main_c_23 : IVec S_ 1 := constantI S_ 1 1#1
  let main_v62 : IVec S_ 1 := (fun x v => Host.reduce IntOp.andi x v reducesTo_S128x384_S_d0_1 h_S_) main_v61 main_c_23
  let main_v63 : IVec S_ 1 := andi main_v58 main_v62
  let main_v64 : FVec F S128 .f32 := Host.absf main_arg15
  let main_cst_24 : FVec F S_ .f32 := constant S_ .f32 0x7F800000#32
  let main_v65 : FVec F S128 .f32 := broadcastInDim S128 ![] bcast_S_S128 main_cst_24
  let main_v66 : IVec S128 1 := cmpf .olt main_v64 main_v65
  let main_c_25 : IVec S_ 1 := constantI S_ 1 1#1
  let main_v67 : IVec S_ 1 := (fun x v => Host.reduce IntOp.andi x v reducesTo_S128_S_d0 h_S_) main_v66 main_c_25
  fn_part4 (F := F) main_arg16 main_arg17 main_arg18 main_arg19 main_arg20 main_arg21 main_arg22 main_arg23 main_v63 main_v67

def fn_part2 {F : FTy → Type} [FloatOps F] (main_arg9 : FVec F S128 .f32) (main_arg10 : FVec F S128 .f32) (main_arg11 : FVec F S128x128 .f32) (main_arg12 : FVec F S128 .f32) (main_arg13 : FVec F S128 .f32) (main_arg14 : FVec F S128x384 .f32) (main_arg15 : FVec F S128 .f32) (main_arg16 : FVec F S128 .f32) (main_arg17 : FVec F S128x128 .f32) (main_arg18 : FVec F S128x128 .f32) (main_arg19 : FVec F S128 .f32) (main_arg20 : FVec F S128 .f32) (main_arg21 : FVec F S128x128 .f32) (main_arg22 : FVec F S128 .f32) (main_arg23 : FVec F S128 .f32) (main_v33 : IVec S_ 1) : IVec S_ 1 :=
  let main_v34 : FVec F S128 .f32 := Host.absf main_arg9
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128 .f32 := Host.absf main_arg10
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128x128 .f32 := Host.absf main_arg11
  let main_cst_16 : FVec F S_ .f32 := constant S_ .f32 0x7F800000#32
  let main_v45 : FVec F S128x128 .f32 := broadcastInDim S128x128 ![] bcast_S_S128x128 main_cst_16
  let main_v46 : IVec S128x128 1 := cmpf .olt main_v44 main_v45
  let main_c_17 : IVec S_ 1 := constantI S_ 1 1#1
  let main_v47 : IVec S_ 1 := (fun x v => Host.reduce IntOp.andi x v reducesTo_S128x128_S_d0_1 h_S_) main_v46 main_c_17
  let main_v48 : IVec S_ 1 := andi main_v43 main_v47
  let main_v49 : FVec F S128 .f32 := Host.absf main_arg12
  let main_cst_18 : FVec F S_ .f32 := constant S_ .f32 0x7F800000#32
  let main_v50 : FVec F S128 .f32 := broadcastInDim S128 ![] bcast_S_S128 main_cst_18
  fn_part3 (F := F) main_arg13 main_arg14 main_arg15 main_arg16 main_arg17 main_arg18 main_arg19 main_arg20 main_arg21 main_arg22 main_arg23 main_v48 main_v49 main_v50

def fn_part1 {F : FTy → Type} [FloatOps F] (main_arg6 : FVec F S128x2 .f32) (main_arg7 : FVec F S128 .f32) (main_arg8 : FVec F S128x128 .f32) (main_arg9 : FVec F S128 .f32) (main_arg10 : FVec F S128 .f32) (main_arg11 : FVec F S128x128 .f32) (main_arg12 : FVec F S128 .f32) (main_arg13 : FVec F S128 .f32) (main_arg14 : FVec F S128x384 .f32) (main_arg15 : FVec F S128 .f32) (main_arg16 : FVec F S128 .f32) (main_arg17 : FVec F S128x128 .f32) (main_arg18 : FVec F S128x128 .f32) (main_arg19 : FVec F S128 .f32) (main_arg20 : FVec F S128 .f32) (main_arg21 : FVec F S128x128 .f32) (main_arg22 : FVec F S128 .f32) (main_arg23 : FVec F S128 .f32) (main_v13 : IVec S_ 1) (main_v16 : IVec S50000x2 1) : IVec S_ 1 :=
  let main_c_5 : IVec S_ 1 := constantI S_ 1 1#1
  let main_v17 : IVec S_ 1 := (fun x v => Host.reduce IntOp.andi x v reducesTo_S50000x2_S_d0_1 h_S_) main_v16 main_c_5
  let main_v18 : IVec S_ 1 := andi main_v13 main_v17
  let main_v19 : FVec F S128x2 .f32 := Host.absf main_arg6
  let main_cst_6 : FVec F S_ .f32 := constant S_ .f32 0x7F800000#32
  let main_v20 : FVec F S128x2 .f32 := broadcastInDim S128x2 ![] bcast_S_S128x2 main_cst_6
  let main_v21 : IVec S128x2 1 := cmpf .olt main_v19 main_v20
  let main_c_7 : IVec S_ 1 := constantI S_ 1 1#1
  let main_v22 : IVec S_ 1 := (fun x v => Host.reduce IntOp.andi x v reducesTo_S128x2_S_d0_1 h_S_) main_v21 main_c_7
  let main_v23 : IVec S_ 1 := andi main_v18 main_v22
  let main_v24 : FVec F S128 .f32 := Host.absf main_arg7
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg8
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg9 main_arg10 main_arg11 main_arg12 main_arg13 main_arg14 main_arg15 main_arg16 main_arg17 main_arg18 main_arg19 main_arg20 main_arg21 main_arg22 main_arg23 main_v33

def fn {F : FTy → Type} [FloatOps F] (main_arg0 : FVec F S50000x128 .f32) (main_arg1 : FVec F S50000x128 .f32) (main_arg2 : FVec F S50000x2 .f32) (main_arg3 : FVec F S50000x2 .f32) (main_arg4 : IVec S300000 32) (main_arg5 : IVec S300000 32) (main_arg6 : FVec F S128x2 .f32) (main_arg7 : FVec F S128 .f32) (main_arg8 : FVec F S128x128 .f32) (main_arg9 : FVec F S128 .f32) (main_arg10 : FVec F S128 .f32) (main_arg11 : FVec F S128x128 .f32) (main_arg12 : FVec F S128 .f32) (main_arg13 : FVec F S128 .f32) (main_arg14 : FVec F S128x384 .f32) (main_arg15 : FVec F S128 .f32) (main_arg16 : FVec F S128 .f32) (main_arg17 : FVec F S128x128 .f32) (main_arg18 : FVec F S128x128 .f32) (main_arg19 : FVec F S128 .f32) (main_arg20 : FVec F S128 .f32) (main_arg21 : FVec F S128x128 .f32) (main_arg22 : FVec F S128 .f32) (main_arg23 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S50000x128 .f32 := Host.absf main_arg1
  let main_cst_0 : FVec F S_ .f32 := constant S_ .f32 0x7F800000#32
  let main_v5 : FVec F S50000x128 .f32 := broadcastInDim S50000x128 ![] bcast_S_S50000x128 main_cst_0
  let main_v6 : IVec S50000x128 1 := cmpf .olt main_v4 main_v5
  let main_c_1 : IVec S_ 1 := constantI S_ 1 1#1
  let main_v7 : IVec S_ 1 := (fun x v => Host.reduce IntOp.andi x v reducesTo_S50000x128_S_d0_1 h_S_) main_v6 main_c_1
  let main_v8 : IVec S_ 1 := andi main_v3 main_v7
  let main_v9 : FVec F S50000x2 .f32 := Host.absf main_arg2
  let main_cst_2 : FVec F S_ .f32 := constant S_ .f32 0x7F800000#32
  let main_v10 : FVec F S50000x2 .f32 := broadcastInDim S50000x2 ![] bcast_S_S50000x2 main_cst_2
  let main_v11 : IVec S50000x2 1 := cmpf .olt main_v9 main_v10
  let main_c_3 : IVec S_ 1 := constantI S_ 1 1#1
  let main_v12 : IVec S_ 1 := (fun x v => Host.reduce IntOp.andi x v reducesTo_S50000x2_S_d0_1 h_S_) main_v11 main_c_3
  let main_v13 : IVec S_ 1 := andi main_v8 main_v12
  let main_v14 : FVec F S50000x2 .f32 := Host.absf main_arg3
  let main_cst_4 : FVec F S_ .f32 := constant S_ .f32 0x7F800000#32
  let main_v15 : FVec F S50000x2 .f32 := broadcastInDim S50000x2 ![] bcast_S_S50000x2 main_cst_4
  let main_v16 : IVec S50000x2 1 := cmpf .olt main_v14 main_v15
  fn_part1 (F := F) main_arg6 main_arg7 main_arg8 main_arg9 main_arg10 main_arg11 main_arg12 main_arg13 main_arg14 main_arg15 main_arg16 main_arg17 main_arg18 main_arg19 main_arg20 main_arg21 main_arg22 main_arg23 main_v13 main_v16
-- ==== Kernel.lean ====
abbrev S50000x128 : Shape := ⟨2, ![50000, 128]⟩
abbrev S50000x2 : Shape := ⟨2, ![50000, 2]⟩
abbrev S300000 : Shape := ⟨1, ![300000]⟩
abbrev S128x2 : Shape := ⟨2, ![128, 2]⟩
abbrev S128 : Shape := ⟨1, ![128]⟩
abbrev S128x128 : Shape := ⟨2, ![128, 128]⟩
abbrev S128x384 : Shape := ⟨2, ![128, 384]⟩
abbrev S_ : Shape := ⟨0, ![]⟩
abbrev S300000x1 : Shape := ⟨2, ![300000, 1]⟩
abbrev S300000x2 : Shape := ⟨2, ![300000, 2]⟩
abbrev S300000x128 : Shape := ⟨2, ![300000, 128]⟩
abbrev S6000x2 : Shape := ⟨2, ![6000, 2]⟩
abbrev S6000x128 : Shape := ⟨2, ![6000, 128]⟩
abbrev S2x128 : Shape := ⟨2, ![2, 128]⟩
abbrev S1x128 : Shape := ⟨2, ![1, 128]⟩
abbrev S6000 : Shape := ⟨1, ![6000]⟩
abbrev S6000x1 : Shape := ⟨2, ![6000, 1]⟩
abbrev S5000x128 : Shape := ⟨2, ![5000, 128]⟩
abbrev S5000 : Shape := ⟨1, ![5000]⟩
abbrev S5000x1 : Shape := ⟨2, ![5000, 1]⟩

abbrev nBuf : Space → Nat
  | .hbm => 78
  | .vmem => 32
  | .smem => 0
  | _ => 0

abbrev bufTy : (tb : Table) → Fin (tcTables nBuf tb) → BufTy
  | .hbm, ⟨0, _⟩ => ⟨S50000x128, .f32⟩
  | .hbm, ⟨1, _⟩ => ⟨S50000x128, .f32⟩
  | .hbm, ⟨2, _⟩ => ⟨S50000x2, .f32⟩
  | .hbm, ⟨3, _⟩ => ⟨S50000x2, .f32⟩
  | .hbm, ⟨4, _⟩ => ⟨S300000, .i32⟩
  | .hbm, ⟨5, _⟩ => ⟨S300000, .i32⟩
  | .hbm, ⟨6, _⟩ => ⟨S128x2, .f32⟩
  | .hbm, ⟨7, _⟩ => ⟨S128, .f32⟩
  | .hbm, ⟨8, _⟩ => ⟨S128x128, .f32⟩
  | .hbm, ⟨9, _⟩ => ⟨S128, .f32⟩
  | .hbm, ⟨10, _⟩ => ⟨S128, .f32⟩
  | .hbm, ⟨11, _⟩ => ⟨S128x128, .f32⟩
  | .hbm, ⟨12, _⟩ => ⟨S128, .f32⟩
  | .hbm, ⟨13, _⟩ => ⟨S128, .f32⟩
  | .hbm, ⟨14, _⟩ => ⟨S128x384, .f32⟩
  | .hbm, ⟨15, _⟩ => ⟨S128, .f32⟩
  | .hbm, ⟨16, _⟩ => ⟨S128, .f32⟩
  | .hbm, ⟨17, _⟩ => ⟨S128x128, .f32⟩
  | .hbm, ⟨18, _⟩ => ⟨S128x128, .f32⟩
  | .hbm, ⟨19, _⟩ => ⟨S128, .f32⟩
  | .hbm, ⟨20, _⟩ => ⟨S128, .f32⟩
  | .hbm, ⟨21, _⟩ => ⟨S128x128, .f32⟩
  | .hbm, ⟨22, _⟩ => ⟨S128, .f32⟩
  | .hbm, ⟨23, _⟩ => ⟨S128, .f32⟩
  | .hbm, ⟨24, _⟩ => ⟨S50000x128, .bf16⟩
  | .hbm, ⟨25, _⟩ => ⟨S50000x128, .bf16⟩
  | .hbm, ⟨26, _⟩ => ⟨S_, .i32⟩
  | .hbm, ⟨27, _⟩ => ⟨S300000, .i32⟩
  | .hbm, ⟨28, _⟩ => ⟨S300000, .i1⟩
  | .hbm, ⟨29, _⟩ => ⟨S_, .i32⟩
  | .hbm, ⟨30, _⟩ => ⟨S300000, .i32⟩
  | .hbm, ⟨31, _⟩ => ⟨S300000, .i32⟩
  | .hbm, ⟨32, _⟩ => ⟨S300000, .i32⟩
  | .hbm, ⟨33, _⟩ => ⟨S300000x1, .i32⟩
  | .hbm, ⟨34, _⟩ => ⟨S300000x2, .f32⟩
  | .hbm, ⟨35, _⟩ => ⟨S_, .i32⟩
  | .hbm, ⟨36, _⟩ => ⟨S300000, .i32⟩
  | .hbm, ⟨37, _⟩ => ⟨S300000, .i1⟩
  | .hbm, ⟨38, _⟩ => ⟨S_, .i32⟩
  | .hbm, ⟨39, _⟩ => ⟨S300000, .i32⟩
  | .hbm, ⟨40, _⟩ => ⟨S300000, .i32⟩
  | .hbm, ⟨41, _⟩ => ⟨S300000, .i32⟩
  | .hbm, ⟨42, _⟩ => ⟨S300000x1, .i32⟩
  | .hbm, ⟨43, _⟩ => ⟨S300000x2, .f32⟩
  | .hbm, ⟨44, _⟩ => ⟨S300000x2, .f32⟩
  | .hbm, ⟨45, _⟩ => ⟨S300000x2, .bf16⟩
  | .hbm, ⟨46, _⟩ => ⟨S_, .i32⟩
  | .hbm, ⟨47, _⟩ => ⟨S300000, .i32⟩
  | .hbm, ⟨48, _⟩ => ⟨S300000, .i1⟩
  | .hbm, ⟨49, _⟩ => ⟨S_, .i32⟩
  | .hbm, ⟨50, _⟩ => ⟨S300000, .i32⟩
  | .hbm, ⟨51, _⟩ => ⟨S300000, .i32⟩
  | .hbm, ⟨52, _⟩ => ⟨S300000, .i32⟩
  | .hbm, ⟨53, _⟩ => ⟨S300000x1, .i32⟩
  | .hbm, ⟨54, _⟩ => ⟨S300000x128, .bf16⟩
  | .hbm, ⟨55, _⟩ => ⟨S_, .i32⟩
  | .hbm, ⟨56, _⟩ => ⟨S300000, .i32⟩
  | .hbm, ⟨57, _⟩ => ⟨S300000, .i1⟩
  | .hbm, ⟨58, _⟩ => ⟨S_, .i32⟩
  | .hbm, ⟨59, _⟩ => ⟨S300000, .i32⟩
  | .hbm, ⟨60, _⟩ => ⟨S300000, .i32⟩
  | .hbm, ⟨61, _⟩ => ⟨S300000, .i32⟩
  | .hbm, ⟨62, _⟩ => ⟨S300000x1, .i32⟩
  | .hbm, ⟨63, _⟩ => ⟨S300000x128, .bf16⟩
  | .hbm, ⟨64, _⟩ => ⟨S300000x128, .bf16⟩
  | .hbm, ⟨65, _⟩ => ⟨S_, .f32⟩
  | .hbm, ⟨66, _⟩ => ⟨S50000x128, .f32⟩
  | .hbm, ⟨67, _⟩ => ⟨S300000x128, .f32⟩
  | .hbm, ⟨68, _⟩ => ⟨S_, .i32⟩
  | .hbm, ⟨69, _⟩ => ⟨S300000, .i32⟩
  | .hbm, ⟨70, _⟩ => ⟨S300000, .i1⟩
  | .hbm, ⟨71, _⟩ => ⟨S_, .i32⟩
  | .hbm, ⟨72, _⟩ => ⟨S300000, .i32⟩
  | .hbm, ⟨73, _⟩ => ⟨S300000, .i32⟩
  | .hbm, ⟨74, _⟩ => ⟨S300000, .i32⟩
  | .hbm, ⟨75, _⟩ => ⟨S300000x1, .i32⟩
  | .hbm, ⟨76, _⟩ => ⟨S50000x128, .f32⟩
  | .hbm, ⟨77, _⟩ => ⟨S50000x128, .f32⟩
  | .local _ .vmem, ⟨0, _⟩ => ⟨S6000x2, .bf16⟩
  | .local _ .vmem, ⟨1, _⟩ => ⟨S6000x2, .bf16⟩
  | .local _ .vmem, ⟨2, _⟩ => ⟨S6000x128, .bf16⟩
  | .local _ .vmem, ⟨3, _⟩ => ⟨S6000x128, .bf16⟩
  | .local _ .vmem, ⟨4, _⟩ => ⟨S6000x128, .bf16⟩
  | .local _ .vmem, ⟨5, _⟩ => ⟨S6000x128, .bf16⟩
  | .local _ .vmem, ⟨6, _⟩ => ⟨S128x2, .f32⟩
  | .local _ .vmem, ⟨7, _⟩ => ⟨S128, .f32⟩
  | .local _ .vmem, ⟨8, _⟩ => ⟨S128x128, .f32⟩
  | .local _ .vmem, ⟨9, _⟩ => ⟨S128, .f32⟩
  | .local _ .vmem, ⟨10, _⟩ => ⟨S128, .f32⟩
  | .local _ .vmem, ⟨11, _⟩ => ⟨S128x128, .f32⟩
  | .local _ .vmem, ⟨12, _⟩ => ⟨S128, .f32⟩
  | .local _ .vmem, ⟨13, _⟩ => ⟨S128, .f32⟩
  | .local _ .vmem, ⟨14, _⟩ => ⟨S128x384, .f32⟩
  | .local _ .vmem, ⟨15, _⟩ => ⟨S128, .f32⟩
  | .local _ .vmem, ⟨16, _⟩ => ⟨S128, .f32⟩
  | .local _ .vmem, ⟨17, _⟩ => ⟨S128x128, .f32⟩
  | .local _ .vmem, ⟨18, _⟩ => ⟨S6000x128, .bf16⟩
  | .local _ .vmem, ⟨19, _⟩ => ⟨S6000x128, .bf16⟩
  | .local _ .vmem, ⟨20, _⟩ => ⟨S5000x128, .f32⟩
  | .local _ .vmem, ⟨21, _⟩ => ⟨S5000x128, .f32⟩
  | .local _ .vmem, ⟨22, _⟩ => ⟨S5000x128, .f32⟩
  | .local _ .vmem, ⟨23, _⟩ => ⟨S5000x128, .f32⟩
  | .local _ .vmem, ⟨24, _⟩ => ⟨S128x128, .f32⟩
  | .local _ .vmem, ⟨25, _⟩ => ⟨S128, .f32⟩
  | .local _ .vmem, ⟨26, _⟩ => ⟨S128, .f32⟩
  | .local _ .vmem, ⟨27, _⟩ => ⟨S128x128, .f32⟩
  | .local _ .vmem, ⟨28, _⟩ => ⟨S128, .f32⟩
  | .local _ .vmem, ⟨29, _⟩ => ⟨S128, .f32⟩
  | .local _ .vmem, ⟨30, _⟩ => ⟨S5000x128, .f32⟩
  | .local _ .vmem, ⟨31, _⟩ => ⟨S5000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_v0 : Ref sig .tc := ⟨.hbm, 24, rfl⟩
abbrev main_v1 : Ref sig .tc := ⟨.hbm, 25, rfl⟩
abbrev main_c : Ref sig .tc := ⟨.hbm, 26, rfl⟩
abbrev main_v2 : Ref sig .tc := ⟨.hbm, 27, rfl⟩
abbrev main_v3 : Ref sig .tc := ⟨.hbm, 28, rfl⟩
abbrev main_c_0 : Ref sig .tc := ⟨.hbm, 29, rfl⟩
abbrev main_v4 : Ref sig .tc := ⟨.hbm, 30, rfl⟩
abbrev main_v5 : Ref sig .tc := ⟨.hbm, 31, rfl⟩
abbrev main_v6 : Ref sig .tc := ⟨.hbm, 32, rfl⟩
abbrev main_v7 : Ref sig .tc := ⟨.hbm, 33, rfl⟩
abbrev main_v8 : Ref sig .tc := ⟨.hbm, 34, rfl⟩
abbrev main_c_1 : Ref sig .tc := ⟨.hbm, 35, rfl⟩
abbrev main_v9 : Ref sig .tc := ⟨.hbm, 36, rfl⟩
abbrev main_v10 : Ref sig .tc := ⟨.hbm, 37, rfl⟩
abbrev main_c_2 : Ref sig .tc := ⟨.hbm, 38, rfl⟩
abbrev main_v11 : Ref sig .tc := ⟨.hbm, 39, rfl⟩
abbrev main_v12 : Ref sig .tc := ⟨.hbm, 40, rfl⟩
abbrev main_v13 : Ref sig .tc := ⟨.hbm, 41, rfl⟩
abbrev main_v14 : Ref sig .tc := ⟨.hbm, 42, rfl⟩
abbrev main_v15 : Ref sig .tc := ⟨.hbm, 43, rfl⟩
abbrev main_v16 : Ref sig .tc := ⟨.hbm, 44, rfl⟩
abbrev main_v17 : Ref sig .tc := ⟨.hbm, 45, rfl⟩
abbrev main_c_3 : Ref sig .tc := ⟨.hbm, 46, rfl⟩
abbrev main_v18 : Ref sig .tc := ⟨.hbm, 47, rfl⟩
abbrev main_v19 : Ref sig .tc := ⟨.hbm, 48, rfl⟩
abbrev main_c_4 : Ref sig .tc := ⟨.hbm, 49, rfl⟩
abbrev main_v20 : Ref sig .tc := ⟨.hbm, 50, rfl⟩
abbrev main_v21 : Ref sig .tc := ⟨.hbm, 51, rfl⟩
abbrev main_v22 : Ref sig .tc := ⟨.hbm, 52, rfl⟩
abbrev main_v23 : Ref sig .tc := ⟨.hbm, 53, rfl⟩
abbrev main_v24 : Ref sig .tc := ⟨.hbm, 54, rfl⟩
abbrev main_c_5 : Ref sig .tc := ⟨.hbm, 55, rfl⟩
abbrev main_v25 : Ref sig .tc := ⟨.hbm, 56, rfl⟩
abbrev main_v26 : Ref sig .tc := ⟨.hbm, 57, rfl⟩
abbrev main_c_6 : Ref sig .tc := ⟨.hbm, 58, rfl⟩
abbrev main_v27 : Ref sig .tc := ⟨.hbm, 59, rfl⟩
abbrev main_v28 : Ref sig .tc := ⟨.hbm, 60, rfl⟩
abbrev main_v29 : Ref sig .tc := ⟨.hbm, 61, rfl⟩
abbrev main_v30 : Ref sig .tc := ⟨.hbm, 62, rfl⟩
abbrev main_v31 : Ref sig .tc := ⟨.hbm, 63, rfl⟩
abbrev main_v32 : Ref sig .tc := ⟨.hbm, 64, rfl⟩
abbrev main_cst : Ref sig .tc := ⟨.hbm, 65, rfl⟩
abbrev main_v33 : Ref sig .tc := ⟨.hbm, 66, rfl⟩
abbrev main_v34 : Ref sig .tc := ⟨.hbm, 67, rfl⟩
abbrev main_c_7 : Ref sig .tc := ⟨.hbm, 68, rfl⟩
abbrev main_v35 : Ref sig .tc := ⟨.hbm, 69, rfl⟩
abbrev main_v36 : Ref sig .tc := ⟨.hbm, 70, rfl⟩
abbrev main_c_8 : Ref sig .tc := ⟨.hbm, 71, rfl⟩
abbrev main_v37 : Ref sig .tc := ⟨.hbm, 72, rfl⟩
abbrev main_v38 : Ref sig .tc := ⟨.hbm, 73, rfl⟩
abbrev main_v39 : Ref sig .tc := ⟨.hbm, 74, rfl⟩
abbrev main_v40 : Ref sig .tc := ⟨.hbm, 75, rfl⟩
abbrev main_v41 : Ref sig .tc := ⟨.hbm, 76, rfl⟩
abbrev main_v42 : Ref sig .tc := ⟨.hbm, 77, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg12_0 : Ref sig .tc := ⟨.vmem, 15, rfl⟩
abbrev cc0_stg13_0 : Ref sig .tc := ⟨.vmem, 16, rfl⟩
abbrev cc0_stg14_0 : Ref sig .tc := ⟨.vmem, 17, rfl⟩
abbrev cc0_stg15_0 : Ref sig .tc := ⟨.vmem, 18, rfl⟩
abbrev cc0_stg15_1 : Ref sig .tc := ⟨.vmem, 19, rfl⟩
abbrev cc1_stg0_0 : Ref sig .tc := ⟨.vmem, 20, rfl⟩
abbrev cc1_stg0_1 : Ref sig .tc := ⟨.vmem, 21, rfl⟩
abbrev cc1_stg1_0 : Ref sig .tc := ⟨.vmem, 22, rfl⟩
abbrev cc1_stg1_1 : Ref sig .tc := ⟨.vmem, 23, rfl⟩
abbrev cc1_stg2_0 : Ref sig .tc := ⟨.vmem, 24, rfl⟩
abbrev cc1_stg3_0 : Ref sig .tc := ⟨.vmem, 25, rfl⟩
abbrev cc1_stg4_0 : Ref sig .tc := ⟨.vmem, 26, rfl⟩
abbrev cc1_stg5_0 : Ref sig .tc := ⟨.vmem, 27, rfl⟩
abbrev cc1_stg6_0 : Ref sig .tc := ⟨.vmem, 28, rfl⟩
abbrev cc1_stg7_0 : Ref sig .tc := ⟨.vmem, 29, rfl⟩
abbrev cc1_stg8_0 : Ref sig .tc := ⟨.vmem, 30, rfl⟩
abbrev cc1_stg8_1 : Ref sig .tc := ⟨.vmem, 31, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem12_0 : DmaSem sig := 15
abbrev cc0_sem13_0 : DmaSem sig := 16
abbrev cc0_sem14_0 : DmaSem sig := 17
abbrev cc0_sem15_0 : DmaSem sig := 18
abbrev cc0_sem15_1 : DmaSem sig := 19
abbrev cc1_sem0_0 : DmaSem sig := 20
abbrev cc1_sem0_1 : DmaSem sig := 21
abbrev cc1_sem1_0 : DmaSem sig := 22
abbrev cc1_sem1_1 : DmaSem sig := 23
abbrev cc1_sem2_0 : DmaSem sig := 24
abbrev cc1_sem3_0 : DmaSem sig := 25
abbrev cc1_sem4_0 : DmaSem sig := 26
abbrev cc1_sem5_0 : DmaSem sig := 27
abbrev cc1_sem6_0 : DmaSem sig := 28
abbrev cc1_sem7_0 : DmaSem sig := 29
abbrev cc1_sem8_0 : DmaSem sig := 30
abbrev cc1_sem8_1 : DmaSem sig := 31

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_10 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_13 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S6000x2 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S6000x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S6000x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x2 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S128x384 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S128x128 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 2 → Memref sig .tc .vmem S6000x128 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_4 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_7 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_8 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S128 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 2 → Memref sig .tc .vmem S5000x128 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

class Facts₀ : Prop where
  bitsLt_bf16_f32 : FTy.bits .bf16 < FTy.bits .f32
  bcast_S_S300000 : S_.BroadcastsInDim S300000 (![] : Fin 0 → Fin S300000.rank)
  bcast_S300000_S300000x1_0 : S300000.BroadcastsInDim S300000x1 (![0] : Fin 1 → Fin S300000x1.rank)
  inb_S6000x2_S6000x2_0_0 : ∀ a, (![0, 0] : Fin 2 → Nat) a + S6000x2.size a ≤ S6000x2.size a
  h_S6000x2 : 0 < S6000x2.numel
  shapeCasts_S6000x2_S6000x2 : S6000x2.ShapeCasts S6000x2
  inb_S128x2_S128x2_0_0 : ∀ a, (![0, 0] : Fin 2 → Nat) a + S128x2.size a ≤ S128x2.size a
  h_S128x2 : 0 < S128x2.numel
  transposes_S128x2_p1_0_S2x128 : S128x2.Transposes [1, 0] S2x128
  inb_S128_S128_0 : ∀ a, (![0] : Fin 1 → Nat) a + S128.size a ≤ S128.size a
  h_S128 : 0 < S128.numel
  shapeCasts_S128_S1x128 : S128.ShapeCasts S1x128
  broadcasts_S1x128_S6000x128 : S1x128.Broadcasts S6000x128
  inb_S128x128_S128x128_0_0 : ∀ a, (![0, 0] : Fin 2 → Nat) a + S128x128.size a ≤ S128x128.size a
  h_S128x128 : 0 < S128x128.numel
  transposes_S128x128_p1_0_S128x128 : S128x128.Transposes [1, 0] S128x128
  reduces_S6000x128_S6000 : S6000x128.Reduces [1] S6000
  shapeCasts_S6000_S6000x1 : S6000.ShapeCasts S6000x1
  broadcasts_S6000x1_S6000x128 : S6000x1.Broadcasts S6000x128
  inb_S6000x128_S6000x128_0_0 : ∀ a, (![0, 0] : Fin 2 → Nat) a + S6000x128.size a ≤ S6000x128.size a
  h_S6000x128 : 0 < S6000x128.numel
  shapeCasts_S6000x128_S6000x128 : S6000x128.ShapeCasts S6000x128
  inb_S128x384_S128x384_0_0 : ∀ a, (![0, 0] : Fin 2 → Nat) a + S128x384.size a ≤ S128x384.size a
  h_S128x384 : 0 < S128x384.numel
  slices_S128x384_o0_0_S128x128 : S128x384.Slices ![0, 0] S128x128
  slices_S128x384_o0_128_S128x128 : S128x384.Slices ![0, 128] S128x128
  slices_S128x384_o0_256_S128x128 : S128x384.Slices ![0, 256] S128x128
  packedbf16_S6000x128_S6000x128_0_0 : (Rect.unit (s := S6000x128) ![0, 0] S6000x128.size inb_S6000x128_S6000x128_0_0).PackedRows (EltTy.packing .bf16)
  bcast_S_S50000x128 : S_.BroadcastsInDim S50000x128 (![] : Fin 0 → Fin S50000x128.rank)
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  reduces_S5000x128_S5000 : S5000x128.Reduces [1] S5000
  shapeCasts_S5000_S5000x1 : S5000.ShapeCasts S5000x1
  broadcasts_S5000x1_S5000x128 : S5000x1.Broadcasts S5000x128
  broadcasts_S1x128_S5000x128 : S1x128.Broadcasts S5000x128
  gather_S50000x2_S300000x1_S300000x2_1_0_n_n_0_1_12_wf : GatherDims.WF S50000x2 S300000x1 S300000x2 [1] [0] [] [0] [] 1 ![1, 2]
  gather_S50000x128_S300000x1_S300000x128_1_0_n_n_0_1_1128_wf : GatherDims.WF S50000x128 S300000x1 S300000x128 [1] [0] [] [0] [] 1 ![1, 128]
  dot_S6000x2_S2x128_S6000x128_1_0_0_1_n_n_wf : DotDims.WF S6000x2 S2x128 S6000x128 [1] [0] [0] [1] [] []
  dot_S6000x128_S128x128_S6000x128_1_0_0_1_n_n_wf : DotDims.WF S6000x128 S128x128 S6000x128 [1] [0] [0] [1] [] []
  scatter_S50000x128_S300000x1_S300000x128_1_0_0_1_wf : ScatterDims.WF S50000x128 S300000x1 S300000x128 [1] [0] [0] 1
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S6000x2.size a ≤ S300000x2.size a
  hwx0_0 : ∀ i : grid0.Coords, EltTy.bits .bf16 = 32 ∨ (Rect.block (s := S300000x2) S6000x2.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S6000x128.size a ≤ S300000x128.size a
  hwx0_1 : ∀ i : grid0.Coords, EltTy.bits .bf16 = 32 ∨ (Rect.block (s := S300000x128) S6000x128.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S6000x128.size a ≤ S300000x128.size a
  hwx0_2 : ∀ i : grid0.Coords, EltTy.bits .bf16 = 32 ∨ (Rect.block (s := S300000x128) S6000x128.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x2.size a ≤ S128x2.size a
  hwx0_3 : ∀ i : grid0.Coords, EltTy.bits .f32 = 32 ∨ (Rect.block (s := S128x2) S128x2.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128.size a ≤ S128.size a
  hwx0_4 : ∀ i : grid0.Coords, EltTy.bits .f32 = 32 ∨ (Rect.block (s := S128) S128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x128.size a ≤ S128x128.size a
  hwx0_5 : ∀ i : grid0.Coords, EltTy.bits .f32 = 32 ∨ (Rect.block (s := S128x128) S128x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128.size a ≤ S128.size a
  hwx0_6 : ∀ i : grid0.Coords, EltTy.bits .f32 = 32 ∨ (Rect.block (s := S128) S128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S128.size a ≤ S128.size a
  hwx0_7 : ∀ i : grid0.Coords, EltTy.bits .f32 = 32 ∨ (Rect.block (s := S128) S128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S128x128.size a ≤ S128x128.size a
  hwx0_8 : ∀ i : grid0.Coords, EltTy.bits .f32 = 32 ∨ (Rect.block (s := S128x128) S128x128.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S128.size a ≤ S128.size a
  hwx0_9 : ∀ i : grid0.Coords, EltTy.bits .f32 = 32 ∨ (Rect.block (s := S128) S128.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S128.size a ≤ S128.size a
  hwx0_10 : ∀ i : grid0.Coords, EltTy.bits .f32 = 32 ∨ (Rect.block (s := S128) S128.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S128x384.size a ≤ S128x384.size a
  hwx0_11 : ∀ i : grid0.Coords, EltTy.bits .f32 = 32 ∨ (Rect.block (s := S128x384) S128x384.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S128.size a ≤ S128.size a
  hwx0_12 : ∀ i : grid0.Coords, EltTy.bits .f32 = 32 ∨ (Rect.block (s := S128) S128.size (cc0_transform_12 i) (hinb0_12 i)).WholeWords (EltTy.packing .f32)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S128.size a ≤ S128.size a
  hwx0_13 : ∀ i : grid0.Coords, EltTy.bits .f32 = 32 ∨ (Rect.block (s := S128) S128.size (cc0_transform_13 i) (hinb0_13 i)).WholeWords (EltTy.packing .f32)
  hstage0_14 : ∀ j, (stage0_14 j).IsWhole
  nbuf0_14 : grid0.bufCount reads0_14 true = 1
  hreads0_14 : ∀ i i' : grid0.Coords, (∀ a, reads0_14 a = true → i a = i' a) → cc0_transform_14 i = cc0_transform_14 i'
  hinb0_14 : ∀ (i : grid0.Coords) a, (cc0_transform_14 i a + 1) * S128x128.size a ≤ S128x128.size a
  hwx0_14 : ∀ i : grid0.Coords, EltTy.bits .f32 = 32 ∨ (Rect.block (s := S128x128) S128x128.size (cc0_transform_14 i) (hinb0_14 i)).WholeWords (EltTy.packing .f32)
  hstage0_15 : ∀ j, (stage0_15 j).IsWhole
  nbuf0_15 : grid0.bufCount reads0_15 false = 2
  hreads0_15 : ∀ i i' : grid0.Coords, (∀ a, reads0_15 a = true → i a = i' a) → cc0_transform_15 i = cc0_transform_15 i'
  hinb0_15 : ∀ (i : grid0.Coords) a, (cc0_transform_15 i a + 1) * S6000x128.size a ≤ S300000x128.size a
  hwx0_15 : ∀ i : grid0.Coords, EltTy.bits .bf16 = 32 ∨ (Rect.block (s := S300000x128) S6000x128.size (cc0_transform_15 i) (hinb0_15 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S50000x128.size a
  hwx1_1 : ∀ i : grid1.Coords, EltTy.bits .f32 = 32 ∨ (Rect.block (s := S50000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128.size a ≤ S128.size a
  hwx1_3 : ∀ i : grid1.Coords, EltTy.bits .f32 = 32 ∨ (Rect.block (s := S128) S128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128.size a ≤ S128.size a
  hwx1_4 : ∀ i : grid1.Coords, EltTy.bits .f32 = 32 ∨ (Rect.block (s := S128) S128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128x128.size a ≤ S128x128.size a
  hwx1_5 : ∀ i : grid1.Coords, EltTy.bits .f32 = 32 ∨ (Rect.block (s := S128x128) S128x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S128.size a ≤ S128.size a
  hwx1_6 : ∀ i : grid1.Coords, EltTy.bits .f32 = 32 ∨ (Rect.block (s := S128) S128.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S128.size a ≤ S128.size a
  hwx1_7 : ∀ i : grid1.Coords, EltTy.bits .f32 = 32 ∨ (Rect.block (s := S128) S128.size (cc1_transform_7 i) (hinb1_7 i)).WholeWords (EltTy.packing .f32)
  hstage1_8 : ∀ j, (stage1_8 j).IsWhole
  nbuf1_8 : grid1.bufCount reads1_8 false = 2
  hreads1_8 : ∀ i i' : grid1.Coords, (∀ a, reads1_8 a = true → i a = i' a) → cc1_transform_8 i = cc1_transform_8 i'
  hinb1_8 : ∀ (i : grid1.Coords) a, (cc1_transform_8 i a + 1) * S5000x128.size a ≤ S50000x128.size a
  hwx1_8 : ∀ i : grid1.Coords, EltTy.bits .f32 = 32 ∨ (Rect.block (s := S50000x128) S5000x128.size (cc1_transform_8 i) (hinb1_8 i)).WholeWords (EltTy.packing .f32)

variable [Facts₀]

def gather_S50000x2_S300000x1_S300000x2_1_0_n_n_0_1_12 : GatherDims S50000x2 S300000x1 S300000x2 where
  offsetDims := [1]
  collapsedSliceDims := [0]
  operandBatchingDims := []
  startIndicesBatchingDims := []
  startIndexMap := [0]
  indexVectorDim := 1
  sliceSizes := ![1, 2]
  wf := gather_S50000x2_S300000x1_S300000x2_1_0_n_n_0_1_12_wf
def gather_S50000x128_S300000x1_S300000x128_1_0_n_n_0_1_1128 : GatherDims S50000x128 S300000x1 S300000x128 where
  offsetDims := [1]
  collapsedSliceDims := [0]
  operandBatchingDims := []
  startIndicesBatchingDims := []
  startIndexMap := [0]
  indexVectorDim := 1
  sliceSizes := ![1, 128]
  wf := gather_S50000x128_S300000x1_S300000x128_1_0_n_n_0_1_1128_wf
def dot_S6000x2_S2x128_S6000x128_1_0_0_1_n_n : DotDims S6000x2 S2x128 S6000x128 where
  lhsContracting := [1]
  rhsContracting := [0]
  lhsNonContracting := [0]
  rhsNonContracting := [1]
  lhsBatch := []
  rhsBatch := []
  wf := dot_S6000x2_S2x128_S6000x128_1_0_0_1_n_n_wf
def dot_S6000x128_S128x128_S6000x128_1_0_0_1_n_n : DotDims S6000x128 S128x128 S6000x128 where
  lhsContracting := [1]
  rhsContracting := [0]
  lhsNonContracting := [0]
  rhsNonContracting := [1]
  lhsBatch := []
  rhsBatch := []
  wf := dot_S6000x128_S128x128_S6000x128_1_0_0_1_n_n_wf
def scatter_S50000x128_S300000x1_S300000x128_1_0_0_1 : ScatterDims S50000x128 S300000x1 S300000x128 where
  updateWindowDims := [1]
  insertedWindowDims := [0]
  scatterDimsToOperandDims := [0]
  indexVectorDim := 1
  wf := scatter_S50000x128_S300000x1_S300000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_v17) S6000x2.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v24) S6000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v31) S6000x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg6) S128x2.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg7) S128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg8) S128x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg9) S128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg10) S128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg11) S128x128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg12) S128.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_arg13) S128.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_arg14) S128x384.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_arg15) S128.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_arg16) S128.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_arg17) S128x128.size cc0_transform_14 reads0_14 false true 1 stage0_14 sem0_14
    hrank0 hreads0_14 hinb0_14 nbuf0_14 (Memref.isWhole_whole _) hwx0_14 hstage0_14

abbrev win0_15 : Pipeline.Window sig grid0 :=
  Pipeline.Window.ofSpec (Memref.whole main_v32) S6000x128.size cc0_transform_15 reads0_15 true false 2 stage0_15 sem0_15
    hrank0 hreads0_15 hinb0_15 nbuf0_15 (Memref.isWhole_whole _) hwx0_15 hstage0_15

abbrev win0 : Fin 16 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | ⟨_ + 16, h⟩ => absurd h (Nat.not_lt.2 (Nat.le_add_left _ _))
abbrev spec0 : Fin 16 → Pipeline.WinSpec sig grid0.rank := fun w => (win0 w).toWinSpec

abbrev win1_0 : Pipeline.Window sig grid1 :=
  Pipeline.Window.ofSpec (Memref.whole main_arg0) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v41) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg18) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg19) S128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg20) S128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg21) S128x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_arg22) S128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_arg23) S128.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v42) S5000x128.size cc1_transform_8 reads1_8 true false 2 stage1_8 sem1_8
    hrank1 hreads1_8 hinb1_8 nbuf1_8 (Memref.isWhole_whole _) hwx1_8 hstage1_8

abbrev win1 : Fin 9 → Pipeline.Window sig grid1 := fun | 0 => win1_0 | 1 => win1_1 | 2 => win1_2 | 3 => win1_3 | 4 => win1_4 | 5 => win1_5 | 6 => win1_6 | 7 => win1_7 | 8 => win1_8 | ⟨_ + 9, h⟩ => absurd h (Nat.not_lt.2 (Nat.le_add_left _ _))
abbrev spec1 : Fin 9 → Pipeline.WinSpec sig grid1.rank := fun w => (win1 w).toWinSpec

class Facts : Prop extends Facts₀ where

variable [Facts]
-- ==== ReferenceIdeal.lean ====
abbrev S50000x128 : Shape := ⟨2, ![50000, 128]⟩
abbrev S50000x2 : Shape := ⟨2, ![50000, 2]⟩
abbrev S300000 : Shape := ⟨1, ![300000]⟩
abbrev S128x2 : Shape := ⟨2, ![128, 2]⟩
abbrev S128 : Shape := ⟨1, ![128]⟩
abbrev S128x128 : Shape := ⟨2, ![128, 128]⟩
abbrev S128x384 : Shape := ⟨2, ![128, 384]⟩
abbrev S_ : Shape := ⟨0, ![]⟩
abbrev S300000x1 : Shape := ⟨2, ![300000, 1]⟩
abbrev S300000x2 : Shape := ⟨2, ![300000, 2]⟩
abbrev S2x128 : Shape := ⟨2, ![2, 128]⟩
abbrev S300000x128 : Shape := ⟨2, ![300000, 128]⟩
abbrev S1x128 : Shape := ⟨2, ![1, 128]⟩
abbrev S300000x384 : Shape := ⟨2, ![300000, 384]⟩
abbrev S384x128 : Shape := ⟨2, ![384, 128]⟩
abbrev S50000 : Shape := ⟨1, ![50000]⟩
abbrev S50000x1 : Shape := ⟨2, ![50000, 1]⟩

abbrev nBuf : Space → Nat
  | .hbm => 252
  | .vmem => 0
  | .smem => 0
  | _ => 0

abbrev hbmTy0_0 (i : Nat) : BufTy := match i % 128 with
  | 0 => ⟨S50000x128, .f32⟩
  | 1 => ⟨S50000x128, .f32⟩
  | 2 => ⟨S50000x2, .f32⟩
  | 3 => ⟨S50000x2, .f32⟩
  | 4 => ⟨S300000, .i32⟩
  | 5 => ⟨S300000, .i32⟩
  | 6 => ⟨S128x2, .f32⟩
  | 7 => ⟨S128, .f32⟩
  | 8 => ⟨S128x128, .f32⟩
  | 9 => ⟨S128, .f32⟩
  | 10 => ⟨S128, .f32⟩
  | 11 => ⟨S128x128, .f32⟩
  | 12 => ⟨S128, .f32⟩
  | 13 => ⟨S128, .f32⟩
  | 14 => ⟨S128x384, .f32⟩
  | 15 => ⟨S128, .f32⟩
  | 16 => ⟨S128, .f32⟩
  | 17 => ⟨S128x128, .f32⟩
  | 18 => ⟨S128x128, .f32⟩
  | 19 => ⟨S128, .f32⟩
  | 20 => ⟨S128, .f32⟩
  | 21 => ⟨S128x128, .f32⟩
  | 22 => ⟨S128, .f32⟩
  | 23 => ⟨S128, .f32⟩
  | 24 => ⟨S_, .i32⟩
  | 25 => ⟨S300000, .i32⟩
  | 26 => ⟨S300000, .i1⟩
  | 27 => ⟨S_, .i32⟩
  | 28 => ⟨S300000, .i32⟩
  | 29 => ⟨S300000, .i32⟩
  | 30 => ⟨S300000, .i32⟩
  | 31 => ⟨S300000x1, .i32⟩
  | 32 => ⟨S300000x2, .f32⟩
  | 33 => ⟨S_, .i32⟩
  | 34 => ⟨S300000, .i32⟩
  | 35 => ⟨S300000, .i1⟩
  | 36 => ⟨S_, .i32⟩
  | 37 => ⟨S300000, .i32⟩
  | 38 => ⟨S300000, .i32⟩
  | 39 => ⟨S300000, .i32⟩
  | 40 => ⟨S300000x1, .i32⟩
  | 41 => ⟨S300000x2, .f32⟩
  | 42 => ⟨S300000x2, .f32⟩
  | 43 => ⟨S2x128, .f32⟩
  | 44 => ⟨S300000x128, .f32⟩
  | 45 => ⟨S1x128, .f32⟩
  | 46 => ⟨S300000x128, .f32⟩
  | 47 => ⟨S300000x128, .f32⟩
  | 48 => ⟨S_, .f32⟩
  | 49 => ⟨S300000x128, .f32⟩
  | 50 => ⟨S300000x128, .f32⟩
  | 51 => ⟨S128x128, .f32⟩
  | 52 => ⟨S300000x128, .f32⟩
  | 53 => ⟨S_, .f32⟩
  | 54 => ⟨S300000, .f32⟩
  | 55 => ⟨S300000x1, .f32⟩
  | 56 => ⟨S_, .f32⟩
  | 57 => ⟨S300000x1, .f32⟩
  | 58 => ⟨S300000x1, .f32⟩
  | 59 => ⟨S300000x128, .f32⟩
  | 60 => ⟨S300000x128, .f32⟩
  | 61 => ⟨S300000x128, .f32⟩
  | 62 => ⟨S_, .f32⟩
  | 63 => ⟨S300000, .f32⟩
  | 64 => ⟨S300000x1, .f32⟩
  | 65 => ⟨S_, .f32⟩
  | 66 => ⟨S300000x1, .f32⟩
  | 67 => ⟨S300000x1, .f32⟩
  | 68 => ⟨S300000x128, .f32⟩
  | 69 => ⟨S300000x128, .f32⟩
  | 70 => ⟨S_, .f32⟩
  | 71 => ⟨S300000x1, .f32⟩
  | 72 => ⟨S300000x1, .f32⟩
  | 73 => ⟨S300000x1, .f32⟩
  | 74 => ⟨S300000x128, .f32⟩
  | 75 => ⟨S300000x128, .f32⟩
  | 76 => ⟨S1x128, .f32⟩
  | 77 => ⟨S300000x128, .f32⟩
  | 78 => ⟨S300000x128, .f32⟩
  | 79 => ⟨S1x128, .f32⟩
  | 80 => ⟨S300000x128, .f32⟩
  | 81 => ⟨S300000x128, .f32⟩
  | 82 => ⟨S_, .f32⟩
  | 83 => ⟨S300000x128, .f32⟩
  | 84 => ⟨S300000x128, .f32⟩
  | 85 => ⟨S_, .i32⟩
  | 86 => ⟨S300000, .i32⟩
  | 87 => ⟨S300000, .i1⟩
  | 88 => ⟨S_, .i32⟩
  | 89 => ⟨S300000, .i32⟩
  | 90 => ⟨S300000, .i32⟩
  | 91 => ⟨S300000, .i32⟩
  | 92 => ⟨S300000x1, .i32⟩
  | 93 => ⟨S300000x128, .f32⟩
  | 94 => ⟨S128x128, .f32⟩
  | 95 => ⟨S300000x128, .f32⟩
  | 96 => ⟨S_, .f32⟩
  | 97 => ⟨S300000, .f32⟩
  | 98 => ⟨S300000x1, .f32⟩
  | 99 => ⟨S_, .f32⟩
  | 100 => ⟨S300000x1, .f32⟩
  | 101 => ⟨S300000x1, .f32⟩
  | 102 => ⟨S300000x128, .f32⟩
  | 103 => ⟨S300000x128, .f32⟩
  | 104 => ⟨S300000x128, .f32⟩
  | 105 => ⟨S_, .f32⟩
  | 106 => ⟨S300000, .f32⟩
  | 107 => ⟨S300000x1, .f32⟩
  | 108 => ⟨S_, .f32⟩
  | 109 => ⟨S300000x1, .f32⟩
  | 110 => ⟨S300000x1, .f32⟩
  | 111 => ⟨S300000x128, .f32⟩
  | 112 => ⟨S300000x128, .f32⟩
  | 113 => ⟨S_, .f32⟩
  | 114 => ⟨S300000x1, .f32⟩
  | 115 => ⟨S300000x1, .f32⟩
  | 116 => ⟨S300000x1, .f32⟩
  | 117 => ⟨S300000x128, .f32⟩
  | 118 => ⟨S300000x128, .f32⟩
  | 119 => ⟨S1x128, .f32⟩
  | 120 => ⟨S300000x128, .f32⟩
  | 121 => ⟨S300000x128, .f32⟩
  | 122 => ⟨S1x128, .f32⟩
  | 123 => ⟨S300000x128, .f32⟩
  | 124 => ⟨S300000x128, .f32⟩
  | 125 => ⟨S_, .f32⟩
  | 126 => ⟨S300000x128, .f32⟩
  | 127 => ⟨S300000x128, .f32⟩
  | _ => ⟨S50000x128, .f32⟩

abbrev hbmTy0_1 (i : Nat) : BufTy := match i % 128 with
  | 0 => ⟨S_, .i32⟩
  | 1 => ⟨S300000, .i32⟩
  | 2 => ⟨S300000, .i1⟩
  | 3 => ⟨S_, .i32⟩
  | 4 => ⟨S300000, .i32⟩
  | 5 => ⟨S300000, .i32⟩
  | 6 => ⟨S300000, .i32⟩
  | 7 => ⟨S300000x1, .i32⟩
  | 8 => ⟨S300000x128, .f32⟩
  | 9 => ⟨S300000x384, .f32⟩
  | 10 => ⟨S384x128, .f32⟩
  | 11 => ⟨S300000x128, .f32⟩
  | 12 => ⟨S_, .f32⟩
  | 13 => ⟨S300000, .f32⟩
  | 14 => ⟨S300000x1, .f32⟩
  | 15 => ⟨S_, .f32⟩
  | 16 => ⟨S300000x1, .f32⟩
  | 17 => ⟨S300000x1, .f32⟩
  | 18 => ⟨S300000x128, .f32⟩
  | 19 => ⟨S300000x128, .f32⟩
  | 20 => ⟨S300000x128, .f32⟩
  | 21 => ⟨S_, .f32⟩
  | 22 => ⟨S300000, .f32⟩
  | 23 => ⟨S300000x1, .f32⟩
  | 24 => ⟨S_, .f32⟩
  | 25 => ⟨S300000x1, .f32⟩
  | 26 => ⟨S300000x1, .f32⟩
  | 27 => ⟨S300000x128, .f32⟩
  | 28 => ⟨S300000x128, .f32⟩
  | 29 => ⟨S_, .f32⟩
  | 30 => ⟨S300000x1, .f32⟩
  | 31 => ⟨S300000x1, .f32⟩
  | 32 => ⟨S300000x1, .f32⟩
  | 33 => ⟨S300000x128, .f32⟩
  | 34 => ⟨S300000x128, .f32⟩
  | 35 => ⟨S1x128, .f32⟩
  | 36 => ⟨S300000x128, .f32⟩
  | 37 => ⟨S300000x128, .f32⟩
  | 38 => ⟨S1x128, .f32⟩
  | 39 => ⟨S300000x128, .f32⟩
  | 40 => ⟨S300000x128, .f32⟩
  | 41 => ⟨S_, .f32⟩
  | 42 => ⟨S300000x128, .f32⟩
  | 43 => ⟨S300000x128, .f32⟩
  | 44 => ⟨S128x128, .f32⟩
  | 45 => ⟨S300000x128, .f32⟩
  | 46 => ⟨S128x128, .f32⟩
  | 47 => ⟨S50000x128, .f32⟩
  | 48 => ⟨S_, .i32⟩
  | 49 => ⟨S300000, .i32⟩
  | 50 => ⟨S300000, .i1⟩
  | 51 => ⟨S_, .i32⟩
  | 52 => ⟨S300000, .i32⟩
  | 53 => ⟨S300000, .i32⟩
  | 54 => ⟨S300000, .i32⟩
  | 55 => ⟨S300000x1, .i32⟩
  | 56 => ⟨S50000x128, .f32⟩
  | 57 => ⟨S_, .f32⟩
  | 58 => ⟨S50000, .f32⟩
  | 59 => ⟨S50000x1, .f32⟩
  | 60 => ⟨S_, .f32⟩
  | 61 => ⟨S50000x1, .f32⟩
  | 62 => ⟨S50000x1, .f32⟩
  | 63 => ⟨S50000x128, .f32⟩
  | 64 => ⟨S50000x128, .f32⟩
  | 65 => ⟨S50000x128, .f32⟩
  | 66 => ⟨S_, .f32⟩
  | 67 => ⟨S50000, .f32⟩
  | 68 => ⟨S50000x1, .f32⟩
  | 69 => ⟨S_, .f32⟩
  | 70 => ⟨S50000x1, .f32⟩
  | 71 => ⟨S50000x1, .f32⟩
  | 72 => ⟨S50000x128, .f32⟩
  | 73 => ⟨S50000x128, .f32⟩
  | 74 => ⟨S_, .f32⟩
  | 75 => ⟨S50000x1, .f32⟩
  | 76 => ⟨S50000x1, .f32⟩
  | 77 => ⟨S50000x1, .f32⟩
  | 78 => ⟨S50000x128, .f32⟩
  | 79 => ⟨S50000x128, .f32⟩
  | 80 => ⟨S1x128, .f32⟩
  | 81 => ⟨S50000x128, .f32⟩
  | 82 => ⟨S50000x128, .f32⟩
  | 83 => ⟨S1x128, .f32⟩
  | 84 => ⟨S50000x128, .f32⟩
  | 85 => ⟨S50000x128, .f32⟩
  | 86 => ⟨S_, .f32⟩
  | 87 => ⟨S50000x128, .f32⟩
  | 88 => ⟨S50000x128, .f32⟩
  | 89 => ⟨S128x128, .f32⟩
  | 90 => ⟨S50000x128, .f32⟩
  | 91 => ⟨S_, .f32⟩
  | 92 => ⟨S50000, .f32⟩
  | 93 => ⟨S50000x1, .f32⟩
  | 94 => ⟨S_, .f32⟩
  | 95 => ⟨S50000x1, .f32⟩
  | 96 => ⟨S50000x1, .f32⟩
  | 97 => ⟨S50000x128, .f32⟩
  | 98 => ⟨S50000x128, .f32⟩
  | 99 => ⟨S50000x128, .f32⟩
  | 100 => ⟨S_, .f32⟩
  | 101 => ⟨S50000, .f32⟩
  | 102 => ⟨S50000x1, .f32⟩
  | 103 => ⟨S_, .f32⟩
  | 104 => ⟨S50000x1, .f32⟩
  | 105 => ⟨S50000x1, .f32⟩
  | 106 => ⟨S50000x128, .f32⟩
  | 107 => ⟨S50000x128, .f32⟩
  | 108 => ⟨S_, .f32⟩
  | 109 => ⟨S50000x1, .f32⟩
  | 110 => ⟨S50000x1, .f32⟩
  | 111 => ⟨S50000x1, .f32⟩
  | 112 => ⟨S50000x128, .f32⟩
  | 113 => ⟨S50000x128, .f32⟩
  | 114 => ⟨S1x128, .f32⟩
  | 115 => ⟨S50000x128, .f32⟩
  | 116 => ⟨S50000x128, .f32⟩
  | 117 => ⟨S1x128, .f32⟩
  | 118 => ⟨S50000x128, .f32⟩
  | 119 => ⟨S50000x128, .f32⟩
  | 120 => ⟨S50000x128, .f32⟩
  | 121 => ⟨S_, .f32⟩
  | 122 => ⟨S50000x128, .f32⟩
  | 123 => ⟨S50000x128, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_c : Ref sig .tc := ⟨.hbm, 24, rfl⟩
abbrev main_v0 : Ref sig .tc := ⟨.hbm, 25, rfl⟩
abbrev main_v1 : Ref sig .tc := ⟨.hbm, 26, rfl⟩
abbrev main_c_0 : Ref sig .tc := ⟨.hbm, 27, rfl⟩
abbrev main_v2 : Ref sig .tc := ⟨.hbm, 28, rfl⟩
abbrev main_v3 : Ref sig .tc := ⟨.hbm, 29, rfl⟩
abbrev main_v4 : Ref sig .tc := ⟨.hbm, 30, rfl⟩
abbrev main_v5 : Ref sig .tc := ⟨.hbm, 31, rfl⟩
abbrev main_v6 : Ref sig .tc := ⟨.hbm, 32, rfl⟩
abbrev main_c_1 : Ref sig .tc := ⟨.hbm, 33, rfl⟩
abbrev main_v7 : Ref sig .tc := ⟨.hbm, 34, rfl⟩
abbrev main_v8 : Ref sig .tc := ⟨.hbm, 35, rfl⟩
abbrev main_c_2 : Ref sig .tc := ⟨.hbm, 36, rfl⟩
abbrev main_v9 : Ref sig .tc := ⟨.hbm, 37, rfl⟩
abbrev main_v10 : Ref sig .tc := ⟨.hbm, 38, rfl⟩
abbrev main_v11 : Ref sig .tc := ⟨.hbm, 39, rfl⟩
abbrev main_v12 : Ref sig .tc := ⟨.hbm, 40, rfl⟩
abbrev main_v13 : Ref sig .tc := ⟨.hbm, 41, rfl⟩
abbrev main_v14 : Ref sig .tc := ⟨.hbm, 42, rfl⟩
abbrev main_v15 : Ref sig .tc := ⟨.hbm, 43, rfl⟩
abbrev main_v16 : Ref sig .tc := ⟨.hbm, 44, rfl⟩
abbrev main_v17 : Ref sig .tc := ⟨.hbm, 45, rfl⟩
abbrev main_v18 : Ref sig .tc := ⟨.hbm, 46, rfl⟩
abbrev main_v19 : Ref sig .tc := ⟨.hbm, 47, rfl⟩
abbrev main_call0_cst : Ref sig .tc := ⟨.hbm, 48, rfl⟩
abbrev main_call0_v0 : Ref sig .tc := ⟨.hbm, 49, rfl⟩
abbrev main_v20 : Ref sig .tc := ⟨.hbm, 50, rfl⟩
abbrev main_v21 : Ref sig .tc := ⟨.hbm, 51, rfl⟩
abbrev main_v22 : Ref sig .tc := ⟨.hbm, 52, rfl⟩
abbrev main_cst : Ref sig .tc := ⟨.hbm, 53, rfl⟩
abbrev main_v23 : Ref sig .tc := ⟨.hbm, 54, rfl⟩
abbrev main_v24 : Ref sig .tc := ⟨.hbm, 55, rfl⟩
abbrev main_cst_3 : Ref sig .tc := ⟨.hbm, 56, rfl⟩
abbrev main_v25 : Ref sig .tc := ⟨.hbm, 57, rfl⟩
abbrev main_v26 : Ref sig .tc := ⟨.hbm, 58, rfl⟩
abbrev main_v27 : Ref sig .tc := ⟨.hbm, 59, rfl⟩
abbrev main_v28 : Ref sig .tc := ⟨.hbm, 60, rfl⟩
abbrev main_v29 : Ref sig .tc := ⟨.hbm, 61, rfl⟩
abbrev main_cst_4 : Ref sig .tc := ⟨.hbm, 62, rfl⟩
abbrev main_v30 : Ref sig .tc := ⟨.hbm, 63, rfl⟩
abbrev main_v31 : Ref sig .tc := ⟨.hbm, 64, rfl⟩
abbrev main_cst_5 : Ref sig .tc := ⟨.hbm, 65, rfl⟩
abbrev main_v32 : Ref sig .tc := ⟨.hbm, 66, rfl⟩
abbrev main_v33 : Ref sig .tc := ⟨.hbm, 67, rfl⟩
abbrev main_v34 : Ref sig .tc := ⟨.hbm, 68, rfl⟩
abbrev main_v35 : Ref sig .tc := ⟨.hbm, 69, rfl⟩
abbrev main_cst_6 : Ref sig .tc := ⟨.hbm, 70, rfl⟩
abbrev main_v36 : Ref sig .tc := ⟨.hbm, 71, rfl⟩
abbrev main_v37 : Ref sig .tc := ⟨.hbm, 72, rfl⟩
abbrev main_v38 : Ref sig .tc := ⟨.hbm, 73, rfl⟩
abbrev main_v39 : Ref sig .tc := ⟨.hbm, 74, rfl⟩
abbrev main_v40 : Ref sig .tc := ⟨.hbm, 75, rfl⟩
abbrev main_v41 : Ref sig .tc := ⟨.hbm, 76, rfl⟩
abbrev main_v42 : Ref sig .tc := ⟨.hbm, 77, rfl⟩
abbrev main_v43 : Ref sig .tc := ⟨.hbm, 78, rfl⟩
abbrev main_v44 : Ref sig .tc := ⟨.hbm, 79, rfl⟩
abbrev main_v45 : Ref sig .tc := ⟨.hbm, 80, rfl⟩
abbrev main_v46 : Ref sig .tc := ⟨.hbm, 81, rfl⟩
abbrev main_call1_cst : Ref sig .tc := ⟨.hbm, 82, rfl⟩
abbrev main_call1_v0 : Ref sig .tc := ⟨.hbm, 83, rfl⟩
abbrev main_v47 : Ref sig .tc := ⟨.hbm, 84, rfl⟩
abbrev main_c_7 : Ref sig .tc := ⟨.hbm, 85, rfl⟩
abbrev main_v48 : Ref sig .tc := ⟨.hbm, 86, rfl⟩
abbrev main_v49 : Ref sig .tc := ⟨.hbm, 87, rfl⟩
abbrev main_c_8 : Ref sig .tc := ⟨.hbm, 88, rfl⟩
abbrev main_v50 : Ref sig .tc := ⟨.hbm, 89, rfl⟩
abbrev main_v51 : Ref sig .tc := ⟨.hbm, 90, rfl⟩
abbrev main_v52 : Ref sig .tc := ⟨.hbm, 91, rfl⟩
abbrev main_v53 : Ref sig .tc := ⟨.hbm, 92, rfl⟩
abbrev main_v54 : Ref sig .tc := ⟨.hbm, 93, rfl⟩
abbrev main_v55 : Ref sig .tc := ⟨.hbm, 94, rfl⟩
abbrev main_v56 : Ref sig .tc := ⟨.hbm, 95, rfl⟩
abbrev main_cst_9 : Ref sig .tc := ⟨.hbm, 96, rfl⟩
abbrev main_v57 : Ref sig .tc := ⟨.hbm, 97, rfl⟩
abbrev main_v58 : Ref sig .tc := ⟨.hbm, 98, rfl⟩
abbrev main_cst_10 : Ref sig .tc := ⟨.hbm, 99, rfl⟩
abbrev main_v59 : Ref sig .tc := ⟨.hbm, 100, rfl⟩
abbrev main_v60 : Ref sig .tc := ⟨.hbm, 101, rfl⟩
abbrev main_v61 : Ref sig .tc := ⟨.hbm, 102, rfl⟩
abbrev main_v62 : Ref sig .tc := ⟨.hbm, 103, rfl⟩
abbrev main_v63 : Ref sig .tc := ⟨.hbm, 104, rfl⟩
abbrev main_cst_11 : Ref sig .tc := ⟨.hbm, 105, rfl⟩
abbrev main_v64 : Ref sig .tc := ⟨.hbm, 106, rfl⟩
abbrev main_v65 : Ref sig .tc := ⟨.hbm, 107, rfl⟩
abbrev main_cst_12 : Ref sig .tc := ⟨.hbm, 108, rfl⟩
abbrev main_v66 : Ref sig .tc := ⟨.hbm, 109, rfl⟩
abbrev main_v67 : Ref sig .tc := ⟨.hbm, 110, rfl⟩
abbrev main_v68 : Ref sig .tc := ⟨.hbm, 111, rfl⟩
abbrev main_v69 : Ref sig .tc := ⟨.hbm, 112, rfl⟩
abbrev main_cst_13 : Ref sig .tc := ⟨.hbm, 113, rfl⟩
abbrev main_v70 : Ref sig .tc := ⟨.hbm, 114, rfl⟩
abbrev main_v71 : Ref sig .tc := ⟨.hbm, 115, rfl⟩
abbrev main_v72 : Ref sig .tc := ⟨.hbm, 116, rfl⟩
abbrev main_v73 : Ref sig .tc := ⟨.hbm, 117, rfl⟩
abbrev main_v74 : Ref sig .tc := ⟨.hbm, 118, rfl⟩
abbrev main_v75 : Ref sig .tc := ⟨.hbm, 119, rfl⟩
abbrev main_v76 : Ref sig .tc := ⟨.hbm, 120, rfl⟩
abbrev main_v77 : Ref sig .tc := ⟨.hbm, 121, rfl⟩
abbrev main_v78 : Ref sig .tc := ⟨.hbm, 122, rfl⟩
abbrev main_v79 : Ref sig .tc := ⟨.hbm, 123, rfl⟩
abbrev main_v80 : Ref sig .tc := ⟨.hbm, 124, rfl⟩
abbrev main_call2_cst : Ref sig .tc := ⟨.hbm, 125, rfl⟩
abbrev main_call2_v0 : Ref sig .tc := ⟨.hbm, 126, rfl⟩
abbrev main_v81 : Ref sig .tc := ⟨.hbm, 127, rfl⟩
abbrev main_c_14 : Ref sig .tc := ⟨.hbm, 128, rfl⟩
abbrev main_v82 : Ref sig .tc := ⟨.hbm, 129, rfl⟩
abbrev main_v83 : Ref sig .tc := ⟨.hbm, 130, rfl⟩
abbrev main_c_15 : Ref sig .tc := ⟨.hbm, 131, rfl⟩
abbrev main_v84 : Ref sig .tc := ⟨.hbm, 132, rfl⟩
abbrev main_v85 : Ref sig .tc := ⟨.hbm, 133, rfl⟩
abbrev main_v86 : Ref sig .tc := ⟨.hbm, 134, rfl⟩
abbrev main_v87 : Ref sig .tc := ⟨.hbm, 135, rfl⟩
abbrev main_v88 : Ref sig .tc := ⟨.hbm, 136, rfl⟩
abbrev main_v89 : Ref sig .tc := ⟨.hbm, 137, rfl⟩
abbrev main_v90 : Ref sig .tc := ⟨.hbm, 138, rfl⟩
abbrev main_v91 : Ref sig .tc := ⟨.hbm, 139, rfl⟩
abbrev main_cst_16 : Ref sig .tc := ⟨.hbm, 140, rfl⟩
abbrev main_v92 : Ref sig .tc := ⟨.hbm, 141, rfl⟩
abbrev main_v93 : Ref sig .tc := ⟨.hbm, 142, rfl⟩
abbrev main_cst_17 : Ref sig .tc := ⟨.hbm, 143, rfl⟩
abbrev main_v94 : Ref sig .tc := ⟨.hbm, 144, rfl⟩
abbrev main_v95 : Ref sig .tc := ⟨.hbm, 145, rfl⟩
abbrev main_v96 : Ref sig .tc := ⟨.hbm, 146, rfl⟩
abbrev main_v97 : Ref sig .tc := ⟨.hbm, 147, rfl⟩
abbrev main_v98 : Ref sig .tc := ⟨.hbm, 148, rfl⟩
abbrev main_cst_18 : Ref sig .tc := ⟨.hbm, 149, rfl⟩
abbrev main_v99 : Ref sig .tc := ⟨.hbm, 150, rfl⟩
abbrev main_v100 : Ref sig .tc := ⟨.hbm, 151, rfl⟩
abbrev main_cst_19 : Ref sig .tc := ⟨.hbm, 152, rfl⟩
abbrev main_v101 : Ref sig .tc := ⟨.hbm, 153, rfl⟩
abbrev main_v102 : Ref sig .tc := ⟨.hbm, 154, rfl⟩
abbrev main_v103 : Ref sig .tc := ⟨.hbm, 155, rfl⟩
abbrev main_v104 : Ref sig .tc := ⟨.hbm, 156, rfl⟩
abbrev main_cst_20 : Ref sig .tc := ⟨.hbm, 157, rfl⟩
abbrev main_v105 : Ref sig .tc := ⟨.hbm, 158, rfl⟩
abbrev main_v106 : Ref sig .tc := ⟨.hbm, 159, rfl⟩
abbrev main_v107 : Ref sig .tc := ⟨.hbm, 160, rfl⟩
abbrev main_v108 : Ref sig .tc := ⟨.hbm, 161, rfl⟩
abbrev main_v109 : Ref sig .tc := ⟨.hbm, 162, rfl⟩
abbrev main_v110 : Ref sig .tc := ⟨.hbm, 163, rfl⟩
abbrev main_v111 : Ref sig .tc := ⟨.hbm, 164, rfl⟩
abbrev main_v112 : Ref sig .tc := ⟨.hbm, 165, rfl⟩
abbrev main_v113 : Ref sig .tc := ⟨.hbm, 166, rfl⟩
abbrev main_v114 : Ref sig .tc := ⟨.hbm, 167, rfl⟩
abbrev main_v115 : Ref sig .tc := ⟨.hbm, 168, rfl⟩
abbrev main_call3_cst : Ref sig .tc := ⟨.hbm, 169, rfl⟩
abbrev main_call3_v0 : Ref sig .tc := ⟨.hbm, 170, rfl⟩
abbrev main_v116 : Ref sig .tc := ⟨.hbm, 171, rfl⟩
abbrev main_v117 : Ref sig .tc := ⟨.hbm, 172, rfl⟩
abbrev main_v118 : Ref sig .tc := ⟨.hbm, 173, rfl⟩
abbrev main_v119 : Ref sig .tc := ⟨.hbm, 174, rfl⟩
abbrev main_v120 : Ref sig .tc := ⟨.hbm, 175, rfl⟩
abbrev main_c_21 : Ref sig .tc := ⟨.hbm, 176, rfl⟩
abbrev main_v121 : Ref sig .tc := ⟨.hbm, 177, rfl⟩
abbrev main_v122 : Ref sig .tc := ⟨.hbm, 178, rfl⟩
abbrev main_c_22 : Ref sig .tc := ⟨.hbm, 179, rfl⟩
abbrev main_v123 : Ref sig .tc := ⟨.hbm, 180, rfl⟩
abbrev main_v124 : Ref sig .tc := ⟨.hbm, 181, rfl⟩
abbrev main_v125 : Ref sig .tc := ⟨.hbm, 182, rfl⟩
abbrev main_v126 : Ref sig .tc := ⟨.hbm, 183, rfl⟩
abbrev main_v127 : Ref sig .tc := ⟨.hbm, 184, rfl⟩
abbrev main_cst_23 : Ref sig .tc := ⟨.hbm, 185, rfl⟩
abbrev main_v128 : Ref sig .tc := ⟨.hbm, 186, rfl⟩
abbrev main_v129 : Ref sig .tc := ⟨.hbm, 187, rfl⟩
abbrev main_cst_24 : Ref sig .tc := ⟨.hbm, 188, rfl⟩
abbrev main_v130 : Ref sig .tc := ⟨.hbm, 189, rfl⟩
abbrev main_v131 : Ref sig .tc := ⟨.hbm, 190, rfl⟩
abbrev main_v132 : Ref sig .tc := ⟨.hbm, 191, rfl⟩
abbrev main_v133 : Ref sig .tc := ⟨.hbm, 192, rfl⟩
abbrev main_v134 : Ref sig .tc := ⟨.hbm, 193, rfl⟩
abbrev main_cst_25 : Ref sig .tc := ⟨.hbm, 194, rfl⟩
abbrev main_v135 : Ref sig .tc := ⟨.hbm, 195, rfl⟩
abbrev main_v136 : Ref sig .tc := ⟨.hbm, 196, rfl⟩
abbrev main_cst_26 : Ref sig .tc := ⟨.hbm, 197, rfl⟩
abbrev main_v137 : Ref sig .tc := ⟨.hbm, 198, rfl⟩
abbrev main_v138 : Ref sig .tc := ⟨.hbm, 199, rfl⟩
abbrev main_v139 : Ref sig .tc := ⟨.hbm, 200, rfl⟩
abbrev main_v140 : Ref sig .tc := ⟨.hbm, 201, rfl⟩
abbrev main_cst_27 : Ref sig .tc := ⟨.hbm, 202, rfl⟩
abbrev main_v141 : Ref sig .tc := ⟨.hbm, 203, rfl⟩
abbrev main_v142 : Ref sig .tc := ⟨.hbm, 204, rfl⟩
abbrev main_v143 : Ref sig .tc := ⟨.hbm, 205, rfl⟩
abbrev main_v144 : Ref sig .tc := ⟨.hbm, 206, rfl⟩
abbrev main_v145 : Ref sig .tc := ⟨.hbm, 207, rfl⟩
abbrev main_v146 : Ref sig .tc := ⟨.hbm, 208, rfl⟩
abbrev main_v147 : Ref sig .tc := ⟨.hbm, 209, rfl⟩
abbrev main_v148 : Ref sig .tc := ⟨.hbm, 210, rfl⟩
abbrev main_v149 : Ref sig .tc := ⟨.hbm, 211, rfl⟩
abbrev main_v150 : Ref sig .tc := ⟨.hbm, 212, rfl⟩
abbrev main_v151 : Ref sig .tc := ⟨.hbm, 213, rfl⟩
abbrev main_call4_cst : Ref sig .tc := ⟨.hbm, 214, rfl⟩
abbrev main_call4_v0 : Ref sig .tc := ⟨.hbm, 215, rfl⟩
abbrev main_v152 : Ref sig .tc := ⟨.hbm, 216, rfl⟩
abbrev main_v153 : Ref sig .tc := ⟨.hbm, 217, rfl⟩
abbrev main_v154 : Ref sig .tc := ⟨.hbm, 218, rfl⟩
abbrev main_cst_28 : Ref sig .tc := ⟨.hbm, 219, rfl⟩
abbrev main_v155 : Ref sig .tc := ⟨.hbm, 220, rfl⟩
abbrev main_v156 : Ref sig .tc := ⟨.hbm, 221, rfl⟩
abbrev main_cst_29 : Ref sig .tc := ⟨.hbm, 222, rfl⟩
abbrev main_v157 : Ref sig .tc := ⟨.hbm, 223, rfl⟩
abbrev main_v158 : Ref sig .tc := ⟨.hbm, 224, rfl⟩
abbrev main_v159 : Ref sig .tc := ⟨.hbm, 225, rfl⟩
abbrev main_v160 : Ref sig .tc := ⟨.hbm, 226, rfl⟩
abbrev main_v161 : Ref sig .tc := ⟨.hbm, 227, rfl⟩
abbrev main_cst_30 : Ref sig .tc := ⟨.hbm, 228, rfl⟩
abbrev main_v162 : Ref sig .tc := ⟨.hbm, 229, rfl⟩
abbrev main_v163 : Ref sig .tc := ⟨.hbm, 230, rfl⟩
abbrev main_cst_31 : Ref sig .tc := ⟨.hbm, 231, rfl⟩
abbrev main_v164 : Ref sig .tc := ⟨.hbm, 232, rfl⟩
abbrev main_v165 : Ref sig .tc := ⟨.hbm, 233, rfl⟩
abbrev main_v166 : Ref sig .tc := ⟨.hbm, 234, rfl⟩
abbrev main_v167 : Ref sig .tc := ⟨.hbm, 235, rfl⟩
abbrev main_cst_32 : Ref sig .tc := ⟨.hbm, 236, rfl⟩
abbrev main_v168 : Ref sig .tc := ⟨.hbm, 237, rfl⟩
abbrev main_v169 : Ref sig .tc := ⟨.hbm, 238, rfl⟩
abbrev main_v170 : Ref sig .tc := ⟨.hbm, 239, rfl⟩
abbrev main_v171 : Ref sig .tc := ⟨.hbm, 240, rfl⟩
abbrev main_v172 : Ref sig .tc := ⟨.hbm, 241, rfl⟩
abbrev main_v173 : Ref sig .tc := ⟨.hbm, 242, rfl⟩
abbrev main_v174 : Ref sig .tc := ⟨.hbm, 243, rfl⟩
abbrev main_v175 : Ref sig .tc := ⟨.hbm, 244, rfl⟩
abbrev main_v176 : Ref sig .tc := ⟨.hbm, 245, rfl⟩
abbrev main_v177 : Ref sig .tc := ⟨.hbm, 246, rfl⟩
abbrev main_v178 : Ref sig .tc := ⟨.hbm, 247, rfl⟩
abbrev main_v179 : Ref sig .tc := ⟨.hbm, 248, rfl⟩
abbrev main_call5_cst : Ref sig .tc := ⟨.hbm, 249, rfl⟩
abbrev main_call5_v0 : Ref sig .tc := ⟨.hbm, 250, rfl⟩
abbrev main_v180 : Ref sig .tc := ⟨.hbm, 251, rfl⟩

abbrev nD : Nat := 1
abbrev τ : Topo := Topo.v7x

variable {F : FTy → Type} [FloatOps F]

class Facts₀ : Prop where
  bcast_S_S300000 : S_.BroadcastsInDim S300000 (![] : Fin 0 → Fin S300000.rank)
  bcast_S300000_S300000x1_0 : S300000.BroadcastsInDim S300000x1 (![0] : Fin 1 → Fin S300000x1.rank)
  transposes_S128x2_S2x128_1_0 : S128x2.Transposes [1, 0] S2x128
  bcast_S128_S1x128_1 : S128.BroadcastsInDim S1x128 (![1] : Fin 1 → Fin S1x128.rank)
  bcast_S1x128_S300000x128_0_1 : S1x128.BroadcastsInDim S300000x128 (![0, 1] : Fin 2 → Fin S300000x128.rank)
  bcast_S_S300000x128 : S_.BroadcastsInDim S300000x128 (![] : Fin 0 → Fin S300000x128.rank)
  transposes_S128x128_S128x128_1_0 : S128x128.Transposes [1, 0] S128x128
  reducesTo_S300000x128_S300000_d1 : S300000x128.ReducesTo [1] S300000
  h_S_ : 0 < S_.numel
  bcast_S_S300000x1 : S_.BroadcastsInDim S300000x1 (![] : Fin 0 → Fin S300000x1.rank)
  bcast_S300000x1_S300000x128_0_1 : S300000x1.BroadcastsInDim S300000x128 (![0, 1] : Fin 2 → Fin S300000x128.rank)
  concatenates_S300000x128_S300000x128_S300000x128_S300000x384_d1 : Shape.Concatenates [S300000x128, S300000x128, S300000x128] S300000x384 1
  transposes_S128x384_S384x128_1_0 : S128x384.Transposes [1, 0] S384x128
  reducesTo_S50000x128_S50000_d1 : S50000x128.ReducesTo [1] S50000
  bcast_S50000_S50000x1_0 : S50000.BroadcastsInDim S50000x1 (![0] : Fin 1 → Fin S50000x1.rank)
  bcast_S_S50000x1 : S_.BroadcastsInDim S50000x1 (![] : Fin 0 → Fin S50000x1.rank)
  bcast_S50000x1_S50000x128_0_1 : S50000x1.BroadcastsInDim S50000x128 (![0, 1] : Fin 2 → Fin S50000x128.rank)
  bcast_S1x128_S50000x128_0_1 : S1x128.BroadcastsInDim S50000x128 (![0, 1] : Fin 2 → Fin S50000x128.rank)
  bcast_S_S50000x128 : S_.BroadcastsInDim S50000x128 (![] : Fin 0 → Fin S50000x128.rank)
  gather_S50000x2_S300000x1_S300000x2_1_0_n_n_0_1_12_wf : GatherDims.WF S50000x2 S300000x1 S300000x2 [1] [0] [] [0] [] 1 ![1, 2]
  dot_S300000x2_S2x128_S300000x128_1_0_0_1_n_n_wf : DotDims.WF S300000x2 S2x128 S300000x128 [1] [0] [0] [1] [] []
  dot_S300000x128_S128x128_S300000x128_1_0_0_1_n_n_wf : DotDims.WF S300000x128 S128x128 S300000x128 [1] [0] [0] [1] [] []
  gather_S50000x128_S300000x1_S300000x128_1_0_n_n_0_1_1128_wf : GatherDims.WF S50000x128 S300000x1 S300000x128 [1] [0] [] [0] [] 1 ![1, 128]
  dot_S300000x384_S384x128_S300000x128_1_0_0_1_n_n_wf : DotDims.WF S300000x384 S384x128 S300000x128 [1] [0] [0] [1] [] []
  dot_S50000x128_S128x128_S50000x128_1_0_0_1_n_n_wf : DotDims.WF S50000x128 S128x128 S50000x128 [1] [0] [0] [1] [] []
  scatter_S50000x128_S300000x1_S300000x128_1_0_0_1_wf : ScatterDims.WF S50000x128 S300000x1 S300000x128 [1] [0] [0] 1

variable [Facts₀]

def gather_S50000x2_S300000x1_S300000x2_1_0_n_n_0_1_12 : GatherDims S50000x2 S300000x1 S300000x2 where
  offsetDims := [1]
  collapsedSliceDims := [0]
  operandBatchingDims := []
  startIndicesBatchingDims := []
  startIndexMap := [0]
  indexVectorDim := 1
  sliceSizes := ![1, 2]
  wf := gather_S50000x2_S300000x1_S300000x2_1_0_n_n_0_1_12_wf
def dot_S300000x2_S2x128_S300000x128_1_0_0_1_n_n : DotDims S300000x2 S2x128 S300000x128 where
  lhsContracting := [1]
  rhsContracting := [0]
  lhsNonContracting := [0]
  rhsNonContracting := [1]
  lhsBatch := []
  rhsBatch := []
  wf := dot_S300000x2_S2x128_S300000x128_1_0_0_1_n_n_wf
def dot_S300000x128_S128x128_S300000x128_1_0_0_1_n_n : DotDims S300000x128 S128x128 S300000x128 where
  lhsContracting := [1]
  rhsContracting := [0]
  lhsNonContracting := [0]
  rhsNonContracting := [1]
  lhsBatch := []
  rhsBatch := []
  wf := dot_S300000x128_S128x128_S300000x128_1_0_0_1_n_n_wf
def gather_S50000x128_S300000x1_S300000x128_1_0_n_n_0_1_1128 : GatherDims S50000x128 S300000x1 S300000x128 where
  offsetDims := [1]
  collapsedSliceDims := [0]
  operandBatchingDims := []
  startIndicesBatchingDims := []
  startIndexMap := [0]
  indexVectorDim := 1
  sliceSizes := ![1, 128]
  wf := gather_S50000x128_S300000x1_S300000x128_1_0_n_n_0_1_1128_wf
def dot_S300000x384_S384x128_S300000x128_1_0_0_1_n_n : DotDims S300000x384 S384x128 S300000x128 where
  lhsContracting := [1]
  rhsContracting := [0]
  lhsNonContracting := [0]
  rhsNonContracting := [1]
  lhsBatch := []
  rhsBatch := []
  wf := dot_S300000x384_S384x128_S300000x128_1_0_0_1_n_n_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def scatter_S50000x128_S300000x1_S300000x128_1_0_0_1 : ScatterDims S50000x128 S300000x1 S300000x128 where
  updateWindowDims := [1]
  insertedWindowDims := [0]
  scatterDimsToOperandDims := [0]
  indexVectorDim := 1
  wf := scatter_S50000x128_S300000x1_S300000x128_1_0_0_1_wf

class Facts : Prop extends Facts₀ where

variable [Facts]
-- ==== Proof.KernelRun.lean ====
/-
  The kernel program's run, with the final contents of every long-lived buffer named.

  The program is four stretches in a row: host operations (the gathers), the edge kernel's grid, host
  operations (the scatter), the node kernel's grid. Each stretch is a map from the buffers' contents
  when it starts to their contents when it ends, and the four maps composed from the launch memory
  give one valuation `W4`. The first theorem says that every weakly fair execution terminates without
  a fault in a state whose memory agrees with `W4` on every buffer that lives for the whole program.
  The second reads that off at the 25 buffers the claim speaks of: the result buffer holds `W4`'s value
  for it, and each of the 24 argument buffers holds what it held at launch, since no stretch writes one.
-/
import proofs.«109786_j60155311948394_2_alg».proof.Proof.Gen.KernelIdeal.Frame

set_option maxRecDepth 16384

noncomputable section

namespace Cert.KernelValue

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting, and the final memory holds,
    at every buffer that lives for the whole program, the value the four stretches' composite `W4` gives it. -/
theorem run_named : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h => h)

/-- The run read at the buffers the claim speaks of: the result buffer holds `W4`'s value for it, and each
    argument buffer holds what it held at launch. -/
theorem run_result : θ_run defs (onTc (τ := τ) (main (F := F))) ⟨m, fun _ => 0, ρ⟩ (fun r => ∀ c : Dev nD,
      r.2.mem ((c.tc : Thread nD τ).loc main_v42) = W4 m ρ c (Proc.devRef .tc main_v42)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)) :=
  (θ_run defs _ _).mono (fun r h c =>
    ⟨h c _ (mem_uc main_v42 (by decide)),
     (h c _ (mem_uc main_arg0 (by decide))).trans (W4_main_arg0 m ρ c),
     (h c _ (mem_uc main_arg1 (by decide))).trans (W4_main_arg1 m ρ c),
     (h c _ (mem_uc main_arg2 (by decide))).trans (W4_main_arg2 m ρ c),
     (h c _ (mem_uc main_arg3 (by decide))).trans (W4_main_arg3 m ρ c),
     (h c _ (mem_uc main_arg4 (by decide))).trans (W4_main_arg4 m ρ c),
     (h c _ (mem_uc main_arg5 (by decide))).trans (W4_main_arg5 m ρ c),
     (h c _ (mem_uc main_arg6 (by decide))).trans (W4_main_arg6 m ρ c),
     (h c _ (mem_uc main_arg7 (by decide))).trans (W4_main_arg7 m ρ c),
     (h c _ (mem_uc main_arg8 (by decide))).trans (W4_main_arg8 m ρ c),
     (h c _ (mem_uc main_arg9 (by decide))).trans (W4_main_arg9 m ρ c),
     (h c _ (mem_uc main_arg10 (by decide))).trans (W4_main_arg10 m ρ c),
     (h c _ (mem_uc main_arg11 (by decide))).trans (W4_main_arg11 m ρ c),
     (h c _ (mem_uc main_arg12 (by decide))).trans (W4_main_arg12 m ρ c),
     (h c _ (mem_uc main_arg13 (by decide))).trans (W4_main_arg13 m ρ c),
     (h c _ (mem_uc main_arg14 (by decide))).trans (W4_main_arg14 m ρ c),
     (h c _ (mem_uc main_arg15 (by decide))).trans (W4_main_arg15 m ρ c),
     (h c _ (mem_uc main_arg16 (by decide))).trans (W4_main_arg16 m ρ c),
     (h c _ (mem_uc main_arg17 (by decide))).trans (W4_main_arg17 m ρ c),
     (h c _ (mem_uc main_arg18 (by decide))).trans (W4_main_arg18 m ρ c),
     (h c _ (mem_uc main_arg19 (by decide))).trans (W4_main_arg19 m ρ c),
     (h c _ (mem_uc main_arg20 (by decide))).trans (W4_main_arg20 m ρ c),
     (h c _ (mem_uc main_arg21 (by decide))).trans (W4_main_arg21 m ρ c),
     (h c _ (mem_uc main_arg22 (by decide))).trans (W4_main_arg22 m ρ c),
     (h c _ (mem_uc main_arg23 (by decide))).trans (W4_main_arg23 m ρ c)⟩)
    (run_named m ρ)

end Cert.KernelValue

end
-- ==== Proof.Spec.lean ====
/-
  The mathematics both programs compute, stated once over the extended reals, row by row.

  An edge's message depends only on that edge's three gathered rows (the difference of the two
  centre rows, the target node's feature row, the context node's feature row) and on the weights;
  a node's output depends only on that node's feature row, on the sum of the messages that land on
  it, and on the weights. So the whole computation is two row functions, `edgeRow` and `nodeRow`,
  built from three pieces: a linear map `x ↦ x · Wᵀ`, the normalisation of a row by its own mean and
  variance, and `max · 0`.

  The linear map over the concatenation of three rows of 128 is written as the sum of the three
  partial products against the three column blocks of the 128 × 384 weight matrix (`lin3`);
  `lin3_eq_sum384` is the regrouping law that identifies it with the one sum over 384 terms.
  Only commutativity and associativity of `+` on the extended reals are used, so no finiteness
  assumption is needed anywhere.
-/
import Idealize.ShloMosaic.PureOps.Ideal
import Idealize.ShloMosaic.Lib.ValueIdx

noncomputable section

namespace Cert.Spec

open Idealize.ShloMosaic Idealize.ShloMosaic.ValueIdx

/-- A row of `k` extended reals. -/
abbrev Row (k : ℕ) : Type := Fin k → EReal
/-- An `a × b` array of extended reals. -/
abbrev Mat (a b : ℕ) : Type := (⟨2, ![a, b]⟩ : Shape).Idx → EReal
/-- A length-`a` array of extended reals. -/
abbrev Arr (a : ℕ) : Type := (⟨1, ![a]⟩ : Shape).Idx → EReal

/-- Row `r` of an array. -/
def row {n k : ℕ} (X : Mat n k) (r : Fin n) : Row k := fun c => X (ix2 r c)

/-- The number of features, 128, as the programs write it. -/
def c128 : EReal := Ideal.ofBits .f32 0x43000000#32
/-- The variance offset, as the programs write it (the same binary word on both sides). -/
def eps : EReal := Ideal.ofBits .f32 0x3727C5AC#32

/-- `x · Wᵀ`: entry `j` is the inner product of `x` with row `j` of `W`. -/
def lin {K : ℕ} (x : Row K) (w : Mat 128 K) : Row 128 := fun j => ∑ k : Fin K, x k * w (ix2 j k)

/-- The mean of a row of 128. -/
def mean (x : Row 128) : EReal := Ideal.div (∑ k : Fin 128, x k) c128

/-- A row normalised by its own mean and variance, then scaled and shifted entry by entry. -/
def gn (x : Row 128) (g b : Arr 128) : Row 128 := fun j =>
  (x j - mean x) * Ideal.rsqrt (mean (fun k => (x k - mean x) * (x k - mean x)) + eps) * g (ix1 j) + b (ix1 j)

/-- `max · 0`, entry by entry. -/
def relu (x : Row 128) : Row 128 := fun j => max (x j) 0

/-- Column `o + k` of a 384-column matrix, for `k < 128` and `o + 128 ≤ 384`. -/
def col384 (o : ℕ) (ho : o + 128 ≤ 384) (k : Fin 128) : Fin 384 := ⟨o + k.val, by have := k.isLt; omega⟩

/-- The linear map over a concatenated row `[d | q | c]`, as the sum of the three partial products
    against the three column blocks of `W`. -/
def lin3 (d q c : Row 128) (w : Mat 128 384) : Row 128 := fun j =>
  (∑ k : Fin 128, d k * w (ix2 j (col384 0 (by omega) k)) + ∑ k : Fin 128, q k * w (ix2 j (col384 128 (by omega) k)))
    + ∑ k : Fin 128, c k * w (ix2 j (col384 256 (by omega) k))

/-- The concatenation `[d | q | c]` of three rows of 128. -/
def cat3 (d q c : Row 128) : Row 384 := fun k =>
  if h : k.val < 128 then d ⟨k.val, h⟩ else if h' : k.val < 256 then q ⟨k.val - 128, by omega⟩ else c ⟨k.val - 256, by have := k.isLt; omega⟩

/-- A sum over `Fin (a + b)` splits into the sum over the first `a` and the sum over the last `b`. -/
theorem sum_split {M : Type*} [AddCommMonoid M] (a b : ℕ) (f : Fin (a + b) → M) :
    ∑ k : Fin (a + b), f k = ∑ k : Fin a, f (Fin.castAdd b k) + ∑ k : Fin b, f (Fin.natAdd a k) :=
  Fin.sum_univ_add f

/-- REGROUPING: the one sum over the 384 entries of the concatenated row is the sum of the three
    partial sums over its three pieces. -/
theorem lin3_eq_sum384 (d q c : Row 128) (w : Mat 128 384) (j : Fin 128) :
    ∑ k : Fin 384, cat3 d q c k * w (ix2 j k) = lin3 d q c w j := by
  unfold lin3
  have e : ∑ k : Fin 384, cat3 d q c k * w (ix2 j k)
      = ∑ k : Fin ((128 + 128) + 128), cat3 d q c k * w (ix2 j k) := rfl
  rw [e, Fin.sum_univ_add, Fin.sum_univ_add]
  refine congrArg₂ (· + ·) (congrArg₂ (· + ·) ?_ ?_) ?_
  · refine Finset.sum_congr rfl fun k _ => ?_
    have hk : (Fin.castAdd 128 (Fin.castAdd 128 k) : Fin ((128 + 128) + 128)).val = k.val := rfl
    have h1 : cat3 d q c (Fin.castAdd 128 (Fin.castAdd 128 k)) = d k := by
      unfold cat3; rw [dif_pos (by rw [hk]; exact k.isLt)]
      exact congrArg d (Fin.ext hk)
    rw [h1]
    exact congrArg (fun t => d k * w (ix2 j t)) (Fin.ext (by show k.val = 0 + k.val; omega))
  · refine Finset.sum_congr rfl fun k _ => ?_
    have hk : (Fin.castAdd 128 (Fin.natAdd 128 k) : Fin ((128 + 128) + 128)).val = 128 + k.val := rfl
    have h1 : cat3 d q c (Fin.castAdd 128 (Fin.natAdd 128 k)) = q k := by
      unfold cat3
      rw [dif_neg (by rw [hk]; omega), dif_pos (by rw [hk]; have := k.isLt; omega)]
      exact congrArg q (Fin.ext (by show 128 + k.val - 128 = k.val; omega))
    rw [h1]
    exact congrArg (fun t => q k * w (ix2 j t)) (Fin.ext (by show 128 + k.val = 128 + k.val; rfl))
  · refine Finset.sum_congr rfl fun k _ => ?_
    have hk : (Fin.natAdd (128 + 128) k : Fin ((128 + 128) + 128)).val = 256 + k.val := rfl
    have h1 : cat3 d q c (Fin.natAdd (128 + 128) k) = c k := by
      unfold cat3
      rw [dif_neg (by rw [hk]; omega), dif_neg (by rw [hk]; omega)]
      exact congrArg c (Fin.ext (by show 256 + k.val - 256 = k.val; omega))
    rw [h1]
    exact congrArg (fun t => c k * w (ix2 j t)) (Fin.ext (by show 256 + k.val = 256 + k.val; rfl))

/-- ONE EDGE'S MESSAGE from its three gathered rows: the distance features `d`, the query `q`, their
    fusion with the context row, and the last linear map. -/
def edgeRow (ad : Row 2) (ah cw : Row 128) (w_d1 : Mat 128 2) (b_d1 : Arr 128) (w_d2 : Mat 128 128) (g_d2 bt_d2 : Arr 128)
    (w_q : Mat 128 128) (g_q bt_q : Arr 128) (w_c1 : Mat 128 384) (g_c1 bt_c1 : Arr 128) (w_c2 : Mat 128 128) : Row 128 :=
  lin (relu (gn (lin3
      (relu (gn (lin (relu (fun j => lin ad w_d1 j + b_d1 (ix1 j))) w_d2) g_d2 bt_d2))
      (relu (gn (lin ah w_q) g_q bt_q))
      cw w_c1) g_c1 bt_c1)) w_c2

/-- ONE NODE'S OUTPUT from its feature row `x` and the sum `s` of the messages landing on it. -/
def nodeRow (x s : Row 128) (w_a : Mat 128 128) (g_n bt_n : Arr 128) (w_l : Mat 128 128) (g_l bt_l : Arr 128) : Row 128 :=
  fun j => max (gn (lin (relu (gn (fun j => lin x w_a j + s j) g_n bt_n)) w_l) g_l bt_l j + x j) 0

/-- Every edge's message, as one array. -/
def edgeArr {n : ℕ} (AD : Mat n 2) (AH CW : Mat n 128) (w_d1 : Mat 128 2) (b_d1 : Arr 128) (w_d2 : Mat 128 128) (g_d2 bt_d2 : Arr 128)
    (w_q : Mat 128 128) (g_q bt_q : Arr 128) (w_c1 : Mat 128 384) (g_c1 bt_c1 : Arr 128) (w_c2 : Mat 128 128) : Mat n 128 :=
  fun i => edgeRow (row AD (i 0)) (row AH (i 0)) (row CW (i 0)) w_d1 b_d1 w_d2 g_d2 bt_d2 w_q g_q bt_q w_c1 g_c1 bt_c1 w_c2 (i 1)

/-- Every node's output, as one array, from the features `X` and the landed sums `S`. -/
def nodeArr {n : ℕ} (X S : Mat n 128) (w_a : Mat 128 128) (g_n bt_n : Arr 128) (w_l : Mat 128 128) (g_l bt_l : Arr 128) : Mat n 128 :=
  fun i => nodeRow (row X (i 0)) (row S (i 0)) w_a g_n bt_n w_l g_l bt_l (i 1)

/-- The sum of the update elements that land on element `i` of the scatter's operand. -/
def landed {s si su : Shape} (d : ScatterDims s si su) {w : ℕ} (idx : IVec si w) (upd : su.Idx → EReal) : s.Idx → EReal :=
  fun i => ∑ j ∈ Finset.univ.filter (fun j => d.resultIdx? j idx = some i), upd j

/-- An accumulating scatter is its operand plus what lands. -/
theorem hostScatterAdd_eq {s si su : Shape} (d : ScatterDims s si su) {w : ℕ} (x : s.Idx → EReal) (idx : IVec si w)
    (upd : su.Idx → EReal) : Ideal.hostScatterAdd d x idx upd = fun i => x i + landed d idx upd i := rfl

end Cert.Spec

end
-- ==== Proof.BodySpec.lean ====
/-
  What the two kernel bodies compute, stated as two propositions so that the array-level argument
  (blocks of rows tile the arrays) and the row-level argument (a body computes the row function)
  can be made independently.

  The edge kernel's body maps a block of 6000 gathered rows to 6000 messages, each the row function
  `Spec.edgeRow` of its own three rows; the node kernel's body maps a block of 5000 feature rows and
  5000 landed sums to 5000 outputs, each `Spec.nodeRow` of its own two rows.
-/
import proofs.«109786_j60155311948394_2_alg».proof.Proof.Gen.KernelIdeal.Frame
import proofs.«109786_j60155311948394_2_alg».proof.Proof.Spec

noncomputable section

namespace Cert.KernelValue

open Idealize.ShloMosaic Idealize.ShloMosaic.ValueIdx Cert.KernelIdeal Cert.KernelIdeal.Gen

/-- Row `r` of the edge kernel's output block is the message of row `r` of its three input blocks. -/
def EdgeBodySpec : Prop :=
  ∀ (x0 : Vec Ideal S6000x2 .bf16) (x1 x2 : Vec Ideal S6000x128 .bf16) (x3 : Vec Ideal S128x2 .f32) (x4 : Vec Ideal S128 .f32)
    (x5 : Vec Ideal S128x128 .f32) (x6 x7 : Vec Ideal S128 .f32) (x8 : Vec Ideal S128x128 .f32) (x9 x10 : Vec Ideal S128 .f32)
    (x11 : Vec Ideal S128x384 .f32) (x12 x13 : Vec Ideal S128 .f32) (x14 : Vec Ideal S128x128 .f32) (r : Fin 6000) (j : Fin 128),
    out0_15 (F := Ideal) x0 x1 x2 x3 x4 x5 x6 x7 x8 x9 x10 x11 x12 x13 x14 (ix2 r j)
      = Cert.Spec.edgeRow (Cert.Spec.row x0 r) (Cert.Spec.row x1 r) (Cert.Spec.row x2 r) x3 x4 x5 x6 x7 x8 x9 x10 x11 x12 x13 x14 j

/-- Row `r` of the node kernel's output block is the output of row `r` of its two input blocks. -/
def NodeBodySpec : Prop :=
  ∀ (x0 x1 : Vec Ideal S5000x128 .f32) (x2 : Vec Ideal S128x128 .f32) (x3 x4 : Vec Ideal S128 .f32)
    (x5 : Vec Ideal S128x128 .f32) (x6 x7 : Vec Ideal S128 .f32) (r : Fin 5000) (j : Fin 128),
    out1_8 (F := Ideal) x0 x1 x2 x3 x4 x5 x6 x7 (ix2 r j)
      = Cert.Spec.nodeRow (Cert.Spec.row x0 r) (Cert.Spec.row x1 r) x2 x3 x4 x5 x6 x7 j

end Cert.KernelValue

end
-- ==== Proof.Inputs.lean ====
/-
  The arrays the two kernels are fed, as functions of the program's arguments.

  The program's two index arguments name, per edge, its target node and its context node. A negative
  entry counts from the end, so each entry below zero is first moved up by the number of nodes
  (`wrapIdx`). The edge kernel then reads three arrays with one row per edge: the difference of the
  two gathered centre rows (`AD`), the gathered target-node feature rows (`AH`), the gathered
  context-node feature rows (`CW`). The scatter that follows the edge kernel reads the target-node
  indices (`IDX`).
-/
import proofs.«109786_j60155311948394_2_alg».proof.Proof.Gen.KernelIdeal
import proofs.«109786_j60155311948394_2_alg».proof.Proof.Spec

noncomputable section

namespace Cert.KernelValue

open Idealize.ShloMosaic Idealize.SL.Sem
open Cert.KernelIdeal Cert.KernelIdeal.Gen

variable (m : (ℓ : Loc nD τ sig) → Buf (Elt Ideal) ℓ)

/-- An index array with every negative entry moved up by the number of nodes, as a one-column array. -/
def wrapIdx (x : IVec S300000 32) : IVec S300000x1 32 :=
  broadcastInDim S300000x1 ![0] bcast_S300000_S300000x1_0
    (select (cmpi .slt x (broadcastInDim S300000 ![] bcast_S_S300000 (constantI S_ 32 0#32)))
      (addi x (broadcastInDim S300000 ![] bcast_S_S300000 (constantI S_ 32 50000#32))) x)

/-- Each edge's target node. -/
def IDX (c : Dev nD) : IVec S300000x1 32 := wrapIdx (m ((c.tc : Thread nD τ).loc main_arg4))

/-- Each edge's context node. -/
def IDXC (c : Dev nD) : IVec S300000x1 32 := wrapIdx (m ((c.tc : Thread nD τ).loc main_arg5))

/-- Per edge, the target node's centre minus the context node's centre. -/
def AD (c : Dev nD) : Cert.Spec.Mat 300000 2 :=
  truncf (F := Ideal) .bf16
    (subf (F := Ideal)
      (Host.gather gather_S50000x2_S300000x1_S300000x2_1_0_n_n_0_1_12 (m ((c.tc : Thread nD τ).loc main_arg2)) (IDX m c))
      (Host.gather gather_S50000x2_S300000x1_S300000x2_1_0_n_n_0_1_12 (m ((c.tc : Thread nD τ).loc main_arg3)) (IDXC m c)))
    bitsLt_bf16_f32

/-- Per edge, the target node's feature row. -/
def AH (c : Dev nD) : Cert.Spec.Mat 300000 128 :=
  Host.gather gather_S50000x128_S300000x1_S300000x128_1_0_n_n_0_1_1128
    (truncf (F := Ideal) .bf16 (m ((c.tc : Thread nD τ).loc main_arg0)) bitsLt_bf16_f32) (IDX m c)

/-- Per edge, the context node's feature row. -/
def CW (c : Dev nD) : Cert.Spec.Mat 300000 128 :=
  Host.gather gather_S50000x128_S300000x1_S300000x128_1_0_n_n_0_1_1128
    (truncf (F := Ideal) .bf16 (m ((c.tc : Thread nD τ).loc main_arg1)) bitsLt_bf16_f32) (IDXC m c)

end Cert.KernelValue

end
-- ==== Proof.HostRead0.lean ====
/-
  The first host stretch read back: what the edge kernel finds in its arrays.

  Before the edge kernel runs, the host gathers, for every edge, the rows its message depends on.
  Reading the stretch's operations in order gives each of the three gathered arrays as one term of
  the program's arguments; the twelve weight arrays are arguments no operation writes, so the kernel
  finds them as launched.
-/
import proofs.«109786_j60155311948394_2_alg».proof.Proof.Gen.KernelIdeal.Frame
import proofs.«109786_j60155311948394_2_alg».proof.Proof.Inputs

set_option maxRecDepth 16384

noncomputable section

namespace Cert.KernelValue

open Idealize.ShloMosaic Idealize.ShloMosaic.TcCoe Idealize.SL.Sem
open Cert.KernelIdeal Cert.KernelIdeal.Gen

variable (m : (ℓ : Loc nD τ sig) → Buf (Elt Ideal) ℓ) (ρ : Dev nD → PrngReg)

/-- The edge kernel's first input: per edge, the difference of the two gathered centre rows. -/
theorem V1_main_v17 (c : Dev nD) : (V1 m ρ c main_v17 : S300000x2.Idx → EReal) = AD m c := by
  dsimp only [V1, W1, hostOps0]
  after_results_simp
  rfl

/-- The edge kernel's second input: per edge, the target node's gathered feature row. -/
theorem V1_main_v24 (c : Dev nD) : (V1 m ρ c main_v24 : S300000x128.Idx → EReal) = AH m c := by
  dsimp only [V1, W1, hostOps0]
  after_results_simp
  rfl

/-- The edge kernel's third input: per edge, the context node's gathered feature row. -/
theorem V1_main_v31 (c : Dev nD) : (V1 m ρ c main_v31 : S300000x128.Idx → EReal) = CW m c := by
  dsimp only [V1, W1, hostOps0]
  after_results_simp
  rfl

/-- No operation of the first host stretch writes argument 6. -/
theorem V1_main_arg6 (c : Dev nD) : V1 m ρ c main_arg6 = m ((c.tc : Thread nD τ).loc main_arg6) :=
  (StableHlo.after_of_forall_not_mem (b := Proc.devRef .tc main_arg6) _ _ (List.forall_iff_forall_mem.mp (by
      simp only [hostOps0, List.Forall, StableHlo.nullary_writes, StableHlo.unary_writes, StableHlo.binary_writes, StableHlo.ternary_writes, Finset.mem_singleton]
      repeat' apply And.intro
      all_goals exact StableHlo.devRef_ne_of_ne (by decide)))).trans rfl

/-- No operation of the first host stretch writes argument 7. -/
theorem V1_main_arg7 (c : Dev nD) : V1 m ρ c main_arg7 = m ((c.tc : Thread nD τ).loc main_arg7) :=
  (StableHlo.after_of_forall_not_mem (b := Proc.devRef .tc main_arg7) _ _ (List.forall_iff_forall_mem.mp (by
      simp only [hostOps0, List.Forall, StableHlo.nullary_writes, StableHlo.unary_writes, StableHlo.binary_writes, StableHlo.ternary_writes, Finset.mem_singleton]
      repeat' apply And.intro
      all_goals exact StableHlo.devRef_ne_of_ne (by decide)))).trans rfl

/-- No operation of the first host stretch writes argument 8. -/
theorem V1_main_arg8 (c : Dev nD) : V1 m ρ c main_arg8 = m ((c.tc : Thread nD τ).loc main_arg8) :=
  (StableHlo.after_of_forall_not_mem (b := Proc.devRef .tc main_arg8) _ _ (List.forall_iff_forall_mem.mp (by
      simp only [hostOps0, List.Forall, StableHlo.nullary_writes, StableHlo.unary_writes, StableHlo.binary_writes, StableHlo.ternary_writes, Finset.mem_singleton]
      repeat' apply And.intro
      all_goals exact StableHlo.devRef_ne_of_ne (by decide)))).trans rfl

/-- No operation of the first host stretch writes argument 9. -/
theorem V1_main_arg9 (c : Dev nD) : V1 m ρ c main_arg9 = m ((c.tc : Thread nD τ).loc main_arg9) :=
  (StableHlo.after_of_forall_not_mem (b := Proc.devRef .tc main_arg9) _ _ (List.forall_iff_forall_mem.mp (by
      simp only [hostOps0, List.Forall, StableHlo.nullary_writes, StableHlo.unary_writes, StableHlo.binary_writes, StableHlo.ternary_writes, Finset.mem_singleton]
      repeat' apply And.intro
      all_goals exact StableHlo.devRef_ne_of_ne (by decide)))).trans rfl

/-- No operation of the first host stretch writes argument 10. -/
theorem V1_main_arg10 (c : Dev nD) : V1 m ρ c main_arg10 = m ((c.tc : Thread nD τ).loc main_arg10) :=
  (StableHlo.after_of_forall_not_mem (b := Proc.devRef .tc main_arg10) _ _ (List.forall_iff_forall_mem.mp (by
      simp only [hostOps0, List.Forall, StableHlo.nullary_writes, StableHlo.unary_writes, StableHlo.binary_writes, StableHlo.ternary_writes, Finset.mem_singleton]
      repeat' apply And.intro
      all_goals exact StableHlo.devRef_ne_of_ne (by decide)))).trans rfl

/-- No operation of the first host stretch writes argument 11. -/
theorem V1_main_arg11 (c : Dev nD) : V1 m ρ c main_arg11 = m ((c.tc : Thread nD τ).loc main_arg11) :=
  (StableHlo.after_of_forall_not_mem (b := Proc.devRef .tc main_arg11) _ _ (List.forall_iff_forall_mem.mp (by
      simp only [hostOps0, List.Forall, StableHlo.nullary_writes, StableHlo.unary_writes, StableHlo.binary_writes, StableHlo.ternary_writes, Finset.mem_singleton]
      repeat' apply And.intro
      all_goals exact StableHlo.devRef_ne_of_ne (by decide)))).trans rfl

/-- No operation of the first host stretch writes argument 12. -/
theorem V1_main_arg12 (c : Dev nD) : V1 m ρ c main_arg12 = m ((c.tc : Thread nD τ).loc main_arg12) :=
  (StableHlo.after_of_forall_not_mem (b := Proc.devRef .tc main_arg12) _ _ (List.forall_iff_forall_mem.mp (by
      simp only [hostOps0, List.Forall, StableHlo.nullary_writes, StableHlo.unary_writes, StableHlo.binary_writes, StableHlo.ternary_writes, Finset.mem_singleton]
      repeat' apply And.intro
      all_goals exact StableHlo.devRef_ne_of_ne (by decide)))).trans rfl

/-- No operation of the first host stretch writes argument 13. -/
theorem V1_main_arg13 (c : Dev nD) : V1 m ρ c main_arg13 = m ((c.tc : Thread nD τ).loc main_arg13) :=
  (StableHlo.after_of_forall_not_mem (b := Proc.devRef .tc main_arg13) _ _ (List.forall_iff_forall_mem.mp (by
      simp only [hostOps0, List.Forall, StableHlo.nullary_writes, StableHlo.unary_writes, StableHlo.binary_writes, StableHlo.ternary_writes, Finset.mem_singleton]
      repeat' apply And.intro
      all_goals exact StableHlo.devRef_ne_of_ne (by decide)))).trans rfl

/-- No operation of the first host stretch writes argument 14. -/
theorem V1_main_arg14 (c : Dev nD) : V1 m ρ c main_arg14 = m ((c.tc : Thread nD τ).loc main_arg14) :=
  (StableHlo.after_of_forall_not_mem (b := Proc.devRef .tc main_arg14) _ _ (List.forall_iff_forall_mem.mp (by
      simp only [hostOps0, List.Forall, StableHlo.nullary_writes, StableHlo.unary_writes, StableHlo.binary_writes, StableHlo.ternary_writes, Finset.mem_singleton]
      repeat' apply And.intro
      all_goals exact StableHlo.devRef_ne_of_ne (by decide)))).trans rfl

/-- No operation of the first host stretch writes argument 15. -/
theorem V1_main_arg15 (c : Dev nD) : V1 m ρ c main_arg15 = m ((c.tc : Thread nD τ).loc main_arg15) :=
  (StableHlo.after_of_forall_not_mem (b := Proc.devRef .tc main_arg15) _ _ (List.forall_iff_forall_mem.mp (by
      simp only [hostOps0, List.Forall, StableHlo.nullary_writes, StableHlo.unary_writes, StableHlo.binary_writes, StableHlo.ternary_writes, Finset.mem_singleton]
      repeat' apply And.intro
      all_goals exact StableHlo.devRef_ne_of_ne (by decide)))).trans rfl

/-- No operation of the first host stretch writes argument 16. -/
theorem V1_main_arg16 (c : Dev nD) : V1 m ρ c main_arg16 = m ((c.tc : Thread nD τ).loc main_arg16) :=
  (StableHlo.after_of_forall_not_mem (b := Proc.devRef .tc main_arg16) _ _ (List.forall_iff_forall_mem.mp (by
      simp only [hostOps0, List.Forall, StableHlo.nullary_writes, StableHlo.unary_writes, StableHlo.binary_writes, StableHlo.ternary_writes, Finset.mem_singleton]
      repeat' apply And.intro
      all_goals exact StableHlo.devRef_ne_of_ne (by decide)))).trans rfl

/-- No operation of the first host stretch writes argument 17. -/
theorem V1_main_arg17 (c : Dev nD) : V1 m ρ c main_arg17 = m ((c.tc : Thread nD τ).loc main_arg17) :=
  (StableHlo.after_of_forall_not_mem (b := Proc.devRef .tc main_arg17) _ _ (List.forall_iff_forall_mem.mp (by
      simp only [hostOps0, List.Forall, StableHlo.nullary_writes, StableHlo.unary_writes, StableHlo.binary_writes, StableHlo.ternary_writes, Finset.mem_singleton]
      repeat' apply And.intro
      all_goals exact StableHlo.devRef_ne_of_ne (by decide)))).trans rfl

end Cert.KernelValue

end
-- ==== Proof.EdgeArray.lean ====
/-
  From the edge kernel's blocks to its whole array.

  The edge kernel's grid has 50 points; point `t` reads rows `6000 t … 6000 t + 5999` of the three gathered
  arrays and the twelve weight arrays whole, and writes the same rows of the messages array. Given that
  the body maps each row of its input blocks to that row's message, the block point `t` writes back is
  the restriction of one whole-array function — every edge's message of its own gathered rows — to the
  block's rows. The blocks tile the array (row `i` belongs to point `i / 6000`), so after the last point
  the array is that function.
-/
import proofs.«109786_j60155311948394_2_alg».proof.Proof.Gen.KernelIdeal.Frame
import proofs.«109786_j60155311948394_2_alg».proof.Proof.BodySpec
import proofs.«109786_j60155311948394_2_alg».proof.Proof.HostRead0
import Idealize.ShloMosaic.Lib.Pipeline.Value
import Idealize.ShloMosaic.Lib.ValueIdx

set_option maxRecDepth 16384

noncomputable section

namespace Cert.KernelValue

open Idealize.ShloMosaic Idealize.ShloMosaic.TcCoe Idealize.ShloMosaic.ValueIdx Idealize.SL.Sem
open Idealize.ShloMosaic.Pipeline (Dat)
open Cert.KernelIdeal Cert.KernelIdeal.Gen

variable (m : (ℓ : Loc nD τ sig) → Buf (Elt Ideal) ℓ) (ρ : Dev nD → PrngReg)

/-- Every edge's message as one array of the arguments. -/
def edgeG (c : Dev nD) : Cert.Spec.Mat 300000 128 :=
  Cert.Spec.edgeArr (AD m c) (AH m c) (CW m c) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17))

/-! ## The index maps over the grid

The three gathered inputs and the output move together: at point `t` each has row block `t`, all
columns. The twelve weight windows are whole arrays at every point. -/

theorem ridx0_0 : ∀ t : Fin cfg0.N, win0_0.index t (0 : Fin 2) = t.val ∧ win0_0.index t (1 : Fin 2) = 0 :=
  (by decide +kernel : ∀ t : Fin grid0.N, _)
theorem ridx0_1 : ∀ t : Fin cfg0.N, win0_1.index t (0 : Fin 2) = t.val ∧ win0_1.index t (1 : Fin 2) = 0 :=
  (by decide +kernel : ∀ t : Fin grid0.N, _)
theorem ridx0_2 : ∀ t : Fin cfg0.N, win0_2.index t (0 : Fin 2) = t.val ∧ win0_2.index t (1 : Fin 2) = 0 :=
  (by decide +kernel : ∀ t : Fin grid0.N, _)
theorem ridx0_15 : ∀ t : Fin cfg0.N, win0_15.index t (0 : Fin 2) = t.val ∧ win0_15.index t (1 : Fin 2) = 0 :=
  (by decide +kernel : ∀ t : Fin grid0.N, _)
theorem idx0_3 : ∀ t : Fin cfg0.N, win0_3.index t (0 : Fin 2) = 0 ∧ win0_3.index t (1 : Fin 2) = 0 :=
  (by decide +kernel : ∀ t : Fin grid0.N, _)
theorem idx0_4 : ∀ t : Fin cfg0.N, win0_4.index t (0 : Fin 1) = 0 :=
  (by decide +kernel : ∀ t : Fin grid0.N, _)
theorem idx0_5 : ∀ t : Fin cfg0.N, win0_5.index t (0 : Fin 2) = 0 ∧ win0_5.index t (1 : Fin 2) = 0 :=
  (by decide +kernel : ∀ t : Fin grid0.N, _)
theorem idx0_6 : ∀ t : Fin cfg0.N, win0_6.index t (0 : Fin 1) = 0 :=
  (by decide +kernel : ∀ t : Fin grid0.N, _)
theorem idx0_7 : ∀ t : Fin cfg0.N, win0_7.index t (0 : Fin 1) = 0 :=
  (by decide +kernel : ∀ t : Fin grid0.N, _)
theorem idx0_8 : ∀ t : Fin cfg0.N, win0_8.index t (0 : Fin 2) = 0 ∧ win0_8.index t (1 : Fin 2) = 0 :=
  (by decide +kernel : ∀ t : Fin grid0.N, _)
theorem idx0_9 : ∀ t : Fin cfg0.N, win0_9.index t (0 : Fin 1) = 0 :=
  (by decide +kernel : ∀ t : Fin grid0.N, _)
theorem idx0_10 : ∀ t : Fin cfg0.N, win0_10.index t (0 : Fin 1) = 0 :=
  (by decide +kernel : ∀ t : Fin grid0.N, _)
theorem idx0_11 : ∀ t : Fin cfg0.N, win0_11.index t (0 : Fin 2) = 0 ∧ win0_11.index t (1 : Fin 2) = 0 :=
  (by decide +kernel : ∀ t : Fin grid0.N, _)
theorem idx0_12 : ∀ t : Fin cfg0.N, win0_12.index t (0 : Fin 1) = 0 :=
  (by decide +kernel : ∀ t : Fin grid0.N, _)
theorem idx0_13 : ∀ t : Fin cfg0.N, win0_13.index t (0 : Fin 1) = 0 :=
  (by decide +kernel : ∀ t : Fin grid0.N, _)
theorem idx0_14 : ∀ t : Fin cfg0.N, win0_14.index t (0 : Fin 2) = 0 ∧ win0_14.index t (1 : Fin 2) = 0 :=
  (by decide +kernel : ∀ t : Fin grid0.N, _)

/-! ## The blocks a point reads -/

/-- Window 3 is the whole of its array at every point: the kernel reads the argument itself. -/
theorem edge_w3 (c : Dev nD) (t : Fin cfg0.N) :
    (iblk0 (V1 m ρ) c 3 t : S128x2.Idx → EReal) = m ((c.tc : Thread nD τ).loc main_arg6) := by
  obtain ⟨h0, h1⟩ := idx0_3 t
  funext y
  refine Eq.trans (show _ = (V1 m ρ c main_arg6 : S128x2.Idx → EReal) (((cfg0.win 3).blk t).view.emb y) from rfl) ?_
  refine Eq.trans (congrFun (V1_main_arg6 m ρ c) _) ?_
  refine congrArg (m ((c.tc : Thread nD τ).loc main_arg6) : S128x2.Idx → EReal) ?_
  funext a; apply Fin.ext
  match a with
  | ⟨0, _⟩ => show win0_3.index t (0 : Fin 2) * 128 + 1 * (y 0).val = (y 0).val; omega
  | ⟨1, _⟩ => show win0_3.index t (1 : Fin 2) * 2 + 1 * (y 1).val = (y 1).val; omega

/-- Window 4 is the whole of its array at every point: the kernel reads the argument itself. -/
theorem edge_w4 (c : Dev nD) (t : Fin cfg0.N) :
    (iblk0 (V1 m ρ) c 4 t : S128.Idx → EReal) = m ((c.tc : Thread nD τ).loc main_arg7) := by
  obtain h0 := idx0_4 t
  funext y
  refine Eq.trans (show _ = (V1 m ρ c main_arg7 : S128.Idx → EReal) (((cfg0.win 4).blk t).view.emb y) from rfl) ?_
  refine Eq.trans (congrFun (V1_main_arg7 m ρ c) _) ?_
  refine congrArg (m ((c.tc : Thread nD τ).loc main_arg7) : S128.Idx → EReal) ?_
  funext a; apply Fin.ext
  match a with
  | ⟨0, _⟩ => show win0_4.index t (0 : Fin 1) * 128 + 1 * (y 0).val = (y 0).val; omega

/-- Window 5 is the whole of its array at every point: the kernel reads the argument itself. -/
theorem edge_w5 (c : Dev nD) (t : Fin cfg0.N) :
    (iblk0 (V1 m ρ) c 5 t : S128x128.Idx → EReal) = m ((c.tc : Thread nD τ).loc main_arg8) := by
  obtain ⟨h0, h1⟩ := idx0_5 t
  funext y
  refine Eq.trans (show _ = (V1 m ρ c main_arg8 : S128x128.Idx → EReal) (((cfg0.win 5).blk t).view.emb y) from rfl) ?_
  refine Eq.trans (congrFun (V1_main_arg8 m ρ c) _) ?_
  refine congrArg (m ((c.tc : Thread nD τ).loc main_arg8) : S128x128.Idx → EReal) ?_
  funext a; apply Fin.ext
  match a with
  | ⟨0, _⟩ => show win0_5.index t (0 : Fin 2) * 128 + 1 * (y 0).val = (y 0).val; omega
  | ⟨1, _⟩ => show win0_5.index t (1 : Fin 2) * 128 + 1 * (y 1).val = (y 1).val; omega

/-- Window 6 is the whole of its array at every point: the kernel reads the argument itself. -/
theorem edge_w6 (c : Dev nD) (t : Fin cfg0.N) :
    (iblk0 (V1 m ρ) c 6 t : S128.Idx → EReal) = m ((c.tc : Thread nD τ).loc main_arg9) := by
  obtain h0 := idx0_6 t
  funext y
  refine Eq.trans (show _ = (V1 m ρ c main_arg9 : S128.Idx → EReal) (((cfg0.win 6).blk t).view.emb y) from rfl) ?_
  refine Eq.trans (congrFun (V1_main_arg9 m ρ c) _) ?_
  refine congrArg (m ((c.tc : Thread nD τ).loc main_arg9) : S128.Idx → EReal) ?_
  funext a; apply Fin.ext
  match a with
  | ⟨0, _⟩ => show win0_6.index t (0 : Fin 1) * 128 + 1 * (y 0).val = (y 0).val; omega

/-- Window 7 is the whole of its array at every point: the kernel reads the argument itself. -/
theorem edge_w7 (c : Dev nD) (t : Fin cfg0.N) :
    (iblk0 (V1 m ρ) c 7 t : S128.Idx → EReal) = m ((c.tc : Thread nD τ).loc main_arg10) := by
  obtain h0 := idx0_7 t
  funext y
  refine Eq.trans (show _ = (V1 m ρ c main_arg10 : S128.Idx → EReal) (((cfg0.win 7).blk t).view.emb y) from rfl) ?_
  refine Eq.trans (congrFun (V1_main_arg10 m ρ c) _) ?_
  refine congrArg (m ((c.tc : Thread nD τ).loc main_arg10) : S128.Idx → EReal) ?_
  funext a; apply Fin.ext
  match a with
  | ⟨0, _⟩ => show win0_7.index t (0 : Fin 1) * 128 + 1 * (y 0).val = (y 0).val; omega

/-- Window 8 is the whole of its array at every point: the kernel reads the argument itself. -/
theorem edge_w8 (c : Dev nD) (t : Fin cfg0.N) :
    (iblk0 (V1 m ρ) c 8 t : S128x128.Idx → EReal) = m ((c.tc : Thread nD τ).loc main_arg11) := by
  obtain ⟨h0, h1⟩ := idx0_8 t
  funext y
  refine Eq.trans (show _ = (V1 m ρ c main_arg11 : S128x128.Idx → EReal) (((cfg0.win 8).blk t).view.emb y) from rfl) ?_
  refine Eq.trans (congrFun (V1_main_arg11 m ρ c) _) ?_
  refine congrArg (m ((c.tc : Thread nD τ).loc main_arg11) : S128x128.Idx → EReal) ?_
  funext a; apply Fin.ext
  match a with
  | ⟨0, _⟩ => show win0_8.index t (0 : Fin 2) * 128 + 1 * (y 0).val = (y 0).val; omega
  | ⟨1, _⟩ => show win0_8.index t (1 : Fin 2) * 128 + 1 * (y 1).val = (y 1).val; omega

/-- Window 9 is the whole of its array at every point: the kernel reads the argument itself. -/
theorem edge_w9 (c : Dev nD) (t : Fin cfg0.N) :
    (iblk0 (V1 m ρ) c 9 t : S128.Idx → EReal) = m ((c.tc : Thread nD τ).loc main_arg12) := by
  obtain h0 := idx0_9 t
  funext y
  refine Eq.trans (show _ = (V1 m ρ c main_arg12 : S128.Idx → EReal) (((cfg0.win 9).blk t).view.emb y) from rfl) ?_
  refine Eq.trans (congrFun (V1_main_arg12 m ρ c) _) ?_
  refine congrArg (m ((c.tc : Thread nD τ).loc main_arg12) : S128.Idx → EReal) ?_
  funext a; apply Fin.ext
  match a with
  | ⟨0, _⟩ => show win0_9.index t (0 : Fin 1) * 128 + 1 * (y 0).val = (y 0).val; omega

/-- Window 10 is the whole of its array at every point: the kernel reads the argument itself. -/
theorem edge_w10 (c : Dev nD) (t : Fin cfg0.N) :
    (iblk0 (V1 m ρ) c 10 t : S128.Idx → EReal) = m ((c.tc : Thread nD τ).loc main_arg13) := by
  obtain h0 := idx0_10 t
  funext y
  refine Eq.trans (show _ = (V1 m ρ c main_arg13 : S128.Idx → EReal) (((cfg0.win 10).blk t).view.emb y) from rfl) ?_
  refine Eq.trans (congrFun (V1_main_arg13 m ρ c) _) ?_
  refine congrArg (m ((c.tc : Thread nD τ).loc main_arg13) : S128.Idx → EReal) ?_
  funext a; apply Fin.ext
  match a with
  | ⟨0, _⟩ => show win0_10.index t (0 : Fin 1) * 128 + 1 * (y 0).val = (y 0).val; omega

/-- Window 11 is the whole of its array at every point: the kernel reads the argument itself. -/
theorem edge_w11 (c : Dev nD) (t : Fin cfg0.N) :
    (iblk0 (V1 m ρ) c 11 t : S128x384.Idx → EReal) = m ((c.tc : Thread nD τ).loc main_arg14) := by
  obtain ⟨h0, h1⟩ := idx0_11 t
  funext y
  refine Eq.trans (show _ = (V1 m ρ c main_arg14 : S128x384.Idx → EReal) (((cfg0.win 11).blk t).view.emb y) from rfl) ?_
  refine Eq.trans (congrFun (V1_main_arg14 m ρ c) _) ?_
  refine congrArg (m ((c.tc : Thread nD τ).loc main_arg14) : S128x384.Idx → EReal) ?_
  funext a; apply Fin.ext
  match a with
  | ⟨0, _⟩ => show win0_11.index t (0 : Fin 2) * 128 + 1 * (y 0).val = (y 0).val; omega
  | ⟨1, _⟩ => show win0_11.index t (1 : Fin 2) * 384 + 1 * (y 1).val = (y 1).val; omega

/-- Window 12 is the whole of its array at every point: the kernel reads the argument itself. -/
theorem edge_w12 (c : Dev nD) (t : Fin cfg0.N) :
    (iblk0 (V1 m ρ) c 12 t : S128.Idx → EReal) = m ((c.tc : Thread nD τ).loc main_arg15) := by
  obtain h0 := idx0_12 t
  funext y
  refine Eq.trans (show _ = (V1 m ρ c main_arg15 : S128.Idx → EReal) (((cfg0.win 12).blk t).view.emb y) from rfl) ?_
  refine Eq.trans (congrFun (V1_main_arg15 m ρ c) _) ?_
  refine congrArg (m ((c.tc : Thread nD τ).loc main_arg15) : S128.Idx → EReal) ?_
  funext a; apply Fin.ext
  match a with
  | ⟨0, _⟩ => show win0_12.index t (0 : Fin 1) * 128 + 1 * (y 0).val = (y 0).val; omega

/-- Window 13 is the whole of its array at every point: the kernel reads the argument itself. -/
theorem edge_w13 (c : Dev nD) (t : Fin cfg0.N) :
    (iblk0 (V1 m ρ) c 13 t : S128.Idx → EReal) = m ((c.tc : Thread nD τ).loc main_arg16) := by
  obtain h0 := idx0_13 t
  funext y
  refine Eq.trans (show _ = (V1 m ρ c main_arg16 : S128.Idx → EReal) (((cfg0.win 13).blk t).view.emb y) from rfl) ?_
  refine Eq.trans (congrFun (V1_main_arg16 m ρ c) _) ?_
  refine congrArg (m ((c.tc : Thread nD τ).loc main_arg16) : S128.Idx → EReal) ?_
  funext a; apply Fin.ext
  match a with
  | ⟨0, _⟩ => show win0_13.index t (0 : Fin 1) * 128 + 1 * (y 0).val = (y 0).val; omega

/-- Window 14 is the whole of its array at every point: the kernel reads the argument itself. -/
theorem edge_w14 (c : Dev nD) (t : Fin cfg0.N) :
    (iblk0 (V1 m ρ) c 14 t : S128x128.Idx → EReal) = m ((c.tc : Thread nD τ).loc main_arg17) := by
  obtain ⟨h0, h1⟩ := idx0_14 t
  funext y
  refine Eq.trans (show _ = (V1 m ρ c main_arg17 : S128x128.Idx → EReal) (((cfg0.win 14).blk t).view.emb y) from rfl) ?_
  refine Eq.trans (congrFun (V1_main_arg17 m ρ c) _) ?_
  refine congrArg (m ((c.tc : Thread nD τ).loc main_arg17) : S128x128.Idx → EReal) ?_
  funext a; apply Fin.ext
  match a with
  | ⟨0, _⟩ => show win0_14.index t (0 : Fin 2) * 128 + 1 * (y 0).val = (y 0).val; omega
  | ⟨1, _⟩ => show win0_14.index t (1 : Fin 2) * 128 + 1 * (y 1).val = (y 1).val; omega

/-- Row `r` of window 0's block at point `t` is row `6000 t + r` of its array. -/
theorem edge_row0 (c : Dev nD) (t : Fin cfg0.N) (r : Fin 6000) (q : Fin 300000) (hq : q.val = 6000 * t.val + r.val) :
    Cert.Spec.row (iblk0 (V1 m ρ) c 0 t : S6000x2.Idx → EReal) r = Cert.Spec.row (AD m c) q := by
  obtain ⟨h0, h1⟩ := ridx0_0 t
  funext k
  show (iblk0 (V1 m ρ) c 0 t : S6000x2.Idx → EReal) (ix2 r k) = (AD m c) (ix2 q k)
  refine Eq.trans (show _ = (V1 m ρ c main_v17 : S300000x2.Idx → EReal) (((cfg0.win 0).blk t).view.emb (ix2 r k)) from rfl) ?_
  refine Eq.trans (congrFun (V1_main_v17 m ρ c) _) ?_
  refine congrArg (AD m c) ?_
  funext a; apply Fin.ext
  match a with
  | ⟨0, _⟩ => show win0_0.index t (0 : Fin 2) * 6000 + 1 * r.val = q.val; omega
  | ⟨1, _⟩ => show win0_0.index t (1 : Fin 2) * 2 + 1 * k.val = k.val; omega

/-- Row `r` of window 1's block at point `t` is row `6000 t + r` of its array. -/
theorem edge_row1 (c : Dev nD) (t : Fin cfg0.N) (r : Fin 6000) (q : Fin 300000) (hq : q.val = 6000 * t.val + r.val) :
    Cert.Spec.row (iblk0 (V1 m ρ) c 1 t : S6000x128.Idx → EReal) r = Cert.Spec.row (AH m c) q := by
  obtain ⟨h0, h1⟩ := ridx0_1 t
  funext k
  show (iblk0 (V1 m ρ) c 1 t : S6000x128.Idx → EReal) (ix2 r k) = (AH m c) (ix2 q k)
  refine Eq.trans (show _ = (V1 m ρ c main_v24 : S300000x128.Idx → EReal) (((cfg0.win 1).blk t).view.emb (ix2 r k)) from rfl) ?_
  refine Eq.trans (congrFun (V1_main_v24 m ρ c) _) ?_
  refine congrArg (AH m c) ?_
  funext a; apply Fin.ext
  match a with
  | ⟨0, _⟩ => show win0_1.index t (0 : Fin 2) * 6000 + 1 * r.val = q.val; omega
  | ⟨1, _⟩ => show win0_1.index t (1 : Fin 2) * 128 + 1 * k.val = k.val; omega

/-- Row `r` of window 2's block at point `t` is row `6000 t + r` of its array. -/
theorem edge_row2 (c : Dev nD) (t : Fin cfg0.N) (r : Fin 6000) (q : Fin 300000) (hq : q.val = 6000 * t.val + r.val) :
    Cert.Spec.row (iblk0 (V1 m ρ) c 2 t : S6000x128.Idx → EReal) r = Cert.Spec.row (CW m c) q := by
  obtain ⟨h0, h1⟩ := ridx0_2 t
  funext k
  show (iblk0 (V1 m ρ) c 2 t : S6000x128.Idx → EReal) (ix2 r k) = (CW m c) (ix2 q k)
  refine Eq.trans (show _ = (V1 m ρ c main_v31 : S300000x128.Idx → EReal) (((cfg0.win 2).blk t).view.emb (ix2 r k)) from rfl) ?_
  refine Eq.trans (congrFun (V1_main_v31 m ρ c) _) ?_
  refine congrArg (CW m c) ?_
  funext a; apply Fin.ext
  match a with
  | ⟨0, _⟩ => show win0_2.index t (0 : Fin 2) * 6000 + 1 * r.val = q.val; omega
  | ⟨1, _⟩ => show win0_2.index t (1 : Fin 2) * 128 + 1 * k.val = k.val; omega

/-- The row function at equal arguments. -/
theorem edgeRow_congr {ad ad' : Cert.Spec.Row 2} {ah ah' cw cw' : Cert.Spec.Row 128}
    {w1 w1' : Cert.Spec.Mat 128 2} {b1 b1' : Cert.Spec.Arr 128} {w2 w2' : Cert.Spec.Mat 128 128} {g2 g2' t2 t2' : Cert.Spec.Arr 128}
    {wq wq' : Cert.Spec.Mat 128 128} {gq gq' tq tq' : Cert.Spec.Arr 128} {wc wc' : Cert.Spec.Mat 128 384} {gc gc' tc tc' : Cert.Spec.Arr 128}
    {wo wo' : Cert.Spec.Mat 128 128} {j j' : Fin 128}
    (e0 : ad = ad') (e1 : ah = ah') (e2 : cw = cw') (e3 : w1 = w1') (e4 : b1 = b1') (e5 : w2 = w2') (e6 : g2 = g2') (e7 : t2 = t2')
    (e8 : wq = wq') (e9 : gq = gq') (e10 : tq = tq') (e11 : wc = wc') (e12 : gc = gc') (e13 : tc = tc') (e14 : wo = wo') (ej : j = j') :
    Cert.Spec.edgeRow ad ah cw w1 b1 w2 g2 t2 wq gq tq wc gc tc wo j
      = Cert.Spec.edgeRow ad' ah' cw' w1' b1' w2' g2' t2' wq' gq' tq' wc' gc' tc' wo' j' := by
  subst e0 e1 e2 e3 e4 e5 e6 e7 e8 e9 e10 e11 e12 e13 e14 ej; rfl

/-! ## What a point writes back, and the whole array -/

/-- POINT `t` WRITES BACK rows `6000 t … 6000 t + 5999` of the messages array: each row of the body's output
    block is the message of the same row of the three input blocks, and those rows are rows of the gathered arrays. -/
theorem edge_flushed (hE : EdgeBodySpec) (c : Dev nD) (t : Fin cfg0.N) :
    (dat0 (V1 m ρ) c).flushed 15 t = ((cfg0.win 15).blk t).view.read (Elt Ideal) (edgeG m c) := by
  obtain ⟨h0, h1⟩ := ridx0_15 t
  show (cfg0.win 15).cut (grid0.coords t) ((dat0 (V1 m ρ) c).after 15 t) = _
  rw [after0_15]
  funext y
  obtain ⟨r, j, rfl⟩ : ∃ (r : Fin 6000) (j : Fin 128), y = ix2 r j := ⟨y 0, y 1, eq_ix2 y⟩
  refine Eq.trans (show _ = out0_15 (F := Ideal) (iblk0 (V1 m ρ) c 0 t) (iblk0 (V1 m ρ) c 1 t) (iblk0 (V1 m ρ) c 2 t) (iblk0 (V1 m ρ) c 3 t) (iblk0 (V1 m ρ) c 4 t) (iblk0 (V1 m ρ) c 5 t) (iblk0 (V1 m ρ) c 6 t) (iblk0 (V1 m ρ) c 7 t) (iblk0 (V1 m ρ) c 8 t) (iblk0 (V1 m ρ) c 9 t) (iblk0 (V1 m ρ) c 10 t) (iblk0 (V1 m ρ) c 11 t) (iblk0 (V1 m ρ) c 12 t) (iblk0 (V1 m ρ) c 13 t) (iblk0 (V1 m ρ) c 14 t) (ix2 r j) from rfl) ?_
  refine (hE (iblk0 (V1 m ρ) c 0 t) (iblk0 (V1 m ρ) c 1 t) (iblk0 (V1 m ρ) c 2 t) (iblk0 (V1 m ρ) c 3 t) (iblk0 (V1 m ρ) c 4 t) (iblk0 (V1 m ρ) c 5 t) (iblk0 (V1 m ρ) c 6 t) (iblk0 (V1 m ρ) c 7 t) (iblk0 (V1 m ρ) c 8 t) (iblk0 (V1 m ρ) c 9 t) (iblk0 (V1 m ρ) c 10 t) (iblk0 (V1 m ρ) c 11 t) (iblk0 (V1 m ρ) c 12 t) (iblk0 (V1 m ρ) c 13 t) (iblk0 (V1 m ρ) c 14 t) r j).trans ?_
  refine Eq.trans ?_ (show edgeG m c (((cfg0.win 15).blk t).view.emb (ix2 r j)) = _ from rfl)
  have hq : ((((cfg0.win 15).blk t).view.emb (ix2 r j)) 0).val = 6000 * t.val + r.val := by
    show win0_15.index t (0 : Fin 2) * 6000 + 1 * r.val = 6000 * t.val + r.val; omega
  have hj : j = (((cfg0.win 15).blk t).view.emb (ix2 r j)) 1 := Fin.ext (by
    show j.val = win0_15.index t (1 : Fin 2) * 128 + 1 * j.val; omega)
  unfold edgeG Cert.Spec.edgeArr
  exact edgeRow_congr (edge_row0 m ρ c t r _ hq) (edge_row1 m ρ c t r _ hq) (edge_row2 m ρ c t r _ hq)
    (edge_w3 m ρ c t) (edge_w4 m ρ c t) (edge_w5 m ρ c t) (edge_w6 m ρ c t) (edge_w7 m ρ c t) (edge_w8 m ρ c t) (edge_w9 m ρ c t) (edge_w10 m ρ c t) (edge_w11 m ρ c t) (edge_w12 m ρ c t) (edge_w13 m ρ c t) (edge_w14 m ρ c t) hj

/-- An index of the messages array is in point `t`'s block iff its row is one of the block's rows. -/
theorem edge_mem_blk (t : Fin cfg0.N) (i : S300000x128.Idx) :
    i ∈ ((cfg0.win 15).blk t).view.set ↔ ∀ a : Fin 2, win0_15.index t a * S6000x128.size a ≤ (i a).val ∧ (i a).val < win0_15.index t a * S6000x128.size a + S6000x128.size a := by
  show i ∈ ((View.whole main_v32).slice (win0_15.rect t)).set ↔ _
  rw [View.set_slice_whole, Rect.mem_set_unit]
  exact Iff.rfl

/-- The blocks tile the array: row `i` is in the block of point `i / 6000`. -/
theorem edge_cover (i : S300000x128.Idx) :
    ∃ t : Fin cfg0.N, (cfg0.win 15).flush t = true ∧ i ∈ ((cfg0.win 15).blk t).view.set := by
  have hi0 : (i 0).val < 300000 := (i 0).isLt
  have hi1 : (i 1).val < 128 := (i 1).isLt
  have hN : cfg0.N = 50 := N_0
  obtain ⟨t, ht⟩ : ∃ t : Fin cfg0.N, t.val = (i 0).val / 6000 := ⟨⟨(i 0).val / 6000, by rw [hN]; omega⟩, rfl⟩
  obtain ⟨h0, h1⟩ := ridx0_15 t
  refine ⟨t, flush0_15 t, ?_⟩
  rw [edge_mem_blk]
  intro a
  match a with
  | ⟨0, _⟩ => show win0_15.index t (0 : Fin 2) * 6000 ≤ (i 0).val ∧ (i 0).val < win0_15.index t (0 : Fin 2) * 6000 + 6000; omega
  | ⟨1, _⟩ => show win0_15.index t (1 : Fin 2) * 128 ≤ (i 1).val ∧ (i 1).val < win0_15.index t (1 : Fin 2) * 128 + 128; omega

/-- THE MESSAGES ARRAY after the edge kernel: every row is the message of its own edge. -/
theorem edge_array (hE : EdgeBodySpec) (c : Dev nD) : (dat0 (V1 m ρ) c).arrAt 15 cfg0.N = edgeG m c :=
  (dat0 (V1 m ρ) c).arrAt_eq_of_cover 15 (edgeG m c) (fun t _ => edge_flushed m ρ hE c t) edge_cover

end Cert.KernelValue

end
-- ==== Proof.HostRead1.lean ====
/-
  The second host stretch read back: what the node kernel finds in its arrays.

  Between the two kernels the host adds every edge's message onto its target node's row of an array
  of zeros. On the extended reals an accumulating scatter is its operand plus the sum of the updates
  that land on each element, the operand here is zero, and the change of float format in front of
  the scatter is the identity: so the node kernel's second input is, element by element, the sum of
  what lands there. Its other inputs are arguments that nothing before it writes.
-/
import proofs.«109786_j60155311948394_2_alg».proof.Proof.Gen.KernelIdeal.Frame
import proofs.«109786_j60155311948394_2_alg».proof.Proof.Inputs
import Idealize.ShloMosaic.PureOps.Ideal.Laws

set_option maxRecDepth 16384

noncomputable section

namespace Cert.KernelValue

open Idealize.ShloMosaic Idealize.ShloMosaic.TcCoe Idealize.SL.Sem
open Cert.KernelIdeal Cert.KernelIdeal.Gen

variable (m : (ℓ : Loc nD τ sig) → Buf (Elt Ideal) ℓ) (ρ : Dev nD → PrngReg)

/-- The target-node indices are as launched when the scatter reads them: the first host stretch does not
    write them and they are not one of the edge kernel's arrays. -/
theorem W2_main_arg4 (c : Dev nD) : W2 m ρ c (Proc.devRef .tc main_arg4) = m ((c.tc : Thread nD τ).loc main_arg4) :=
  calc W2 m ρ c (Proc.devRef .tc main_arg4)
    _ = W1 m ρ c (Proc.devRef .tc main_arg4) := W2_of_ne m ρ c main_arg4 (by decide)
    _ = W0 m ρ c (Proc.devRef .tc main_arg4) := StableHlo.after_of_forall_not_mem (b := Proc.devRef .tc main_arg4) _ _ (List.forall_iff_forall_mem.mp (by
          simp only [hostOps0, List.Forall, StableHlo.nullary_writes, StableHlo.unary_writes, StableHlo.binary_writes, StableHlo.ternary_writes, Finset.mem_singleton]
          repeat' apply And.intro
          all_goals exact StableHlo.devRef_ne_of_ne (by decide)))
    _ = m ((c : Thread nD τ).loc main_arg4) := rfl

/-- The messages array is, after the edge kernel, what its write-backs left. -/
theorem W2_main_v32 (c : Dev nD) : W2 m ρ c (Proc.devRef .tc main_v32) = (dat0 (V1 m ρ) c).arrAt 15 cfg0.N :=
  W2_arr m ρ c 15

/-- THE LANDED SUMS: the node kernel's second input holds, at each node and feature, the sum of the
    messages of the edges whose target is that node. The scatter adds onto an array of zeros, and a
    change of float format is the identity on the extended reals. -/
theorem V3_main_v41 (c : Dev nD) : (V3 m ρ c main_v41 : S50000x128.Idx → EReal)
    = Cert.Spec.landed scatter_S50000x128_S300000x1_S300000x128_1_0_0_1 (IDX m c) ((dat0 (V1 m ρ) c).arrAt 15 cfg0.N) := by
  have e : (V3 m ρ c main_v41 : S50000x128.Idx → EReal)
      = Host.scatterAdd (F := Ideal) scatter_S50000x128_S300000x1_S300000x128_1_0_0_1
          (broadcastInDim S50000x128 ![] bcast_S_S50000x128 (constant (F := Ideal) S_ .f32 0x00000000#32))
          (wrapIdx (W2 m ρ c (Proc.devRef .tc main_arg4)))
          (extf (F := Ideal) .f32 (W2 m ρ c (Proc.devRef .tc main_v32)) bitsLt_bf16_f32) := by
    dsimp only [V3, W3, hostOps1]
    after_results_simp
    rfl
  rw [e, W2_main_arg4, W2_main_v32]
  funext i
  refine Eq.trans (show _ = Ideal.ofBits .f32 0x00000000#32
    + Cert.Spec.landed scatter_S50000x128_S300000x1_S300000x128_1_0_0_1 (IDX m c) ((dat0 (V1 m ρ) c).arrAt 15 cfg0.N) i from rfl) ?_
  rw [Ideal.ofBits_zero_f32, zero_add]

/-- No operation of either host stretch writes argument 0, and it is not one of the edge kernel's arrays. -/
theorem V3_main_arg0 (c : Dev nD) : V3 m ρ c main_arg0 = m ((c.tc : Thread nD τ).loc main_arg0) :=
  calc W3 m ρ c (Proc.devRef .tc main_arg0)
    _ = W2 m ρ c (Proc.devRef .tc main_arg0) := StableHlo.after_of_forall_not_mem (b := Proc.devRef .tc main_arg0) _ _ (List.forall_iff_forall_mem.mp (by
          simp only [hostOps1, List.Forall, StableHlo.nullary_writes, StableHlo.unary_writes, StableHlo.binary_writes, StableHlo.ternary_writes, Finset.mem_singleton]
          repeat' apply And.intro
          all_goals exact StableHlo.devRef_ne_of_ne (by decide)))
    _ = W1 m ρ c (Proc.devRef .tc main_arg0) := W2_of_ne m ρ c main_arg0 (by decide)
    _ = W0 m ρ c (Proc.devRef .tc main_arg0) := StableHlo.after_of_forall_not_mem (b := Proc.devRef .tc main_arg0) _ _ (List.forall_iff_forall_mem.mp (by
          simp only [hostOps0, List.Forall, StableHlo.nullary_writes, StableHlo.unary_writes, StableHlo.binary_writes, StableHlo.ternary_writes, Finset.mem_singleton]
          repeat' apply And.intro
          all_goals exact StableHlo.devRef_ne_of_ne (by decide)))
    _ = m ((c : Thread nD τ).loc main_arg0) := rfl

/-- No operation of either host stretch writes argument 18, and it is not one of the edge kernel's arrays. -/
theorem V3_main_arg18 (c : Dev nD) : V3 m ρ c main_arg18 = m ((c.tc : Thread nD τ).loc main_arg18) :=
  calc W3 m ρ c (Proc.devRef .tc main_arg18)
    _ = W2 m ρ c (Proc.devRef .tc main_arg18) := StableHlo.after_of_forall_not_mem (b := Proc.devRef .tc main_arg18) _ _ (List.forall_iff_forall_mem.mp (by
          simp only [hostOps1, List.Forall, StableHlo.nullary_writes, StableHlo.unary_writes, StableHlo.binary_writes, StableHlo.ternary_writes, Finset.mem_singleton]
          repeat' apply And.intro
          all_goals exact StableHlo.devRef_ne_of_ne (by decide)))
    _ = W1 m ρ c (Proc.devRef .tc main_arg18) := W2_of_ne m ρ c main_arg18 (by decide)
    _ = W0 m ρ c (Proc.devRef .tc main_arg18) := StableHlo.after_of_forall_not_mem (b := Proc.devRef .tc main_arg18) _ _ (List.forall_iff_forall_mem.mp (by
          simp only [hostOps0, List.Forall, StableHlo.nullary_writes, StableHlo.unary_writes, StableHlo.binary_writes, StableHlo.ternary_writes, Finset.mem_singleton]
          repeat' apply And.intro
          all_goals exact StableHlo.devRef_ne_of_ne (by decide)))
    _ = m ((c : Thread nD τ).loc main_arg18) := rfl

/-- No operation of either host stretch writes argument 19, and it is not one of the edge kernel's arrays. -/
theorem V3_main_arg19 (c : Dev nD) : V3 m ρ c main_arg19 = m ((c.tc : Thread nD τ).loc main_arg19) :=
  calc W3 m ρ c (Proc.devRef .tc main_arg19)
    _ = W2 m ρ c (Proc.devRef .tc main_arg19) := StableHlo.after_of_forall_not_mem (b := Proc.devRef .tc main_arg19) _ _ (List.forall_iff_forall_mem.mp (by
          simp only [hostOps1, List.Forall, StableHlo.nullary_writes, StableHlo.unary_writes, StableHlo.binary_writes, StableHlo.ternary_writes, Finset.mem_singleton]
          repeat' apply And.intro
          all_goals exact StableHlo.devRef_ne_of_ne (by decide)))
    _ = W1 m ρ c (Proc.devRef .tc main_arg19) := W2_of_ne m ρ c main_arg19 (by decide)
    _ = W0 m ρ c (Proc.devRef .tc main_arg19) := StableHlo.after_of_forall_not_mem (b := Proc.devRef .tc main_arg19) _ _ (List.forall_iff_forall_mem.mp (by
          simp only [hostOps0, List.Forall, StableHlo.nullary_writes, StableHlo.unary_writes, StableHlo.binary_writes, StableHlo.ternary_writes, Finset.mem_singleton]
          repeat' apply And.intro
          all_goals exact StableHlo.devRef_ne_of_ne (by decide)))
    _ = m ((c : Thread nD τ).loc main_arg19) := rfl

/-- No operation of either host stretch writes argument 20, and it is not one of the edge kernel's arrays. -/
theorem V3_main_arg20 (c : Dev nD) : V3 m ρ c main_arg20 = m ((c.tc : Thread nD τ).loc main_arg20) :=
  calc W3 m ρ c (Proc.devRef .tc main_arg20)
    _ = W2 m ρ c (Proc.devRef .tc main_arg20) := StableHlo.after_of_forall_not_mem (b := Proc.devRef .tc main_arg20) _ _ (List.forall_iff_forall_mem.mp (by
          simp only [hostOps1, List.Forall, StableHlo.nullary_writes, StableHlo.unary_writes, StableHlo.binary_writes, StableHlo.ternary_writes, Finset.mem_singleton]
          repeat' apply And.intro
          all_goals exact StableHlo.devRef_ne_of_ne (by decide)))
    _ = W1 m ρ c (Proc.devRef .tc main_arg20) := W2_of_ne m ρ c main_arg20 (by decide)
    _ = W0 m ρ c (Proc.devRef .tc main_arg20) := StableHlo.after_of_forall_not_mem (b := Proc.devRef .tc main_arg20) _ _ (List.forall_iff_forall_mem.mp (by
          simp only [hostOps0, List.Forall, StableHlo.nullary_writes, StableHlo.unary_writes, StableHlo.binary_writes, StableHlo.ternary_writes, Finset.mem_singleton]
          repeat' apply And.intro
          all_goals exact StableHlo.devRef_ne_of_ne (by decide)))
    _ = m ((c : Thread nD τ).loc main_arg20) := rfl

/-- No operation of either host stretch writes argument 21, and it is not one of the edge kernel's arrays. -/
theorem V3_main_arg21 (c : Dev nD) : V3 m ρ c main_arg21 = m ((c.tc : Thread nD τ).loc main_arg21) :=
  calc W3 m ρ c (Proc.devRef .tc main_arg21)
    _ = W2 m ρ c (Proc.devRef .tc main_arg21) := StableHlo.after_of_forall_not_mem (b := Proc.devRef .tc main_arg21) _ _ (List.forall_iff_forall_mem.mp (by
          simp only [hostOps1, List.Forall, StableHlo.nullary_writes, StableHlo.unary_writes, StableHlo.binary_writes, StableHlo.ternary_writes, Finset.mem_singleton]
          repeat' apply And.intro
          all_goals exact StableHlo.devRef_ne_of_ne (by decide)))
    _ = W1 m ρ c (Proc.devRef .tc main_arg21) := W2_of_ne m ρ c main_arg21 (by decide)
    _ = W0 m ρ c (Proc.devRef .tc main_arg21) := StableHlo.after_of_forall_not_mem (b := Proc.devRef .tc main_arg21) _ _ (List.forall_iff_forall_mem.mp (by
          simp only [hostOps0, List.Forall, StableHlo.nullary_writes, StableHlo.unary_writes, StableHlo.binary_writes, StableHlo.ternary_writes, Finset.mem_singleton]
          repeat' apply And.intro
          all_goals exact StableHlo.devRef_ne_of_ne (by decide)))
    _ = m ((c : Thread nD τ).loc main_arg21) := rfl

/-- No operation of either host stretch writes argument 22, and it is not one of the edge kernel's arrays. -/
theorem V3_main_arg22 (c : Dev nD) : V3 m ρ c main_arg22 = m ((c.tc : Thread nD τ).loc main_arg22) :=
  calc W3 m ρ c (Proc.devRef .tc main_arg22)
    _ = W2 m ρ c (Proc.devRef .tc main_arg22) := StableHlo.after_of_forall_not_mem (b := Proc.devRef .tc main_arg22) _ _ (List.forall_iff_forall_mem.mp (by
          simp only [hostOps1, List.Forall, StableHlo.nullary_writes, StableHlo.unary_writes, StableHlo.binary_writes, StableHlo.ternary_writes, Finset.mem_singleton]
          repeat' apply And.intro
          all_goals exact StableHlo.devRef_ne_of_ne (by decide)))
    _ = W1 m ρ c (Proc.devRef .tc main_arg22) := W2_of_ne m ρ c main_arg22 (by decide)
    _ = W0 m ρ c (Proc.devRef .tc main_arg22) := StableHlo.after_of_forall_not_mem (b := Proc.devRef .tc main_arg22) _ _ (List.forall_iff_forall_mem.mp (by
          simp only [hostOps0, List.Forall, StableHlo.nullary_writes, StableHlo.unary_writes, StableHlo.binary_writes, StableHlo.ternary_writes, Finset.mem_singleton]
          repeat' apply And.intro
          all_goals exact StableHlo.devRef_ne_of_ne (by decide)))
    _ = m ((c : Thread nD τ).loc main_arg22) := rfl

/-- No operation of either host stretch writes argument 23, and it is not one of the edge kernel's arrays. -/
theorem V3_main_arg23 (c : Dev nD) : V3 m ρ c main_arg23 = m ((c.tc : Thread nD τ).loc main_arg23) :=
  calc W3 m ρ c (Proc.devRef .tc main_arg23)
    _ = W2 m ρ c (Proc.devRef .tc main_arg23) := StableHlo.after_of_forall_not_mem (b := Proc.devRef .tc main_arg23) _ _ (List.forall_iff_forall_mem.mp (by
          simp only [hostOps1, List.Forall, StableHlo.nullary_writes, StableHlo.unary_writes, StableHlo.binary_writes, StableHlo.ternary_writes, Finset.mem_singleton]
          repeat' apply And.intro
          all_goals exact StableHlo.devRef_ne_of_ne (by decide)))
    _ = W1 m ρ c (Proc.devRef .tc main_arg23) := W2_of_ne m ρ c main_arg23 (by decide)
    _ = W0 m ρ c (Proc.devRef .tc main_arg23) := StableHlo.after_of_forall_not_mem (b := Proc.devRef .tc main_arg23) _ _ (List.forall_iff_forall_mem.mp (by
          simp only [hostOps0, List.Forall, StableHlo.nullary_writes, StableHlo.unary_writes, StableHlo.binary_writes, StableHlo.ternary_writes, Finset.mem_singleton]
          repeat' apply And.intro
          all_goals exact StableHlo.devRef_ne_of_ne (by decide)))
    _ = m ((c : Thread nD τ).loc main_arg23) := rfl

end Cert.KernelValue

end
-- ==== Proof.NodeArray.lean ====
/-
  From the node kernel's blocks to its whole array.

  The node kernel's grid has 10 points; point `t` reads rows `5000 t … 5000 t + 4999` of the feature array and
  of the landed sums and the six weight arrays whole, and writes the same rows of the result. Given that
  the body maps each row of its two input blocks to that row's output, the block point `t` writes back is
  the restriction of one whole-array function — every node's output of its own feature row and landed
  sum — to the block's rows. The blocks tile the array (row `i` belongs to point `i / 5000`), so after the
  last point the array is that function.
-/
import proofs.«109786_j60155311948394_2_alg».proof.Proof.Gen.KernelIdeal.Frame
import proofs.«109786_j60155311948394_2_alg».proof.Proof.BodySpec
import proofs.«109786_j60155311948394_2_alg».proof.Proof.HostRead1
import Idealize.ShloMosaic.Lib.Pipeline.Value
import Idealize.ShloMosaic.Lib.ValueIdx

set_option maxRecDepth 16384

noncomputable section

namespace Cert.KernelValue

open Idealize.ShloMosaic Idealize.ShloMosaic.TcCoe Idealize.ShloMosaic.ValueIdx Idealize.SL.Sem
open Idealize.ShloMosaic.Pipeline (Dat)
open Cert.KernelIdeal Cert.KernelIdeal.Gen

variable (m : (ℓ : Loc nD τ sig) → Buf (Elt Ideal) ℓ) (ρ : Dev nD → PrngReg)

/-- Every node's output as one array of the arguments and of the landed sums the node kernel finds. -/
def nodeG (c : Dev nD) : Cert.Spec.Mat 50000 128 :=
  Cert.Spec.nodeArr (m ((c.tc : Thread nD τ).loc main_arg0) : S50000x128.Idx → EReal) (V3 m ρ c main_v41 : S50000x128.Idx → EReal) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23))

/-! ## The index maps over the grid

The features, the landed sums and the output move together: at point `t` each has row block `t`, all
columns. The six weight windows are whole arrays at every point. -/

theorem ridx1_0 : ∀ t : Fin cfg1.N, win1_0.index t (0 : Fin 2) = t.val ∧ win1_0.index t (1 : Fin 2) = 0 :=
  (by decide +kernel : ∀ t : Fin grid1.N, _)
theorem ridx1_1 : ∀ t : Fin cfg1.N, win1_1.index t (0 : Fin 2) = t.val ∧ win1_1.index t (1 : Fin 2) = 0 :=
  (by decide +kernel : ∀ t : Fin grid1.N, _)
theorem ridx1_8 : ∀ t : Fin cfg1.N, win1_8.index t (0 : Fin 2) = t.val ∧ win1_8.index t (1 : Fin 2) = 0 :=
  (by decide +kernel : ∀ t : Fin grid1.N, _)
theorem idx1_2 : ∀ t : Fin cfg1.N, win1_2.index t (0 : Fin 2) = 0 ∧ win1_2.index t (1 : Fin 2) = 0 :=
  (by decide +kernel : ∀ t : Fin grid1.N, _)
theorem idx1_3 : ∀ t : Fin cfg1.N, win1_3.index t (0 : Fin 1) = 0 :=
  (by decide +kernel : ∀ t : Fin grid1.N, _)
theorem idx1_4 : ∀ t : Fin cfg1.N, win1_4.index t (0 : Fin 1) = 0 :=
  (by decide +kernel : ∀ t : Fin grid1.N, _)
theorem idx1_5 : ∀ t : Fin cfg1.N, win1_5.index t (0 : Fin 2) = 0 ∧ win1_5.index t (1 : Fin 2) = 0 :=
  (by decide +kernel : ∀ t : Fin grid1.N, _)
theorem idx1_6 : ∀ t : Fin cfg1.N, win1_6.index t (0 : Fin 1) = 0 :=
  (by decide +kernel : ∀ t : Fin grid1.N, _)
theorem idx1_7 : ∀ t : Fin cfg1.N, win1_7.index t (0 : Fin 1) = 0 :=
  (by decide +kernel : ∀ t : Fin grid1.N, _)

/-! ## The blocks a point reads -/

/-- Window 2 is the whole of its array at every point: the kernel reads the argument itself. -/
theorem node_w2 (c : Dev nD) (t : Fin cfg1.N) :
    (iblk1 (V3 m ρ) c 2 t : S128x128.Idx → EReal) = m ((c.tc : Thread nD τ).loc main_arg18) := by
  obtain ⟨h0, h1⟩ := idx1_2 t
  funext y
  refine Eq.trans (show _ = (V3 m ρ c main_arg18 : S128x128.Idx → EReal) (((cfg1.win 2).blk t).view.emb y) from rfl) ?_
  refine Eq.trans (congrFun (V3_main_arg18 m ρ c) _) ?_
  refine congrArg (m ((c.tc : Thread nD τ).loc main_arg18) : S128x128.Idx → EReal) ?_
  funext a; apply Fin.ext
  match a with
  | ⟨0, _⟩ => show win1_2.index t (0 : Fin 2) * 128 + 1 * (y 0).val = (y 0).val; omega
  | ⟨1, _⟩ => show win1_2.index t (1 : Fin 2) * 128 + 1 * (y 1).val = (y 1).val; omega

/-- Window 3 is the whole of its array at every point: the kernel reads the argument itself. -/
theorem node_w3 (c : Dev nD) (t : Fin cfg1.N) :
    (iblk1 (V3 m ρ) c 3 t : S128.Idx → EReal) = m ((c.tc : Thread nD τ).loc main_arg19) := by
  obtain h0 := idx1_3 t
  funext y
  refine Eq.trans (show _ = (V3 m ρ c main_arg19 : S128.Idx → EReal) (((cfg1.win 3).blk t).view.emb y) from rfl) ?_
  refine Eq.trans (congrFun (V3_main_arg19 m ρ c) _) ?_
  refine congrArg (m ((c.tc : Thread nD τ).loc main_arg19) : S128.Idx → EReal) ?_
  funext a; apply Fin.ext
  match a with
  | ⟨0, _⟩ => show win1_3.index t (0 : Fin 1) * 128 + 1 * (y 0).val = (y 0).val; omega

/-- Window 4 is the whole of its array at every point: the kernel reads the argument itself. -/
theorem node_w4 (c : Dev nD) (t : Fin cfg1.N) :
    (iblk1 (V3 m ρ) c 4 t : S128.Idx → EReal) = m ((c.tc : Thread nD τ).loc main_arg20) := by
  obtain h0 := idx1_4 t
  funext y
  refine Eq.trans (show _ = (V3 m ρ c main_arg20 : S128.Idx → EReal) (((cfg1.win 4).blk t).view.emb y) from rfl) ?_
  refine Eq.trans (congrFun (V3_main_arg20 m ρ c) _) ?_
  refine congrArg (m ((c.tc : Thread nD τ).loc main_arg20) : S128.Idx → EReal) ?_
  funext a; apply Fin.ext
  match a with
  | ⟨0, _⟩ => show win1_4.index t (0 : Fin 1) * 128 + 1 * (y 0).val = (y 0).val; omega

/-- Window 5 is the whole of its array at every point: the kernel reads the argument itself. -/
theorem node_w5 (c : Dev nD) (t : Fin cfg1.N) :
    (iblk1 (V3 m ρ) c 5 t : S128x128.Idx → EReal) = m ((c.tc : Thread nD τ).loc main_arg21) := by
  obtain ⟨h0, h1⟩ := idx1_5 t
  funext y
  refine Eq.trans (show _ = (V3 m ρ c main_arg21 : S128x128.Idx → EReal) (((cfg1.win 5).blk t).view.emb y) from rfl) ?_
  refine Eq.trans (congrFun (V3_main_arg21 m ρ c) _) ?_
  refine congrArg (m ((c.tc : Thread nD τ).loc main_arg21) : S128x128.Idx → EReal) ?_
  funext a; apply Fin.ext
  match a with
  | ⟨0, _⟩ => show win1_5.index t (0 : Fin 2) * 128 + 1 * (y 0).val = (y 0).val; omega
  | ⟨1, _⟩ => show win1_5.index t (1 : Fin 2) * 128 + 1 * (y 1).val = (y 1).val; omega

/-- Window 6 is the whole of its array at every point: the kernel reads the argument itself. -/
theorem node_w6 (c : Dev nD) (t : Fin cfg1.N) :
    (iblk1 (V3 m ρ) c 6 t : S128.Idx → EReal) = m ((c.tc : Thread nD τ).loc main_arg22) := by
  obtain h0 := idx1_6 t
  funext y
  refine Eq.trans (show _ = (V3 m ρ c main_arg22 : S128.Idx → EReal) (((cfg1.win 6).blk t).view.emb y) from rfl) ?_
  refine Eq.trans (congrFun (V3_main_arg22 m ρ c) _) ?_
  refine congrArg (m ((c.tc : Thread nD τ).loc main_arg22) : S128.Idx → EReal) ?_
  funext a; apply Fin.ext
  match a with
  | ⟨0, _⟩ => show win1_6.index t (0 : Fin 1) * 128 + 1 * (y 0).val = (y 0).val; omega

/-- Window 7 is the whole of its array at every point: the kernel reads the argument itself. -/
theorem node_w7 (c : Dev nD) (t : Fin cfg1.N) :
    (iblk1 (V3 m ρ) c 7 t : S128.Idx → EReal) = m ((c.tc : Thread nD τ).loc main_arg23) := by
  obtain h0 := idx1_7 t
  funext y
  refine Eq.trans (show _ = (V3 m ρ c main_arg23 : S128.Idx → EReal) (((cfg1.win 7).blk t).view.emb y) from rfl) ?_
  refine Eq.trans (congrFun (V3_main_arg23 m ρ c) _) ?_
  refine congrArg (m ((c.tc : Thread nD τ).loc main_arg23) : S128.Idx → EReal) ?_
  funext a; apply Fin.ext
  match a with
  | ⟨0, _⟩ => show win1_7.index t (0 : Fin 1) * 128 + 1 * (y 0).val = (y 0).val; omega

/-- Row `r` of window 0's block at point `t` is row `5000 t + r` of its array. -/
theorem node_row0 (c : Dev nD) (t : Fin cfg1.N) (r : Fin 5000) (q : Fin 50000) (hq : q.val = 5000 * t.val + r.val) :
    Cert.Spec.row (iblk1 (V3 m ρ) c 0 t : S5000x128.Idx → EReal) r = Cert.Spec.row ((m ((c.tc : Thread nD τ).loc main_arg0) : S50000x128.Idx → EReal)) q := by
  obtain ⟨h0, h1⟩ := ridx1_0 t
  funext k
  show (iblk1 (V3 m ρ) c 0 t : S5000x128.Idx → EReal) (ix2 r k) = ((m ((c.tc : Thread nD τ).loc main_arg0) : S50000x128.Idx → EReal)) (ix2 q k)
  refine Eq.trans (show _ = (V3 m ρ c main_arg0 : S50000x128.Idx → EReal) (((cfg1.win 0).blk t).view.emb (ix2 r k)) from rfl) ?_
  refine Eq.trans (congrFun (V3_main_arg0 m ρ c) _) ?_
  refine congrArg ((m ((c.tc : Thread nD τ).loc main_arg0) : S50000x128.Idx → EReal)) ?_
  funext a; apply Fin.ext
  match a with
  | ⟨0, _⟩ => show win1_0.index t (0 : Fin 2) * 5000 + 1 * r.val = q.val; omega
  | ⟨1, _⟩ => show win1_0.index t (1 : Fin 2) * 128 + 1 * k.val = k.val; omega

/-- Row `r` of window 1's block at point `t` is row `5000 t + r` of its array. -/
theorem node_row1 (c : Dev nD) (t : Fin cfg1.N) (r : Fin 5000) (q : Fin 50000) (hq : q.val = 5000 * t.val + r.val) :
    Cert.Spec.row (iblk1 (V3 m ρ) c 1 t : S5000x128.Idx → EReal) r = Cert.Spec.row ((V3 m ρ c main_v41 : S50000x128.Idx → EReal)) q := by
  obtain ⟨h0, h1⟩ := ridx1_1 t
  funext k
  show (iblk1 (V3 m ρ) c 1 t : S5000x128.Idx → EReal) (ix2 r k) = ((V3 m ρ c main_v41 : S50000x128.Idx → EReal)) (ix2 q k)
  refine Eq.trans (show _ = (V3 m ρ c main_v41 : S50000x128.Idx → EReal) (((cfg1.win 1).blk t).view.emb (ix2 r k)) from rfl) ?_
  refine congrArg ((V3 m ρ c main_v41 : S50000x128.Idx → EReal)) ?_
  funext a; apply Fin.ext
  match a with
  | ⟨0, _⟩ => show win1_1.index t (0 : Fin 2) * 5000 + 1 * r.val = q.val; omega
  | ⟨1, _⟩ => show win1_1.index t (1 : Fin 2) * 128 + 1 * k.val = k.val; omega

/-- The row function at equal arguments. -/
theorem nodeRow_congr {x x' s s' : Cert.Spec.Row 128} {wa wa' : Cert.Spec.Mat 128 128} {gn gn' tn tn' : Cert.Spec.Arr 128}
    {wl wl' : Cert.Spec.Mat 128 128} {gl gl' tl tl' : Cert.Spec.Arr 128} {j j' : Fin 128}
    (e0 : x = x') (e1 : s = s') (e2 : wa = wa') (e3 : gn = gn') (e4 : tn = tn') (e5 : wl = wl') (e6 : gl = gl') (e7 : tl = tl') (ej : j = j') :
    Cert.Spec.nodeRow x s wa gn tn wl gl tl j = Cert.Spec.nodeRow x' s' wa' gn' tn' wl' gl' tl' j' := by
  subst e0 e1 e2 e3 e4 e5 e6 e7 ej; rfl

/-! ## What a point writes back, and the whole array -/

/-- POINT `t` WRITES BACK rows `5000 t … 5000 t + 4999` of the result: each row of the body's output block is
    the output of the same row of the two input blocks, and those rows are rows of the features and of the landed sums. -/
theorem node_flushed (hN : NodeBodySpec) (c : Dev nD) (t : Fin cfg1.N) :
    (dat1 (V3 m ρ) c).flushed 8 t = ((cfg1.win 8).blk t).view.read (Elt Ideal) (nodeG m ρ c) := by
  obtain ⟨h0, h1⟩ := ridx1_8 t
  show (cfg1.win 8).cut (grid1.coords t) ((dat1 (V3 m ρ) c).after 8 t) = _
  rw [after1_8]
  funext y
  obtain ⟨r, j, rfl⟩ : ∃ (r : Fin 5000) (j : Fin 128), y = ix2 r j := ⟨y 0, y 1, eq_ix2 y⟩
  refine Eq.trans (show _ = out1_8 (F := Ideal) (iblk1 (V3 m ρ) c 0 t) (iblk1 (V3 m ρ) c 1 t) (iblk1 (V3 m ρ) c 2 t) (iblk1 (V3 m ρ) c 3 t) (iblk1 (V3 m ρ) c 4 t) (iblk1 (V3 m ρ) c 5 t) (iblk1 (V3 m ρ) c 6 t) (iblk1 (V3 m ρ) c 7 t) (ix2 r j) from rfl) ?_
  refine (hN (iblk1 (V3 m ρ) c 0 t) (iblk1 (V3 m ρ) c 1 t) (iblk1 (V3 m ρ) c 2 t) (iblk1 (V3 m ρ) c 3 t) (iblk1 (V3 m ρ) c 4 t) (iblk1 (V3 m ρ) c 5 t) (iblk1 (V3 m ρ) c 6 t) (iblk1 (V3 m ρ) c 7 t) r j).trans ?_
  refine Eq.trans ?_ (show nodeG m ρ c (((cfg1.win 8).blk t).view.emb (ix2 r j)) = _ from rfl)
  have hq : ((((cfg1.win 8).blk t).view.emb (ix2 r j)) 0).val = 5000 * t.val + r.val := by
    show win1_8.index t (0 : Fin 2) * 5000 + 1 * r.val = 5000 * t.val + r.val; omega
  have hj : j = (((cfg1.win 8).blk t).view.emb (ix2 r j)) 1 := Fin.ext (by
    show j.val = win1_8.index t (1 : Fin 2) * 128 + 1 * j.val; omega)
  unfold nodeG Cert.Spec.nodeArr
  exact nodeRow_congr (node_row0 m ρ c t r _ hq) (node_row1 m ρ c t r _ hq)
    (node_w2 m ρ c t) (node_w3 m ρ c t) (node_w4 m ρ c t) (node_w5 m ρ c t) (node_w6 m ρ c t) (node_w7 m ρ c t) hj

/-- An index of the result array is in point `t`'s block iff its row is one of the block's rows. -/
theorem node_mem_blk (t : Fin cfg1.N) (i : S50000x128.Idx) :
    i ∈ ((cfg1.win 8).blk t).view.set ↔ ∀ a : Fin 2, win1_8.index t a * S5000x128.size a ≤ (i a).val ∧ (i a).val < win1_8.index t a * S5000x128.size a + S5000x128.size a := by
  show i ∈ ((View.whole main_v42).slice (win1_8.rect t)).set ↔ _
  rw [View.set_slice_whole, Rect.mem_set_unit]
  exact Iff.rfl

/-- The blocks tile the array: row `i` is in the block of point `i / 5000`. -/
theorem node_cover (i : S50000x128.Idx) :
    ∃ t : Fin cfg1.N, (cfg1.win 8).flush t = true ∧ i ∈ ((cfg1.win 8).blk t).view.set := by
  have hi0 : (i 0).val < 50000 := (i 0).isLt
  have hi1 : (i 1).val < 128 := (i 1).isLt
  have hN : cfg1.N = 10 := N_1
  obtain ⟨t, ht⟩ : ∃ t : Fin cfg1.N, t.val = (i 0).val / 5000 := ⟨⟨(i 0).val / 5000, by rw [hN]; omega⟩, rfl⟩
  obtain ⟨h0, h1⟩ := ridx1_8 t
  refine ⟨t, flush1_8 t, ?_⟩
  rw [node_mem_blk]
  intro a
  match a with
  | ⟨0, _⟩ => show win1_8.index t (0 : Fin 2) * 5000 ≤ (i 0).val ∧ (i 0).val < win1_8.index t (0 : Fin 2) * 5000 + 5000; omega
  | ⟨1, _⟩ => show win1_8.index t (1 : Fin 2) * 128 ≤ (i 1).val ∧ (i 1).val < win1_8.index t (1 : Fin 2) * 128 + 128; omega

/-- THE RESULT ARRAY after the node kernel: every row is the output of its own node. -/
theorem node_array (hN : NodeBodySpec) (c : Dev nD) : (dat1 (V3 m ρ) c).arrAt 8 cfg1.N = nodeG m ρ c :=
  (dat1 (V3 m ρ) c).arrAt_eq_of_cover 8 (nodeG m ρ c) (fun t _ => node_flushed m ρ hN c t) node_cover

end Cert.KernelValue

end
-- ==== Proof.KernelValue.lean ====
/-
  The kernel program's value, assembled.

  The run names the result buffer's final contents as what the node kernel's write-backs leave. The node
  kernel's blocks of rows tile its array, and each row is the node's row function of its feature row and
  of its row of landed sums; the landed sums are what the scatter adds onto zeros, i.e. per node the sum of
  the messages whose target it is; the messages are what the edge kernel's write-backs leave, whose blocks
  of rows tile their array, each row the edge's row function of its three gathered rows. Composing these
  gives the result as one function of the program's arguments.
-/
import proofs.«109786_j60155311948394_2_alg».proof.Proof.KernelRun
import proofs.«109786_j60155311948394_2_alg».proof.Proof.EdgeArray
import proofs.«109786_j60155311948394_2_alg».proof.Proof.NodeArray

set_option maxRecDepth 16384

noncomputable section

namespace Cert.KernelValue

open Idealize.ShloMosaic Idealize.ShloMosaic.TcCoe Idealize.SL.Sem
open Cert.KernelIdeal Cert.KernelIdeal.Gen

/-- THE RESULT BUFFER'S FINAL CONTENTS as one function of the arguments: the node kernel's array over the
    features and the landed sums, the landed sums over the edge kernel's array, the edge kernel's array
    over the gathered rows. -/
theorem result_value (hE : EdgeBodySpec) (hN : NodeBodySpec) (m : (ℓ : Loc nD τ sig) → Buf (Elt Ideal) ℓ) (ρ : Dev nD → PrngReg)
    (c : Dev nD) :
    (W4 m ρ c (Proc.devRef .tc main_v42) : S50000x128.Idx → EReal)
      = Cert.Spec.nodeArr (m ((c.tc : Thread nD τ).loc main_arg0))
          (Cert.Spec.landed scatter_S50000x128_S300000x1_S300000x128_1_0_0_1 (IDX m c)
            (Cert.Spec.edgeArr (AD m c) (AH m c) (CW m c) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17))))
          (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23)) := by
  refine (W4_arr m ρ c 8).trans ?_
  refine (node_array m ρ hN c).trans ?_
  unfold nodeG
  rw [V3_main_v41 m ρ c, edge_array m ρ hE c]
  rfl

/-- THE KERNEL PROGRAM'S VALUE. Given what the two kernel bodies compute row by row, every weakly fair
    execution of the program terminates without a fault, its result buffer holding at each node the row
    function of that node's features and of the sum of the messages landing on it, each message the row
    function of its edge's gathered rows; and the 24 argument buffers hold what they held at launch. -/
theorem run (hE : EdgeBodySpec) (hN : NodeBodySpec) (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v42)
        = Cert.Spec.nodeArr (m ((c.tc : Thread nD τ).loc main_arg0))
          (Cert.Spec.landed scatter_S50000x128_S300000x1_S300000x128_1_0_0_1 (IDX m c)
            (Cert.Spec.edgeArr (AD m c) (AH m c) (CW m c) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17))))
          (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)) :=
  (θ_run defs _ _).mono (fun r h c => ⟨(h c).1.trans (result_value hE hN m ρ c), (h c).2⟩) (run_result m ρ)

end Cert.KernelValue

end
-- ==== Proof.LibVec.lean ====
/-
  Reads of vector operations at an index, at the ideal values (floats are extended reals), for
  arrays of `a` rows: general in the row count and program-free.

  * a length-`a` vector cast to a column `[a, 1]`, and a column broadcast along the rows to `[a, b]`
    (the two keepdims forms a row statistic goes through): `colCast_apply`, `colBroadcast_apply`;
  * a length-`b` vector cast to `[1, b]` and broadcast down the rows: `rowBroadcast_apply`;
  * the sum along the lanes of an `[a, b]` array at row `r` is `∑ k, x (r, k)`: `laneSum_apply`;
  * a matrix product into a zero accumulator at `(r, j)` is `∑ k, X (r, k) * Y (k, j)`, for any
    dimension-numbers record whose operand indices are the plain ones: `matmul_rowcol`;
  * `rsqrt_apply`, the pointwise read the library does not state.
-/
import Idealize.ShloMosaic.PureOps.Ideal.Laws
import Idealize.ShloMosaic.Lib.ValueIdx
import Idealize.ShloMosaic.Lib.ValueLayout
import Idealize.ShloMosaic.Lib.Pipeline.Value

noncomputable section

namespace Cert.LibVec

open Idealize.ShloMosaic Idealize.ShloMosaic.ValueIdx

variable {α : Type}

/-- A length-`a` vector cast to the column `[a, 1]` reads, at `(r, u)`, the vector at `r`. -/
theorem colCast_apply {a : ℕ} (x : (⟨1, ![a]⟩ : Shape).Idx → α) (h : (⟨1, ![a]⟩ : Shape).ShapeCasts ⟨2, ![a, 1]⟩)
    (r : Fin a) (u : Fin 1) : shapeCast ⟨2, ![a, 1]⟩ x h (ix2 r u) = x (ix1 r) :=
  shapeCast_apply x h _ _ (by
    have hu : u.val = 0 := by omega
    rw [Shape.rowMajor_val_two, Shape.rowMajor_val_one]
    show r.val = r.val * 1 + u.val
    rw [hu, Nat.mul_one, Nat.add_zero])

/-- A column `[a, 1]` broadcast to `[a, b]` reads, at `(r, c)`, the column at `r`. -/
theorem colBroadcast_apply {a b : ℕ} (v : (⟨2, ![a, 1]⟩ : Shape).Idx → α) (h : (⟨2, ![a, 1]⟩ : Shape).Broadcasts ⟨2, ![a, b]⟩)
    (r : Fin a) (c : Fin b) : broadcastTo ⟨2, ![a, b]⟩ v h (ix2 r c) = v (ix2 r (0 : Fin 1)) := by
  refine broadcastTo_apply v h (ix2 r c) (ix2 r (0 : Fin 1)) fun ax => ?_
  match ax with
  | ⟨0, _⟩ =>
    show r.val = if a = 1 then 0 else r.val
    split
    · have := r.isLt; omega
    · rfl
  | ⟨1, _⟩ => rfl

/-- A length-`b` vector cast to `[1, b]` and broadcast down `a` rows reads, at `(r, c)`, the vector at `c`. -/
theorem rowBroadcast_apply {a b : ℕ} (g : (⟨1, ![b]⟩ : Shape).Idx → α) (h1 : (⟨1, ![b]⟩ : Shape).ShapeCasts ⟨2, ![1, b]⟩)
    (h2 : (⟨2, ![1, b]⟩ : Shape).Broadcasts ⟨2, ![a, b]⟩) (r : Fin a) (c : Fin b) :
    broadcastTo ⟨2, ![a, b]⟩ (shapeCast ⟨2, ![1, b]⟩ g h1) h2 (ix2 r c) = g (ix1 c) := by
  rw [broadcastTo_1b_ab_apply, shapeCast_a_1a_apply]

/-- The sum along the lanes of an `[a, b]` array, at row `r`, is the sum of that row's entries. -/
theorem laneSum_apply {a b : ℕ} {φ : FTy} (x : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (r : Fin a) :
    multiReduction .add [1] ⟨1, ![a]⟩ x acc h hφ hacc (ix1 r) = ∑ k : Fin b, x (ix2 r k) := by
  rw [Ideal.multiReduction_add_single]
  refine Finset.sum_congr rfl fun k _ => congrArg x (funext fun ax => Fin.ext ?_)
  match ax with
  | ⟨0, _⟩ => rfl
  | ⟨1, _⟩ => rfl

/-- The same for an f32 array summed from the zero word, with the neutrality proof spelt as a printed program spells it. -/
theorem laneSum_f32_apply {a b : ℕ} (x : FVec Ideal ⟨2, ![a, b]⟩ .f32)
    (h : (⟨2, ![a, b]⟩ : Shape).Reduces [1] ⟨1, ![a]⟩) (hacc : (0x00000000#32 : BitVec 32) = 0x00000000#32) (r : Fin a) :
    multiReduction .add [1] ⟨1, ![a]⟩ x 0x00000000#32 h (.inl rfl) hacc (ix1 r) = ∑ k : Fin b, x (ix2 r k) :=
  laneSum_apply x _ h (.inl rfl) hacc r

/-- `rsqrt` of an array reads entry by entry. -/
theorem rsqrt_apply {s : Shape} {φ : FTy} (x : FVec Ideal s φ) (i : s.Idx) : rsqrt x i = Ideal.rsqrt (x i) := rfl

/-- A matrix product `X · Y` into a zero accumulator, at `(r, j)`, is `∑ k, X (r, k) * Y (k, j)`, for a
    dimension-numbers record with one contracted axis of extent `K` whose operand indices are the plain
    ones (row of the output and contraction index on the left; contraction index and column on the right). -/
theorem matmul_rowcol {n K m : ℕ} {φ₁ φ₂ : FTy} (d : DotDims ⟨2, ![n, K]⟩ ⟨2, ![K, m]⟩ ⟨2, ![n, m]⟩)
    (hr : d.contr.rank = 1) (hs : d.contr.size ⟨0, by omega⟩ = K)
    (hl0 : ∀ i q, (d.lhsIdx i q 0).val = (i 0).val) (hl1 : ∀ i q, (d.lhsIdx i q 1).val = (q ⟨0, by omega⟩).val)
    (hr0 : ∀ i q, (d.rhsIdx i q 0).val = (q ⟨0, by omega⟩).val) (hr1 : ∀ i q, (d.rhsIdx i q 1).val = (i 1).val)
    (prec : Option ContractPrecision) (X : FVec Ideal ⟨2, ![n, K]⟩ φ₁) (Y : FVec Ideal ⟨2, ![K, m]⟩ φ₂) (r : Fin n) (j : Fin m) :
    matmul d prec X Y (constant ⟨2, ![n, m]⟩ .f32 0x00000000#32) (ix2 r j) = ∑ k : Fin K, X (ix2 r k) * Y (ix2 k j) := by
  simp only [matmul]
  rw [Ideal.matmul_constant_zero_apply, ← Equiv.sum_comp (contrEquiv1 d K hr hs).symm]
  refine Finset.sum_congr rfl fun k _ => ?_
  have hk := contrEquiv1_symm_val d K hr hs k
  have el : d.lhsIdx (ix2 r j) ((contrEquiv1 d K hr hs).symm k) = ix2 r k := funext fun ax => Fin.ext (by
    match ax with
    | ⟨0, _⟩ => exact hl0 _ _
    | ⟨1, _⟩ => exact (hl1 _ _).trans hk)
  have er : d.rhsIdx (ix2 r j) ((contrEquiv1 d K hr hs).symm k) = ix2 k j := funext fun ax => Fin.ext (by
    match ax with
    | ⟨0, _⟩ => exact (hr0 _ _).trans hk
    | ⟨1, _⟩ => exact hr1 _ _)
  rw [el, er]

end Cert.LibVec

end
-- ==== Proof.EdgeBody.lean ====
/-
  The edge kernel's body, row by row.

  The body reads three blocks of 6000 gathered rows — the centre differences `AD` (2 columns), the
  target nodes' features `AH` and the context nodes' features `CW` (128 columns each) — and the
  weights. Row `r` of what it stores is the message `Spec.edgeRow` of rows `r` of the three blocks:
  every operation is pointwise, a statistic of a row broadcast back along that row, or a matrix
  product whose row `r` is the product of row `r` with a (transposed) weight matrix. The product with
  the 128 × 384 matrix is taken in three pieces against its three column blocks and summed, which
  is how `Spec.lin3` is written.
-/
import proofs.«109786_j60155311948394_2_alg».proof.Proof.BodySpec
import proofs.«109786_j60155311948394_2_alg».proof.Proof.LibVec

set_option maxRecDepth 16384

noncomputable section

namespace Cert.KernelValue.Edge

open Idealize.ShloMosaic Idealize.ShloMosaic.ValueIdx Cert.KernelIdeal Cert.KernelIdeal.Gen Cert.LibVec Cert.Spec

/-- The whole-block rectangles of the edge body start at the origin. -/
theorem origin2 : (![0, 0] : Fin 2 → Nat) = fun _ => 0 := funext fun a => by fin_cases a <;> rfl
/-- The whole-vector rectangle starts at the origin. -/
theorem origin1 : (![0] : Fin 1 → Nat) = fun _ => 0 := funext fun a => by fin_cases a; rfl

/-- A 6000-row block times a 128 × 128 matrix, at `(r, j)`. -/
theorem mm128 {φ₁ φ₂ : FTy} (X : FVec Ideal S6000x128 φ₁) (Y : FVec Ideal S128x128 φ₂) (r : Fin 6000) (j : Fin 128) :
    matmul dot_S6000x128_S128x128_S6000x128_1_0_0_1_n_n none X Y (constant S6000x128 .f32 0x00000000#32) (ix2 r j)
      = ∑ k : Fin 128, X (ix2 r k) * Y (ix2 k j) :=
  matmul_rowcol dot_S6000x128_S128x128_S6000x128_1_0_0_1_n_n rfl rfl
    (fun i q => by
      unfold DotDims.lhsIdx
      rw [dif_neg (show ¬(0 : Fin S6000x128.rank) ∈ dot_S6000x128_S128x128_S6000x128_1_0_0_1_n_n.lhsBatch by decide),
        dif_pos (show (0 : Fin S6000x128.rank) ∈ dot_S6000x128_S128x128_S6000x128_1_0_0_1_n_n.lhsNonContracting by decide)]
      rfl)
    (fun i q => dot_S6000x128_S128x128_S6000x128_1_0_0_1_n_n.lhsIdx_val_of_single rfl i q)
    (fun i q => dot_S6000x128_S128x128_S6000x128_1_0_0_1_n_n.rhsIdx_val_of_single rfl i q)
    (fun i q => by
      unfold DotDims.rhsIdx
      rw [dif_neg (show ¬(1 : Fin S128x128.rank) ∈ dot_S6000x128_S128x128_S6000x128_1_0_0_1_n_n.rhsBatch by decide),
        dif_pos (show (1 : Fin S128x128.rank) ∈ dot_S6000x128_S128x128_S6000x128_1_0_0_1_n_n.rhsNonContracting by decide)]
      rfl)
    none X Y r j

/-- A 6000-row block of two columns times a 2 × 128 matrix, at `(r, j)`. -/
theorem mm2 {φ₁ φ₂ : FTy} (X : FVec Ideal S6000x2 φ₁) (Y : FVec Ideal S2x128 φ₂) (r : Fin 6000) (j : Fin 128) :
    matmul dot_S6000x2_S2x128_S6000x128_1_0_0_1_n_n none X Y (constant S6000x128 .f32 0x00000000#32) (ix2 r j)
      = ∑ k : Fin 2, X (ix2 r k) * Y (ix2 k j) :=
  matmul_rowcol dot_S6000x2_S2x128_S6000x128_1_0_0_1_n_n rfl rfl
    (fun i q => by
      unfold DotDims.lhsIdx
      rw [dif_neg (show ¬(0 : Fin S6000x2.rank) ∈ dot_S6000x2_S2x128_S6000x128_1_0_0_1_n_n.lhsBatch by decide),
        dif_pos (show (0 : Fin S6000x2.rank) ∈ dot_S6000x2_S2x128_S6000x128_1_0_0_1_n_n.lhsNonContracting by decide)]
      rfl)
    (fun i q => dot_S6000x2_S2x128_S6000x128_1_0_0_1_n_n.lhsIdx_val_of_single rfl i q)
    (fun i q => dot_S6000x2_S2x128_S6000x128_1_0_0_1_n_n.rhsIdx_val_of_single rfl i q)
    (fun i q => by
      unfold DotDims.rhsIdx
      rw [dif_neg (show ¬(1 : Fin S2x128.rank) ∈ dot_S6000x2_S2x128_S6000x128_1_0_0_1_n_n.rhsBatch by decide),
        dif_pos (show (1 : Fin S2x128.rank) ∈ dot_S6000x2_S2x128_S6000x128_1_0_0_1_n_n.rhsNonContracting by decide)]
      rfl)
    none X Y r j

/-- Push an index through a payload: pointwise and layout reads by `simp only`, each row sum by `rw`, until none is left. -/
macro "read_at_index" : tactic => `(tactic| (
  simp only [mulf_apply, addf_apply, subf_apply, divf_apply, maximumf_apply, truncf, Ideal.truncf_def, constant_apply, broadcast_apply,
    rsqrt_apply, colCast_apply, colBroadcast_apply, rowBroadcast_apply, shapeCast_self, mm128, mm2, Ideal.ofBits_def,
      Ideal.ofBits_zero_f32]
  repeat (
    rw [laneSum_f32_apply]
    try simp only [mulf_apply, addf_apply, subf_apply, divf_apply, maximumf_apply, truncf, Ideal.truncf_def, constant_apply, broadcast_apply,
      rsqrt_apply, colCast_apply, colBroadcast_apply, rowBroadcast_apply, shapeCast_self, mm128, mm2, Ideal.ofBits_def,
      Ideal.ofBits_zero_f32])))

/-- A 128 × 128 matrix transposed is the matrix read at the swapped index. -/
theorem tr128 {φ : FTy} (W : FVec Ideal S128x128 φ) :
    transpose S128x128 [1, 0] W transposes_S128x128_p1_0_S128x128 = fun i => W (ix2 (i 1) (i 0)) :=
  funext fun i => by
    obtain ⟨p, q, rfl⟩ : ∃ (p : Fin 128) (q : Fin 128), i = ix2 p q := ⟨i 0, i 1, eq_ix2 i⟩
    exact transpose_ix2_apply W transposes_S128x128_p1_0_S128x128 p q

/-- A 128 × 2 matrix transposed is the matrix read at the swapped index. -/
theorem tr2 {φ : FTy} (W : FVec Ideal S128x2 φ) :
    transpose S2x128 [1, 0] W transposes_S128x2_p1_0_S2x128 = fun i => W (ix2 (i 1) (i 0)) :=
  funext fun i => by
    obtain ⟨p, q, rfl⟩ : ∃ (p : Fin 2) (q : Fin 128), i = ix2 p q := ⟨i 0, i 1, eq_ix2 i⟩
    exact transpose_ix2_apply W transposes_S128x2_p1_0_S2x128 p q

/-- Columns `o … o + 127` of a 128 × 384 matrix: the matrix read at column `o + k`. -/
theorem colBlock {φ : FTy} (o : ℕ) (ho : o + 128 ≤ 384) (W : FVec Ideal S128x384 φ) (h : S128x384.Slices ![0, o] S128x128) :
    extractStridedSlice S128x128 ![0, o] W h = fun i => W (ix2 (i 0) (col384 o ho (i 1))) :=
  funext fun i => by
    obtain ⟨a, k, rfl⟩ : ∃ (a : Fin 128) (k : Fin 128), i = ix2 a k := ⟨i 0, i 1, eq_ix2 i⟩
    exact slice2_axis1_apply o W h a k (col384 o ho k) rfl

/-- The distance features of row `r`: two linear maps, the normalisation, two `max · 0`. -/
theorem dist_read (v0 : Vec Ideal S6000x2 .bf16) (v2 : Vec Ideal S128x2 .f32) (v6 : Vec Ideal S128 .f32)
    (v12 : Vec Ideal S128x128 .f32) (v17 v18 : Vec Ideal S128 .f32) (r : Fin 6000) (j : Fin 128) :
    k0_pay3 (F := Ideal) (k0_pay1 v0 v2 v6 v12 v17) (k0_pay2 v18) (ix2 r j)
      = relu (gn (lin (relu (fun j => lin (row v0 r) v2 j + v6 (ix1 j))) v12) v17 v18) j := by
  unfold k0_pay3 k0_pay1 k0_pay2
  dsimp only
  rw [tr128, tr2]
  read_at_index
  rfl

/-- The query of row `r`: a linear map of the target node's features, the normalisation, `max · 0`. -/
theorem query_read (v45 : Vec Ideal S6000x128 .bf16) (v47 : Vec Ideal S128x128 .f32) (v51 v52 : Vec Ideal S128 .f32)
    (r : Fin 6000) (j : Fin 128) :
    k0_pay4 (F := Ideal) v45 v47 v51 v52 (ix2 r j) = relu (gn (lin (row v45 r) v47) v51 v52) j := by
  unfold k0_pay4
  dsimp only
  rw [tr128]
  read_at_index
  rfl

/-- The fusion of row `r`: three partial products against the three column blocks of the wide matrix,
    summed; the normalisation; `max · 0`; the last linear map. -/
theorem fuse_read (v44 v78 : FVec Ideal S6000x128 .f32) (v80 : FVec Ideal S6000x128 .bf16) (v81 : Vec Ideal S128x384 .f32)
    (v96 v97 : Vec Ideal S128 .f32) (v124 : Vec Ideal S128x128 .f32) (r : Fin 6000) (j : Fin 128) :
    k0_pay8 (F := Ideal) v44 v78 v80 (k0_pay6 v81) (k0_pay7 v81) v96 v97 v124 (ix2 r j)
      = lin (relu (gn (lin3 (row v44 r) (row v78 r) (row v80 r) v81) v96 v97)) v124 j := by
  unfold k0_pay8 k0_pay7 k0_pay6
  dsimp only
  rw [colBlock 0 (by omega), colBlock 128 (by omega), colBlock 256 (by omega)]
  repeat rw [tr128]
  read_at_index
  rfl

/-- THE EDGE BODY: row `r` of the stored block is `edgeRow` of rows `r` of the three input blocks. -/
theorem edge_body : EdgeBodySpec := by
  intro x0 x1 x2 x3 x4 x5 x6 x7 x8 x9 x10 x11 x12 x13 x14 r j
  unfold out0_15
  rw [View.canon_unit_zero origin2]
  simp only [View.ld_unit_zero (S := S6000x2) origin2, View.ld_unit_zero (S := S6000x128) origin2,
    View.ld_unit_zero (S := S128x2) origin2, View.ld_unit_zero (S := S128x128) origin2,
    View.ld_unit_zero (S := S128x384) origin2, View.ld_unit_zero (S := S128) origin1]
  rw [fuse_read]
  have e1 : row (k0_pay3 (F := Ideal) (k0_pay1 x0 x3 x4 x5 x6) (k0_pay2 x7)) r
      = relu (gn (lin (relu (fun j => lin (row x0 r) x3 j + x4 (ix1 j))) x5) x6 x7) :=
    funext fun j' => dist_read x0 x3 x4 x5 x6 x7 r j'
  have e2 : row (k0_pay4 (F := Ideal) x1 x8 x9 x10) r = relu (gn (lin (row x1 r) x8) x9 x10) :=
    funext fun j' => query_read x1 x8 x9 x10 r j'
  have e3 : row (k0_pay5 (F := Ideal) x2) r = row x2 r := funext fun k => by
    unfold row k0_pay5
    rw [shapeCast_self]
  rw [e1, e2, e3]
  rfl

end Cert.KernelValue.Edge

end
-- ==== Proof.NodeBody.lean ====
/-
  The node kernel's body, row by row.

  The body reads a block `X` of 5000 feature rows and a block `S` of 5000 landed message sums, and the
  weights. Row `r` of what it stores is
      max (gn (relu (gn (X r · W_aᵀ + S r)) · W_lᵀ) + X r) 0,
  a function of rows `r` of `X` and `S` alone: every operation of the body is either pointwise, a
  statistic of a row broadcast back along that row, or a matrix product whose row `r` is the product
  of row `r` with the (transposed) weight matrix.
-/
import proofs.«109786_j60155311948394_2_alg».proof.Proof.BodySpec
import proofs.«109786_j60155311948394_2_alg».proof.Proof.LibVec

set_option maxRecDepth 16384

noncomputable section

namespace Cert.KernelValue

open Idealize.ShloMosaic Idealize.ShloMosaic.ValueIdx Cert.KernelIdeal Cert.KernelIdeal.Gen Cert.LibVec Cert.Spec

/-- Push an index through a payload: pointwise and layout reads by `simp only`, each row sum by `rw`, until none is left. -/
macro "read_at_index" : tactic => `(tactic| (
  simp only [mulf_apply, addf_apply, subf_apply, divf_apply, maximumf_apply, truncf_apply, constant_apply, broadcast_apply,
    rsqrt_apply, colCast_apply, colBroadcast_apply, rowBroadcast_apply, transpose_ix2_apply, shapeCast_self]
  repeat (
    rw [laneSum_f32_apply]
    try simp only [mulf_apply, addf_apply, subf_apply, divf_apply, maximumf_apply, truncf_apply, constant_apply, broadcast_apply,
      rsqrt_apply, colCast_apply, colBroadcast_apply, rowBroadcast_apply, transpose_ix2_apply, shapeCast_self])))

/-- Both whole-block rectangles of the node body start at the origin. -/
theorem origin2 : (![0, 0] : Fin 2 → Nat) = fun _ => 0 := funext fun a => by fin_cases a <;> rfl
/-- The whole-vector rectangle starts at the origin. -/
theorem origin1 : (![0] : Fin 1 → Nat) = fun _ => 0 := funext fun a => by fin_cases a; rfl

/-- The node body's matrix product of a 5000-row block with a 128 × 128 matrix, at `(r, j)`. -/
theorem mm5000 {φ₁ φ₂ : FTy} (X : FVec Ideal S5000x128 φ₁) (Y : FVec Ideal S128x128 φ₂) (r : Fin 5000) (j : Fin 128) :
    matmul dot_S5000x128_S128x128_S5000x128_1_0_0_1_n_n none X Y (constant S5000x128 .f32 0x00000000#32) (ix2 r j)
      = ∑ k : Fin 128, X (ix2 r k) * Y (ix2 k j) :=
  matmul_rowcol dot_S5000x128_S128x128_S5000x128_1_0_0_1_n_n rfl rfl
    (fun i q => by
      unfold DotDims.lhsIdx
      rw [dif_neg (show ¬(0 : Fin S5000x128.rank) ∈ dot_S5000x128_S128x128_S5000x128_1_0_0_1_n_n.lhsBatch by decide),
        dif_pos (show (0 : Fin S5000x128.rank) ∈ dot_S5000x128_S128x128_S5000x128_1_0_0_1_n_n.lhsNonContracting by decide)]
      rfl)
    (fun i q => dot_S5000x128_S128x128_S5000x128_1_0_0_1_n_n.lhsIdx_val_of_single rfl i q)
    (fun i q => dot_S5000x128_S128x128_S5000x128_1_0_0_1_n_n.rhsIdx_val_of_single rfl i q)
    (fun i q => by
      unfold DotDims.rhsIdx
      rw [dif_neg (show ¬(1 : Fin S128x128.rank) ∈ dot_S5000x128_S128x128_S5000x128_1_0_0_1_n_n.rhsBatch by decide),
        dif_pos (show (1 : Fin S128x128.rank) ∈ dot_S5000x128_S128x128_S5000x128_1_0_0_1_n_n.rhsNonContracting by decide)]
      rfl)
    none X Y r j

/-- A 128 × 128 matrix transposed is the matrix read at the swapped index. -/
theorem tr128 {φ : FTy} (W : FVec Ideal S128x128 φ) :
    transpose S128x128 [1, 0] W transposes_S128x128_p1_0_S128x128 = fun i => W (ix2 (i 1) (i 0)) :=
  funext fun i => by
    obtain ⟨p, q, rfl⟩ : ∃ (p : Fin 128) (q : Fin 128), i = ix2 p q := ⟨i 0, i 1, eq_ix2 i⟩
    exact transpose_ix2_apply W transposes_S128x128_p1_0_S128x128 p q

/-- The first half of the body: the self-transform plus the landed sum, normalised, then `max · 0`. -/
theorem pay2_read (v0 : Vec Ideal S5000x128 .f32) (v1 : Vec Ideal S128x128 .f32) (v6 : Vec Ideal S5000x128 .f32)
    (v9 v10 : Vec Ideal S128 .f32) (r : Fin 5000) (j : Fin 128) :
    k1_pay2 (F := Ideal) v0 v1 v6 v9 v10 (ix2 r j)
      = relu (gn (fun j => lin (row v0 r) v1 j + v6 (ix2 r j)) v9 v10) j := by
  unfold k1_pay2
  dsimp only
  rw [tr128]
  read_at_index
  simp only [mm5000, Ideal.ofBits_def, Ideal.ofBits_zero_f32]
  rfl

/-- The second weight matrix, transposed: entry `(k, j)` is the matrix's `(j, k)`. -/
theorem pay3_read (v37 : Vec Ideal S128x128 .f32) (k j : Fin 128) : k1_pay3 (F := Ideal) v37 (ix2 k j) = v37 (ix2 j k) := by
  unfold k1_pay3
  rw [tr128]
  rfl

/-- The second half: a matrix product, the normalisation, the residual row, `max · 0`. -/
theorem pay1_read (v0 : Vec Ideal S5000x128 .f32) (v39 : FVec Ideal S5000x128 .bf16) (v40 : FVec Ideal S128x128 .bf16)
    (v42 v43 : Vec Ideal S128 .f32) (r : Fin 5000) (j : Fin 128) :
    k1_pay1 (F := Ideal) v0 v39 v40 (constant S5000x128 .f32 0x00000000#32) v42 v43 (ix2 r j)
      = max (gn (fun j' => ∑ k : Fin 128, v39 (ix2 r k) * v40 (ix2 k j')) v42 v43 j + v0 (ix2 r j)) 0 := by
  unfold k1_pay1
  read_at_index
  simp only [mm5000, Ideal.ofBits_def, Ideal.ofBits_zero_f32]
  rfl

/-- THE NODE BODY: row `r` of the stored block is `nodeRow` of rows `r` of the two input blocks. -/
theorem node_body : NodeBodySpec := by
  intro x0 x1 x2 x3 x4 x5 x6 x7 r j
  unfold out1_8
  rw [View.canon_unit_zero origin2]
  simp only [View.ld_unit_zero (S := S5000x128) origin2, View.ld_unit_zero (S := S128x128) origin2,
    View.ld_unit_zero (S := S128) origin1]
  rw [pay1_read]
  unfold nodeRow
  refine congrArg (fun t => max (t + x0 (ix2 r j)) 0) ?_
  refine congrFun (congrArg (fun f => gn f x6 x7) (funext fun j' => ?_)) j
  unfold lin
  refine Finset.sum_congr rfl fun k _ => ?_
  rw [pay2_read, pay3_read]
  rfl

end Cert.KernelValue

end
-- ==== Proof.LibHost.lean ====
/-
  Reads of host array operations at an index, general in the row count and program-free.

  * Three arrays of `n` rows and 128 columns joined along the columns give an array of 384 columns;
    its entry at `(r, k)` is taken from the first, second or third array according to which
    third of the columns `k` falls in: `concat3_apply`.
-/
import Idealize.ShloMosaic.PureOps.Ideal.Laws
import Idealize.ShloMosaic.Lib.ValueIdx
import Idealize.ShloMosaic.Lib.Pipeline.Value

noncomputable section

namespace Cert.LibHost

open Idealize.ShloMosaic Idealize.ShloMosaic.ValueIdx

variable {α : Type}

/-- The join of three `[n, 128]` arrays along the columns, read at `(r, k)`: columns `0 … 127` are the
    first array's, `128 … 255` the second's, `256 … 383` the third's. -/
theorem concat3_apply {n : ℕ} (A B C : (⟨2, ![n, 128]⟩ : Shape).Idx → α)
    (h : Shape.Concatenates [(⟨2, ![n, 128]⟩ : Shape), ⟨2, ![n, 128]⟩, ⟨2, ![n, 128]⟩] ⟨2, ![n, 384]⟩ 1)
    (r : Fin n) (k : Fin 384) :
    concatenate (⟨2, ![n, 384]⟩ : Shape) 1 [⟨⟨2, ![n, 128]⟩, A⟩, ⟨⟨2, ![n, 128]⟩, B⟩, ⟨⟨2, ![n, 128]⟩, C⟩] h (ix2 r k)
      = if h1 : k.val < 128 then A (ix2 r ⟨k.val, h1⟩)
        else if h2 : k.val < 256 then B (ix2 r ⟨k.val - 128, by omega⟩)
        else C (ix2 r ⟨k.val - 256, by have := k.isLt; omega⟩) := by
  have hoff : ∀ (c : Fin 128) (b : Fin 2), b.cast (rfl : (2 : ℕ) = 2) ≠ (1 : Fin 2) →
      ((ix2 r c : (⟨2, ![n, 128]⟩ : Shape).Idx) b).val = ((ix2 r k : (⟨2, ![n, 384]⟩ : Shape).Idx) (b.cast rfl)).val := by
    intro c b hb
    match b with
    | ⟨0, _⟩ => rfl
    | ⟨1, _⟩ => exact absurd rfl hb
  by_cases h1 : k.val < 128
  · rw [dif_pos h1]
    exact concatenate_apply_piece 1 [⟨⟨2, ![n, 128]⟩, A⟩, ⟨⟨2, ![n, 128]⟩, B⟩, ⟨⟨2, ![n, 128]⟩, C⟩] h (ix2 r k) 0
      (by show (0 : ℕ) < 3; omega) _ A rfl rfl 0 rfl (ix2 r ⟨k.val, h1⟩)
      (hoff _) (by show 0 + k.val = k.val; omega)
  · rw [dif_neg h1]
    by_cases h2 : k.val < 256
    · rw [dif_pos h2]
      exact concatenate_apply_piece 1 [⟨⟨2, ![n, 128]⟩, A⟩, ⟨⟨2, ![n, 128]⟩, B⟩, ⟨⟨2, ![n, 128]⟩, C⟩] h (ix2 r k) 1
        (by show (1 : ℕ) < 3; omega) _ B rfl rfl 128 rfl (ix2 r ⟨k.val - 128, by omega⟩)
        (hoff _) (by show 128 + (k.val - 128) = k.val; omega)
    · rw [dif_neg h2]
      exact concatenate_apply_piece 1 [⟨⟨2, ![n, 128]⟩, A⟩, ⟨⟨2, ![n, 128]⟩, B⟩, ⟨⟨2, ![n, 128]⟩, C⟩] h (ix2 r k) 2
        (by show (2 : ℕ) < 3; omega) _ C rfl rfl 256 rfl
        (ix2 r ⟨k.val - 256, by have := k.isLt; omega⟩)
        (hoff _) (by show 256 + (k.val - 256) = k.val; omega)

end Cert.LibHost

end
-- ==== Proof.RefEdge.lean ====
/-
  The edge half of the reference program, read row by row.

  From the three gathered arrays (the differences of centre rows, the gathered target-node feature rows,
  the gathered context-node feature rows) the reference computes, with whole-array operations, the array
  of edge messages that it then scatters. Every one of those operations acts row by row: a product with
  a transposed weight matrix takes row `r` of its operand to the inner products of that row with the
  weight rows; a sum along the features, divided by 128 and broadcast back, is the row's own mean; a
  broadcast of a length-128 vector adds or multiplies the same vector into every row; the maximum with
  zero is entry by entry; and joining three arrays along the features joins their rows. So row `r` of
  each stage is a row function of row `r` of the stages before it, and composing the stages gives the
  message row function of the specification. The only algebra is regrouping the 384-term sum of the
  joined row into the three 128-term partial sums.

  First come the index identities: the index at which each stage reads its operand, evaluated at an
  index given by coordinates. Then one lemma per group of stages, and their composition.
-/
import proofs.«109786_j60155311948394_2_alg».proof.Proof.RefRead
import proofs.«109786_j60155311948394_2_alg».proof.Proof.Spec
import proofs.«109786_j60155311948394_2_alg».proof.Proof.LibHost

noncomputable section

namespace Cert.RefValue

open Cert.ReferenceIdeal Cert.ReferenceIdeal.ReadP Idealize.ShloMosaic Idealize.ShloMosaic.ValueIdx

/-! ## Index identities -/

theorem idx_main_v15_ix (r : Fin 2) (j : Fin 128) : idx_main_v15 (ix2 r j) = ix2 j r :=
  funext fun a => Fin.ext (by match a with | ⟨0, _⟩ => rfl | ⟨1, _⟩ => rfl)
theorem lidx_main_v16_ix (r : Fin 300000) (j : Fin 128) (k : Fin 2) : lidx_main_v16 (ix2 r j) k = ix2 r k :=
  funext fun a => Fin.ext (by match a with | ⟨0, _⟩ => rfl | ⟨1, _⟩ => rfl)
theorem ridx_main_v16_ix (r : Fin 300000) (j : Fin 128) (k : Fin 2) : ridx_main_v16 (ix2 r j) k = ix2 k j :=
  funext fun a => Fin.ext (by match a with | ⟨0, _⟩ => rfl | ⟨1, _⟩ => rfl)
theorem idx_main_v17_ix (r : Fin 1) (j : Fin 128) : idx_main_v17 (ix2 r j) = ix1 j :=
  funext fun a => Fin.ext (by match a with | ⟨0, _⟩ => rfl)
theorem idx_main_v18_ix (r : Fin 300000) (j : Fin 128) : idx_main_v18 (ix2 r j) = ix2 (0 : Fin 1) j :=
  funext fun a => Fin.ext (by match a with | ⟨0, _⟩ => rfl | ⟨1, _⟩ => rfl)
theorem idx_main_v21_ix (r : Fin 128) (j : Fin 128) : idx_main_v21 (ix2 r j) = ix2 j r :=
  funext fun a => Fin.ext (by match a with | ⟨0, _⟩ => rfl | ⟨1, _⟩ => rfl)
theorem lidx_main_v22_ix (r : Fin 300000) (j : Fin 128) (k : Fin 128) : lidx_main_v22 (ix2 r j) k = ix2 r k :=
  funext fun a => Fin.ext (by match a with | ⟨0, _⟩ => rfl | ⟨1, _⟩ => rfl)
theorem ridx_main_v22_ix (r : Fin 300000) (j : Fin 128) (k : Fin 128) : ridx_main_v22 (ix2 r j) k = ix2 k j :=
  funext fun a => Fin.ext (by match a with | ⟨0, _⟩ => rfl | ⟨1, _⟩ => rfl)
theorem idx_main_v23_ix (r : Fin 300000) (k : Fin 128) : idx_main_v23 (ix1 r) k = ix2 r k :=
  funext fun a => Fin.ext (by match a with | ⟨0, _⟩ => rfl | ⟨1, _⟩ => rfl)
theorem idx_main_v24_ix (r : Fin 300000) (j : Fin 1) : idx_main_v24 (ix2 r j) = ix1 r :=
  funext fun a => Fin.ext (by match a with | ⟨0, _⟩ => rfl)
theorem idx_main_v27_ix (r : Fin 300000) (j : Fin 128) : idx_main_v27 (ix2 r j) = ix2 r (0 : Fin 1) :=
  funext fun a => Fin.ext (by match a with | ⟨0, _⟩ => rfl | ⟨1, _⟩ => rfl)
theorem idx_main_v30_ix (r : Fin 300000) (k : Fin 128) : idx_main_v30 (ix1 r) k = ix2 r k :=
  funext fun a => Fin.ext (by match a with | ⟨0, _⟩ => rfl | ⟨1, _⟩ => rfl)
theorem idx_main_v31_ix (r : Fin 300000) (j : Fin 1) : idx_main_v31 (ix2 r j) = ix1 r :=
  funext fun a => Fin.ext (by match a with | ⟨0, _⟩ => rfl)
theorem idx_main_v34_ix (r : Fin 300000) (j : Fin 128) : idx_main_v34 (ix2 r j) = ix2 r (0 : Fin 1) :=
  funext fun a => Fin.ext (by match a with | ⟨0, _⟩ => rfl | ⟨1, _⟩ => rfl)
theorem idx_main_v39_ix (r : Fin 300000) (j : Fin 128) : idx_main_v39 (ix2 r j) = ix2 r (0 : Fin 1) :=
  funext fun a => Fin.ext (by match a with | ⟨0, _⟩ => rfl | ⟨1, _⟩ => rfl)
theorem idx_main_v41_ix (r : Fin 1) (j : Fin 128) : idx_main_v41 (ix2 r j) = ix1 j :=
  funext fun a => Fin.ext (by match a with | ⟨0, _⟩ => rfl)
theorem idx_main_v42_ix (r : Fin 300000) (j : Fin 128) : idx_main_v42 (ix2 r j) = ix2 (0 : Fin 1) j :=
  funext fun a => Fin.ext (by match a with | ⟨0, _⟩ => rfl | ⟨1, _⟩ => rfl)
theorem idx_main_v44_ix (r : Fin 1) (j : Fin 128) : idx_main_v44 (ix2 r j) = ix1 j :=
  funext fun a => Fin.ext (by match a with | ⟨0, _⟩ => rfl)
theorem idx_main_v45_ix (r : Fin 300000) (j : Fin 128) : idx_main_v45 (ix2 r j) = ix2 (0 : Fin 1) j :=
  funext fun a => Fin.ext (by match a with | ⟨0, _⟩ => rfl | ⟨1, _⟩ => rfl)
theorem idx_main_v55_ix (r : Fin 128) (j : Fin 128) : idx_main_v55 (ix2 r j) = ix2 j r :=
  funext fun a => Fin.ext (by match a with | ⟨0, _⟩ => rfl | ⟨1, _⟩ => rfl)
theorem lidx_main_v56_ix (r : Fin 300000) (j : Fin 128) (k : Fin 128) : lidx_main_v56 (ix2 r j) k = ix2 r k :=
  funext fun a => Fin.ext (by match a with | ⟨0, _⟩ => rfl | ⟨1, _⟩ => rfl)
theorem ridx_main_v56_ix (r : Fin 300000) (j : Fin 128) (k : Fin 128) : ridx_main_v56 (ix2 r j) k = ix2 k j :=
  funext fun a => Fin.ext (by match a with | ⟨0, _⟩ => rfl | ⟨1, _⟩ => rfl)
theorem idx_main_v57_ix (r : Fin 300000) (k : Fin 128) : idx_main_v57 (ix1 r) k = ix2 r k :=
  funext fun a => Fin.ext (by match a with | ⟨0, _⟩ => rfl | ⟨1, _⟩ => rfl)
theorem idx_main_v58_ix (r : Fin 300000) (j : Fin 1) : idx_main_v58 (ix2 r j) = ix1 r :=
  funext fun a => Fin.ext (by match a with | ⟨0, _⟩ => rfl)
theorem idx_main_v61_ix (r : Fin 300000) (j : Fin 128) : idx_main_v61 (ix2 r j) = ix2 r (0 : Fin 1) :=
  funext fun a => Fin.ext (by match a with | ⟨0, _⟩ => rfl | ⟨1, _⟩ => rfl)
theorem idx_main_v64_ix (r : Fin 300000) (k : Fin 128) : idx_main_v64 (ix1 r) k = ix2 r k :=
  funext fun a => Fin.ext (by match a with | ⟨0, _⟩ => rfl | ⟨1, _⟩ => rfl)
theorem idx_main_v65_ix (r : Fin 300000) (j : Fin 1) : idx_main_v65 (ix2 r j) = ix1 r :=
  funext fun a => Fin.ext (by match a with | ⟨0, _⟩ => rfl)
theorem idx_main_v68_ix (r : Fin 300000) (j : Fin 128) : idx_main_v68 (ix2 r j) = ix2 r (0 : Fin 1) :=
  funext fun a => Fin.ext (by match a with | ⟨0, _⟩ => rfl | ⟨1, _⟩ => rfl)
theorem idx_main_v73_ix (r : Fin 300000) (j : Fin 128) : idx_main_v73 (ix2 r j) = ix2 r (0 : Fin 1) :=
  funext fun a => Fin.ext (by match a with | ⟨0, _⟩ => rfl | ⟨1, _⟩ => rfl)
theorem idx_main_v75_ix (r : Fin 1) (j : Fin 128) : idx_main_v75 (ix2 r j) = ix1 j :=
  funext fun a => Fin.ext (by match a with | ⟨0, _⟩ => rfl)
theorem idx_main_v76_ix (r : Fin 300000) (j : Fin 128) : idx_main_v76 (ix2 r j) = ix2 (0 : Fin 1) j :=
  funext fun a => Fin.ext (by match a with | ⟨0, _⟩ => rfl | ⟨1, _⟩ => rfl)
theorem idx_main_v78_ix (r : Fin 1) (j : Fin 128) : idx_main_v78 (ix2 r j) = ix1 j :=
  funext fun a => Fin.ext (by match a with | ⟨0, _⟩ => rfl)
theorem idx_main_v79_ix (r : Fin 300000) (j : Fin 128) : idx_main_v79 (ix2 r j) = ix2 (0 : Fin 1) j :=
  funext fun a => Fin.ext (by match a with | ⟨0, _⟩ => rfl | ⟨1, _⟩ => rfl)
theorem idx_main_v90_ix (r : Fin 384) (j : Fin 128) : idx_main_v90 (ix2 r j) = ix2 j r :=
  funext fun a => Fin.ext (by match a with | ⟨0, _⟩ => rfl | ⟨1, _⟩ => rfl)
theorem lidx_main_v91_ix (r : Fin 300000) (j : Fin 128) (k : Fin 384) : lidx_main_v91 (ix2 r j) k = ix2 r k :=
  funext fun a => Fin.ext (by match a with | ⟨0, _⟩ => rfl | ⟨1, _⟩ => rfl)
theorem ridx_main_v91_ix (r : Fin 300000) (j : Fin 128) (k : Fin 384) : ridx_main_v91 (ix2 r j) k = ix2 k j :=
  funext fun a => Fin.ext (by match a with | ⟨0, _⟩ => rfl | ⟨1, _⟩ => rfl)
theorem idx_main_v92_ix (r : Fin 300000) (k : Fin 128) : idx_main_v92 (ix1 r) k = ix2 r k :=
  funext fun a => Fin.ext (by match a with | ⟨0, _⟩ => rfl | ⟨1, _⟩ => rfl)
theorem idx_main_v93_ix (r : Fin 300000) (j : Fin 1) : idx_main_v93 (ix2 r j) = ix1 r :=
  funext fun a => Fin.ext (by match a with | ⟨0, _⟩ => rfl)
theorem idx_main_v96_ix (r : Fin 300000) (j : Fin 128) : idx_main_v96 (ix2 r j) = ix2 r (0 : Fin 1) :=
  funext fun a => Fin.ext (by match a with | ⟨0, _⟩ => rfl | ⟨1, _⟩ => rfl)
theorem idx_main_v99_ix (r : Fin 300000) (k : Fin 128) : idx_main_v99 (ix1 r) k = ix2 r k :=
  funext fun a => Fin.ext (by match a with | ⟨0, _⟩ => rfl | ⟨1, _⟩ => rfl)
theorem idx_main_v100_ix (r : Fin 300000) (j : Fin 1) : idx_main_v100 (ix2 r j) = ix1 r :=
  funext fun a => Fin.ext (by match a with | ⟨0, _⟩ => rfl)
theorem idx_main_v103_ix (r : Fin 300000) (j : Fin 128) : idx_main_v103 (ix2 r j) = ix2 r (0 : Fin 1) :=
  funext fun a => Fin.ext (by match a with | ⟨0, _⟩ => rfl | ⟨1, _⟩ => rfl)
theorem idx_main_v108_ix (r : Fin 300000) (j : Fin 128) : idx_main_v108 (ix2 r j) = ix2 r (0 : Fin 1) :=
  funext fun a => Fin.ext (by match a with | ⟨0, _⟩ => rfl | ⟨1, _⟩ => rfl)
theorem idx_main_v110_ix (r : Fin 1) (j : Fin 128) : idx_main_v110 (ix2 r j) = ix1 j :=
  funext fun a => Fin.ext (by match a with | ⟨0, _⟩ => rfl)
theorem idx_main_v111_ix (r : Fin 300000) (j : Fin 128) : idx_main_v111 (ix2 r j) = ix2 (0 : Fin 1) j :=
  funext fun a => Fin.ext (by match a with | ⟨0, _⟩ => rfl | ⟨1, _⟩ => rfl)
theorem idx_main_v113_ix (r : Fin 1) (j : Fin 128) : idx_main_v113 (ix2 r j) = ix1 j :=
  funext fun a => Fin.ext (by match a with | ⟨0, _⟩ => rfl)
theorem idx_main_v114_ix (r : Fin 300000) (j : Fin 128) : idx_main_v114 (ix2 r j) = ix2 (0 : Fin 1) j :=
  funext fun a => Fin.ext (by match a with | ⟨0, _⟩ => rfl | ⟨1, _⟩ => rfl)
theorem idx_main_v117_ix (r : Fin 128) (j : Fin 128) : idx_main_v117 (ix2 r j) = ix2 j r :=
  funext fun a => Fin.ext (by match a with | ⟨0, _⟩ => rfl | ⟨1, _⟩ => rfl)
theorem lidx_main_v118_ix (r : Fin 300000) (j : Fin 128) (k : Fin 128) : lidx_main_v118 (ix2 r j) k = ix2 r k :=
  funext fun a => Fin.ext (by match a with | ⟨0, _⟩ => rfl | ⟨1, _⟩ => rfl)
theorem ridx_main_v118_ix (r : Fin 300000) (j : Fin 128) (k : Fin 128) : ridx_main_v118 (ix2 r j) k = ix2 k j :=
  funext fun a => Fin.ext (by match a with | ⟨0, _⟩ => rfl | ⟨1, _⟩ => rfl)

/-! ## The stages, row by row -/

/-- The first distance layer before its ReLU: the two-term product with the weights plus the bias. -/
theorem bias_v19 (x2 x3 : (⟨S50000x2, .f32⟩ : BufTy).Contents (Elt Ideal)) (x4 x5 : (⟨S300000, .i32⟩ : BufTy).Contents (Elt Ideal)) (x6 : (⟨S128x2, .f32⟩ : BufTy).Contents (Elt Ideal)) (x7 : (⟨S128, .f32⟩ : BufTy).Contents (Elt Ideal)) (r : Fin 300000) :
    Spec.row (val_main_v19 (F := Ideal) x2 x3 x4 x5 x6 x7) r = fun j => Spec.lin (Spec.row (val_main_v14 (F := Ideal) x2 x3 x4 x5) r) x6 j + x7 (ix1 j) := by
  funext j
  show val_main_v19 (F := Ideal) x2 x3 x4 x5 x6 x7 (ix2 r j) = _
  simp only [val_main_v19_apply, val_main_v18_apply, val_main_v17_apply, val_main_v16_apply, val_main_v15_apply]
  generalize val_main_v14 (F := Ideal) x2 x3 x4 x5 = Y0
  simp only [idx_main_v15_ix, lidx_main_v16_ix, ridx_main_v16_ix, idx_main_v17_ix, idx_main_v18_ix]
  simp only [Ideal.addf_def]
  rfl

/-- The maximum with zero, entry by entry. -/
theorem relu_v20 (x2 x3 : (⟨S50000x2, .f32⟩ : BufTy).Contents (Elt Ideal)) (x4 x5 : (⟨S300000, .i32⟩ : BufTy).Contents (Elt Ideal)) (x6 : (⟨S128x2, .f32⟩ : BufTy).Contents (Elt Ideal)) (x7 : (⟨S128, .f32⟩ : BufTy).Contents (Elt Ideal)) (r : Fin 300000) :
    Spec.row (val_main_v20 (F := Ideal) x2 x3 x4 x5 x6 x7) r = Spec.relu (Spec.row (val_main_v19 (F := Ideal) x2 x3 x4 x5 x6 x7) r) := by
  funext j
  show val_main_v20 (F := Ideal) x2 x3 x4 x5 x6 x7 (ix2 r j) = _
  simp only [val_main_v20_apply, val_main_call0_v0_apply, val_main_call0_cst_apply]
  generalize val_main_v19 (F := Ideal) x2 x3 x4 x5 x6 x7 = Y0
  simp only [Ideal.maximumf_def, Ideal.ofBits_def, Ideal.ofBits_zero_f32]
  rfl

/-- Each row of this product is the operand's row times the transposed weight matrix. -/
theorem lin_v22 (x2 x3 : (⟨S50000x2, .f32⟩ : BufTy).Contents (Elt Ideal)) (x4 x5 : (⟨S300000, .i32⟩ : BufTy).Contents (Elt Ideal)) (x6 : (⟨S128x2, .f32⟩ : BufTy).Contents (Elt Ideal)) (x7 : (⟨S128, .f32⟩ : BufTy).Contents (Elt Ideal)) (x8 : (⟨S128x128, .f32⟩ : BufTy).Contents (Elt Ideal)) (r : Fin 300000) :
    Spec.row (val_main_v22 (F := Ideal) x2 x3 x4 x5 x6 x7 x8) r = Spec.lin (Spec.row (val_main_v20 (F := Ideal) x2 x3 x4 x5 x6 x7) r) x8 := by
  funext j
  show val_main_v22 (F := Ideal) x2 x3 x4 x5 x6 x7 x8 (ix2 r j) = _
  simp only [val_main_v22_apply, val_main_v21_apply]
  generalize val_main_v20 (F := Ideal) x2 x3 x4 x5 x6 x7 = Y0
  simp only [idx_main_v21_ix, lidx_main_v22_ix, ridx_main_v22_ix]
  rfl

/-- Each row normalised by its own mean and variance over the 128 features, then scaled and shifted. -/
theorem gn_v46 (x2 x3 : (⟨S50000x2, .f32⟩ : BufTy).Contents (Elt Ideal)) (x4 x5 : (⟨S300000, .i32⟩ : BufTy).Contents (Elt Ideal)) (x6 : (⟨S128x2, .f32⟩ : BufTy).Contents (Elt Ideal)) (x7 : (⟨S128, .f32⟩ : BufTy).Contents (Elt Ideal)) (x8 : (⟨S128x128, .f32⟩ : BufTy).Contents (Elt Ideal)) (x9 x10 : (⟨S128, .f32⟩ : BufTy).Contents (Elt Ideal)) (r : Fin 300000) :
    Spec.row (val_main_v46 (F := Ideal) x2 x3 x4 x5 x6 x7 x8 x9 x10) r = Spec.gn (Spec.row (val_main_v22 (F := Ideal) x2 x3 x4 x5 x6 x7 x8) r) x9 x10 := by
  funext j
  show val_main_v46 (F := Ideal) x2 x3 x4 x5 x6 x7 x8 x9 x10 (ix2 r j) = _
  simp only [val_main_v46_apply, val_main_v45_apply, val_main_v44_apply, val_main_v43_apply, val_main_v42_apply, val_main_v41_apply, val_main_v40_apply,
    val_main_v39_apply, val_main_v38_apply, val_main_v37_apply, val_main_v36_apply, val_main_cst_6_apply, val_main_v35_apply, val_main_v34_apply,
    val_main_v33_apply, val_main_v32_apply, val_main_cst_5_apply, val_main_v31_apply, val_main_v30_apply, val_main_cst_4_apply, val_main_v29_apply,
    val_main_v28_apply, val_main_v27_apply, val_main_v26_apply, val_main_v25_apply, val_main_cst_3_apply, val_main_v24_apply, val_main_v23_apply,
    val_main_cst_apply]
  generalize val_main_v22 (F := Ideal) x2 x3 x4 x5 x6 x7 x8 = Y0
  simp only [idx_main_v23_ix, idx_main_v24_ix, idx_main_v27_ix, idx_main_v30_ix, idx_main_v31_ix, idx_main_v34_ix, idx_main_v39_ix, idx_main_v41_ix,
    idx_main_v42_ix, idx_main_v44_ix, idx_main_v45_ix]
  simp only [Ideal.addf_def, Ideal.subf_def, Ideal.mulf_def, Ideal.hostDivf_def, Ideal.hostUnary_rsqrt_def, Ideal.ofBits_def, Ideal.ofBits_zero_f32, zero_add]
  rfl

/-- The maximum with zero, entry by entry. -/
theorem relu_v47 (x2 x3 : (⟨S50000x2, .f32⟩ : BufTy).Contents (Elt Ideal)) (x4 x5 : (⟨S300000, .i32⟩ : BufTy).Contents (Elt Ideal)) (x6 : (⟨S128x2, .f32⟩ : BufTy).Contents (Elt Ideal)) (x7 : (⟨S128, .f32⟩ : BufTy).Contents (Elt Ideal)) (x8 : (⟨S128x128, .f32⟩ : BufTy).Contents (Elt Ideal)) (x9 x10 : (⟨S128, .f32⟩ : BufTy).Contents (Elt Ideal)) (r : Fin 300000) :
    Spec.row (val_main_v47 (F := Ideal) x2 x3 x4 x5 x6 x7 x8 x9 x10) r = Spec.relu (Spec.row (val_main_v46 (F := Ideal) x2 x3 x4 x5 x6 x7 x8 x9 x10) r) := by
  funext j
  show val_main_v47 (F := Ideal) x2 x3 x4 x5 x6 x7 x8 x9 x10 (ix2 r j) = _
  simp only [val_main_v47_apply, val_main_call1_v0_apply, val_main_call1_cst_apply]
  generalize val_main_v46 (F := Ideal) x2 x3 x4 x5 x6 x7 x8 x9 x10 = Y0
  simp only [Ideal.maximumf_def, Ideal.ofBits_def, Ideal.ofBits_zero_f32]
  rfl

/-- Each row of this product is the operand's row times the transposed weight matrix. -/
theorem lin_v56 (x0 : (⟨S50000x128, .f32⟩ : BufTy).Contents (Elt Ideal)) (x4 : (⟨S300000, .i32⟩ : BufTy).Contents (Elt Ideal)) (x11 : (⟨S128x128, .f32⟩ : BufTy).Contents (Elt Ideal)) (r : Fin 300000) :
    Spec.row (val_main_v56 (F := Ideal) x0 x4 x11) r = Spec.lin (Spec.row (val_main_v54 (F := Ideal) x0 x4) r) x11 := by
  funext j
  show val_main_v56 (F := Ideal) x0 x4 x11 (ix2 r j) = _
  simp only [val_main_v56_apply, val_main_v55_apply]
  generalize val_main_v54 (F := Ideal) x0 x4 = Y0
  simp only [idx_main_v55_ix, lidx_main_v56_ix, ridx_main_v56_ix]
  rfl

/-- Each row normalised by its own mean and variance over the 128 features, then scaled and shifted. -/
theorem gn_v80 (x0 : (⟨S50000x128, .f32⟩ : BufTy).Contents (Elt Ideal)) (x4 : (⟨S300000, .i32⟩ : BufTy).Contents (Elt Ideal)) (x11 : (⟨S128x128, .f32⟩ : BufTy).Contents (Elt Ideal)) (x12 x13 : (⟨S128, .f32⟩ : BufTy).Contents (Elt Ideal)) (r : Fin 300000) :
    Spec.row (val_main_v80 (F := Ideal) x0 x4 x11 x12 x13) r = Spec.gn (Spec.row (val_main_v56 (F := Ideal) x0 x4 x11) r) x12 x13 := by
  funext j
  show val_main_v80 (F := Ideal) x0 x4 x11 x12 x13 (ix2 r j) = _
  simp only [val_main_v80_apply, val_main_v79_apply, val_main_v78_apply, val_main_v77_apply, val_main_v76_apply, val_main_v75_apply, val_main_v74_apply,
    val_main_v73_apply, val_main_v72_apply, val_main_v71_apply, val_main_v70_apply, val_main_cst_13_apply, val_main_v69_apply, val_main_v68_apply,
    val_main_v67_apply, val_main_v66_apply, val_main_cst_12_apply, val_main_v65_apply, val_main_v64_apply, val_main_cst_11_apply, val_main_v63_apply,
    val_main_v62_apply, val_main_v61_apply, val_main_v60_apply, val_main_v59_apply, val_main_cst_10_apply, val_main_v58_apply, val_main_v57_apply,
    val_main_cst_9_apply]
  generalize val_main_v56 (F := Ideal) x0 x4 x11 = Y0
  simp only [idx_main_v57_ix, idx_main_v58_ix, idx_main_v61_ix, idx_main_v64_ix, idx_main_v65_ix, idx_main_v68_ix, idx_main_v73_ix, idx_main_v75_ix,
    idx_main_v76_ix, idx_main_v78_ix, idx_main_v79_ix]
  simp only [Ideal.addf_def, Ideal.subf_def, Ideal.mulf_def, Ideal.hostDivf_def, Ideal.hostUnary_rsqrt_def, Ideal.ofBits_def, Ideal.ofBits_zero_f32, zero_add]
  rfl

/-- The maximum with zero, entry by entry. -/
theorem relu_v81 (x0 : (⟨S50000x128, .f32⟩ : BufTy).Contents (Elt Ideal)) (x4 : (⟨S300000, .i32⟩ : BufTy).Contents (Elt Ideal)) (x11 : (⟨S128x128, .f32⟩ : BufTy).Contents (Elt Ideal)) (x12 x13 : (⟨S128, .f32⟩ : BufTy).Contents (Elt Ideal)) (r : Fin 300000) :
    Spec.row (val_main_v81 (F := Ideal) x0 x4 x11 x12 x13) r = Spec.relu (Spec.row (val_main_v80 (F := Ideal) x0 x4 x11 x12 x13) r) := by
  funext j
  show val_main_v81 (F := Ideal) x0 x4 x11 x12 x13 (ix2 r j) = _
  simp only [val_main_v81_apply, val_main_call2_v0_apply, val_main_call2_cst_apply]
  generalize val_main_v80 (F := Ideal) x0 x4 x11 x12 x13 = Y0
  simp only [Ideal.maximumf_def, Ideal.ofBits_def, Ideal.ofBits_zero_f32]
  rfl

/-- The product of the joined row `[d | q | c]` with the 128 × 384 weights is the sum of the three partial
    products: the joined array is read column by column, and the one sum over 384 terms is regrouped. -/
theorem cat_v91 (x0 x1 : (⟨S50000x128, .f32⟩ : BufTy).Contents (Elt Ideal)) (x2 x3 : (⟨S50000x2, .f32⟩ : BufTy).Contents (Elt Ideal)) (x4 x5 : (⟨S300000, .i32⟩ : BufTy).Contents (Elt Ideal)) (x6 : (⟨S128x2, .f32⟩ : BufTy).Contents (Elt Ideal)) (x7 : (⟨S128, .f32⟩ : BufTy).Contents (Elt Ideal)) (x8 : (⟨S128x128, .f32⟩ : BufTy).Contents (Elt Ideal)) (x9 x10 : (⟨S128, .f32⟩ : BufTy).Contents (Elt Ideal)) (x11 : (⟨S128x128, .f32⟩ : BufTy).Contents (Elt Ideal)) (x12 x13 : (⟨S128, .f32⟩ : BufTy).Contents (Elt Ideal)) (x14 : (⟨S128x384, .f32⟩ : BufTy).Contents (Elt Ideal)) (r : Fin 300000) :
    Spec.row (val_main_v91 (F := Ideal) x0 x1 x2 x3 x4 x5 x6 x7 x8 x9 x10 x11 x12 x13 x14) r = Spec.lin3 (Spec.row (val_main_v47 (F := Ideal) x2 x3 x4 x5 x6 x7 x8 x9 x10) r) (Spec.row (val_main_v81 (F := Ideal) x0 x4 x11 x12 x13) r) (Spec.row (val_main_v88 (F := Ideal) x1 x5) r) x14 := by
  funext j
  show val_main_v91 (F := Ideal) x0 x1 x2 x3 x4 x5 x6 x7 x8 x9 x10 x11 x12 x13 x14 (ix2 r j) = _
  rw [← Spec.lin3_eq_sum384]
  simp only [val_main_v91_apply, val_main_v90_apply]
  unfold val_main_v89
  generalize val_main_v47 (F := Ideal) x2 x3 x4 x5 x6 x7 x8 x9 x10 = Y0
  generalize val_main_v81 (F := Ideal) x0 x4 x11 x12 x13 = Y1
  generalize val_main_v88 (F := Ideal) x1 x5 = Y2
  simp only [idx_main_v90_ix, lidx_main_v91_ix, ridx_main_v91_ix]
  refine Finset.sum_congr rfl fun k _ => congrArg (· * x14 (ix2 j k)) ?_
  exact LibHost.concat3_apply Y0 Y1 Y2 _ r k

/-- Each row normalised by its own mean and variance over the 128 features, then scaled and shifted. -/
theorem gn_v115 (x0 x1 : (⟨S50000x128, .f32⟩ : BufTy).Contents (Elt Ideal)) (x2 x3 : (⟨S50000x2, .f32⟩ : BufTy).Contents (Elt Ideal)) (x4 x5 : (⟨S300000, .i32⟩ : BufTy).Contents (Elt Ideal)) (x6 : (⟨S128x2, .f32⟩ : BufTy).Contents (Elt Ideal)) (x7 : (⟨S128, .f32⟩ : BufTy).Contents (Elt Ideal)) (x8 : (⟨S128x128, .f32⟩ : BufTy).Contents (Elt Ideal)) (x9 x10 : (⟨S128, .f32⟩ : BufTy).Contents (Elt Ideal)) (x11 : (⟨S128x128, .f32⟩ : BufTy).Contents (Elt Ideal)) (x12 x13 : (⟨S128, .f32⟩ : BufTy).Contents (Elt Ideal)) (x14 : (⟨S128x384, .f32⟩ : BufTy).Contents (Elt Ideal)) (x15 x16 : (⟨S128, .f32⟩ : BufTy).Contents (Elt Ideal)) (r : Fin 300000) :
    Spec.row (val_main_v115 (F := Ideal) x0 x1 x2 x3 x4 x5 x6 x7 x8 x9 x10 x11 x12 x13 x14 x15 x16) r = Spec.gn (Spec.row (val_main_v91 (F := Ideal) x0 x1 x2 x3 x4 x5 x6 x7 x8 x9 x10 x11 x12 x13 x14) r) x15 x16 := by
  funext j
  show val_main_v115 (F := Ideal) x0 x1 x2 x3 x4 x5 x6 x7 x8 x9 x10 x11 x12 x13 x14 x15 x16 (ix2 r j) = _
  simp only [val_main_v115_apply, val_main_v114_apply, val_main_v113_apply, val_main_v112_apply, val_main_v111_apply, val_main_v110_apply, val_main_v109_apply,
    val_main_v108_apply, val_main_v107_apply, val_main_v106_apply, val_main_v105_apply, val_main_cst_20_apply, val_main_v104_apply, val_main_v103_apply,
    val_main_v102_apply, val_main_v101_apply, val_main_cst_19_apply, val_main_v100_apply, val_main_v99_apply, val_main_cst_18_apply, val_main_v98_apply,
    val_main_v97_apply, val_main_v96_apply, val_main_v95_apply, val_main_v94_apply, val_main_cst_17_apply, val_main_v93_apply, val_main_v92_apply,
    val_main_cst_16_apply]
  generalize val_main_v91 (F := Ideal) x0 x1 x2 x3 x4 x5 x6 x7 x8 x9 x10 x11 x12 x13 x14 = Y0
  simp only [idx_main_v92_ix, idx_main_v93_ix, idx_main_v96_ix, idx_main_v99_ix, idx_main_v100_ix, idx_main_v103_ix, idx_main_v108_ix, idx_main_v110_ix,
    idx_main_v111_ix, idx_main_v113_ix, idx_main_v114_ix]
  simp only [Ideal.addf_def, Ideal.subf_def, Ideal.mulf_def, Ideal.hostDivf_def, Ideal.hostUnary_rsqrt_def, Ideal.ofBits_def, Ideal.ofBits_zero_f32, zero_add]
  rfl

/-- The maximum with zero, entry by entry. -/
theorem relu_v116 (x0 x1 : (⟨S50000x128, .f32⟩ : BufTy).Contents (Elt Ideal)) (x2 x3 : (⟨S50000x2, .f32⟩ : BufTy).Contents (Elt Ideal)) (x4 x5 : (⟨S300000, .i32⟩ : BufTy).Contents (Elt Ideal)) (x6 : (⟨S128x2, .f32⟩ : BufTy).Contents (Elt Ideal)) (x7 : (⟨S128, .f32⟩ : BufTy).Contents (Elt Ideal)) (x8 : (⟨S128x128, .f32⟩ : BufTy).Contents (Elt Ideal)) (x9 x10 : (⟨S128, .f32⟩ : BufTy).Contents (Elt Ideal)) (x11 : (⟨S128x128, .f32⟩ : BufTy).Contents (Elt Ideal)) (x12 x13 : (⟨S128, .f32⟩ : BufTy).Contents (Elt Ideal)) (x14 : (⟨S128x384, .f32⟩ : BufTy).Contents (Elt Ideal)) (x15 x16 : (⟨S128, .f32⟩ : BufTy).Contents (Elt Ideal)) (r : Fin 300000) :
    Spec.row (val_main_v116 (F := Ideal) x0 x1 x2 x3 x4 x5 x6 x7 x8 x9 x10 x11 x12 x13 x14 x15 x16) r = Spec.relu (Spec.row (val_main_v115 (F := Ideal) x0 x1 x2 x3 x4 x5 x6 x7 x8 x9 x10 x11 x12 x13 x14 x15 x16) r) := by
  funext j
  show val_main_v116 (F := Ideal) x0 x1 x2 x3 x4 x5 x6 x7 x8 x9 x10 x11 x12 x13 x14 x15 x16 (ix2 r j) = _
  simp only [val_main_v116_apply, val_main_call3_v0_apply, val_main_call3_cst_apply]
  generalize val_main_v115 (F := Ideal) x0 x1 x2 x3 x4 x5 x6 x7 x8 x9 x10 x11 x12 x13 x14 x15 x16 = Y0
  simp only [Ideal.maximumf_def, Ideal.ofBits_def, Ideal.ofBits_zero_f32]
  rfl

/-- Each row of this product is the operand's row times the transposed weight matrix. -/
theorem lin_v118 (x0 x1 : (⟨S50000x128, .f32⟩ : BufTy).Contents (Elt Ideal)) (x2 x3 : (⟨S50000x2, .f32⟩ : BufTy).Contents (Elt Ideal)) (x4 x5 : (⟨S300000, .i32⟩ : BufTy).Contents (Elt Ideal)) (x6 : (⟨S128x2, .f32⟩ : BufTy).Contents (Elt Ideal)) (x7 : (⟨S128, .f32⟩ : BufTy).Contents (Elt Ideal)) (x8 : (⟨S128x128, .f32⟩ : BufTy).Contents (Elt Ideal)) (x9 x10 : (⟨S128, .f32⟩ : BufTy).Contents (Elt Ideal)) (x11 : (⟨S128x128, .f32⟩ : BufTy).Contents (Elt Ideal)) (x12 x13 : (⟨S128, .f32⟩ : BufTy).Contents (Elt Ideal)) (x14 : (⟨S128x384, .f32⟩ : BufTy).Contents (Elt Ideal)) (x15 x16 : (⟨S128, .f32⟩ : BufTy).Contents (Elt Ideal)) (x17 : (⟨S128x128, .f32⟩ : BufTy).Contents (Elt Ideal)) (r : Fin 300000) :
    Spec.row (val_main_v118 (F := Ideal) x0 x1 x2 x3 x4 x5 x6 x7 x8 x9 x10 x11 x12 x13 x14 x15 x16 x17) r = Spec.lin (Spec.row (val_main_v116 (F := Ideal) x0 x1 x2 x3 x4 x5 x6 x7 x8 x9 x10 x11 x12 x13 x14 x15 x16) r) x17 := by
  funext j
  show val_main_v118 (F := Ideal) x0 x1 x2 x3 x4 x5 x6 x7 x8 x9 x10 x11 x12 x13 x14 x15 x16 x17 (ix2 r j) = _
  simp only [val_main_v118_apply, val_main_v117_apply]
  generalize val_main_v116 (F := Ideal) x0 x1 x2 x3 x4 x5 x6 x7 x8 x9 x10 x11 x12 x13 x14 x15 x16 = Y0
  simp only [idx_main_v117_ix, lidx_main_v118_ix, ridx_main_v118_ix]
  rfl

/-- THE EDGE PART: the array of messages the reference scatters is the message row function applied to
    each edge's three gathered rows. -/
theorem edge_eq (x0 x1 : (⟨S50000x128, .f32⟩ : BufTy).Contents (Elt Ideal)) (x2 x3 : (⟨S50000x2, .f32⟩ : BufTy).Contents (Elt Ideal)) (x4 x5 : (⟨S300000, .i32⟩ : BufTy).Contents (Elt Ideal)) (x6 : (⟨S128x2, .f32⟩ : BufTy).Contents (Elt Ideal)) (x7 : (⟨S128, .f32⟩ : BufTy).Contents (Elt Ideal)) (x8 : (⟨S128x128, .f32⟩ : BufTy).Contents (Elt Ideal)) (x9 x10 : (⟨S128, .f32⟩ : BufTy).Contents (Elt Ideal)) (x11 : (⟨S128x128, .f32⟩ : BufTy).Contents (Elt Ideal)) (x12 x13 : (⟨S128, .f32⟩ : BufTy).Contents (Elt Ideal)) (x14 : (⟨S128x384, .f32⟩ : BufTy).Contents (Elt Ideal)) (x15 x16 : (⟨S128, .f32⟩ : BufTy).Contents (Elt Ideal)) (x17 : (⟨S128x128, .f32⟩ : BufTy).Contents (Elt Ideal)) :
    val_main_v118 (F := Ideal) x0 x1 x2 x3 x4 x5 x6 x7 x8 x9 x10 x11 x12 x13 x14 x15 x16 x17 = Spec.edgeArr (val_main_v14 (F := Ideal) x2 x3 x4 x5) (val_main_v54 (F := Ideal) x0 x4) (val_main_v88 (F := Ideal) x1 x5) x6 x7 x8 x9 x10 x11 x12 x13 x14 x15 x16 x17 := by
  funext i
  obtain ⟨r, j, rfl⟩ : ∃ (r : Fin 300000) (j : Fin 128), i = ix2 r j := ⟨i 0, i 1, eq_ix2 i⟩
  show Spec.row (val_main_v118 (F := Ideal) x0 x1 x2 x3 x4 x5 x6 x7 x8 x9 x10 x11 x12 x13 x14 x15 x16 x17) r j = _
  rw [lin_v118, relu_v116, gn_v115, cat_v91, relu_v47, gn_v46, lin_v22, relu_v20, bias_v19, relu_v81, gn_v80, lin_v56]
  rfl

end Cert.RefValue

end
-- ==== Proof.RefNode.lean ====
/-
  The node half of the reference program, read row by row.

  The reference multiplies the node features by a transposed weight matrix, adds the edge messages into
  the rows of their target nodes with an accumulating scatter, normalises each row, takes the maximum
  with zero, multiplies by a second transposed weight matrix, normalises again, adds the node's own
  feature row and takes the maximum with zero. The scatter is its operand plus, element by element,
  the sum of the messages that land there; every other operation acts on each row by itself.

  First come the index identities: the index at which each stage reads its operand, evaluated at an
  index given by coordinates. Then one lemma per group of stages.
-/
import proofs.«109786_j60155311948394_2_alg».proof.Proof.RefRead
import proofs.«109786_j60155311948394_2_alg».proof.Proof.Spec

noncomputable section

namespace Cert.RefValue

open Cert.ReferenceIdeal Cert.ReferenceIdeal.ReadP Idealize.ShloMosaic Idealize.ShloMosaic.ValueIdx

/-! ## Index identities -/

theorem idx_main_v119_ix (r : Fin 128) (j : Fin 128) : idx_main_v119 (ix2 r j) = ix2 j r :=
  funext fun a => Fin.ext (by match a with | ⟨0, _⟩ => rfl | ⟨1, _⟩ => rfl)
theorem lidx_main_v120_ix (r : Fin 50000) (j : Fin 128) (k : Fin 128) : lidx_main_v120 (ix2 r j) k = ix2 r k :=
  funext fun a => Fin.ext (by match a with | ⟨0, _⟩ => rfl | ⟨1, _⟩ => rfl)
theorem ridx_main_v120_ix (r : Fin 50000) (j : Fin 128) (k : Fin 128) : ridx_main_v120 (ix2 r j) k = ix2 k j :=
  funext fun a => Fin.ext (by match a with | ⟨0, _⟩ => rfl | ⟨1, _⟩ => rfl)
theorem idx_main_v128_ix (r : Fin 50000) (k : Fin 128) : idx_main_v128 (ix1 r) k = ix2 r k :=
  funext fun a => Fin.ext (by match a with | ⟨0, _⟩ => rfl | ⟨1, _⟩ => rfl)
theorem idx_main_v129_ix (r : Fin 50000) (j : Fin 1) : idx_main_v129 (ix2 r j) = ix1 r :=
  funext fun a => Fin.ext (by match a with | ⟨0, _⟩ => rfl)
theorem idx_main_v132_ix (r : Fin 50000) (j : Fin 128) : idx_main_v132 (ix2 r j) = ix2 r (0 : Fin 1) :=
  funext fun a => Fin.ext (by match a with | ⟨0, _⟩ => rfl | ⟨1, _⟩ => rfl)
theorem idx_main_v135_ix (r : Fin 50000) (k : Fin 128) : idx_main_v135 (ix1 r) k = ix2 r k :=
  funext fun a => Fin.ext (by match a with | ⟨0, _⟩ => rfl | ⟨1, _⟩ => rfl)
theorem idx_main_v136_ix (r : Fin 50000) (j : Fin 1) : idx_main_v136 (ix2 r j) = ix1 r :=
  funext fun a => Fin.ext (by match a with | ⟨0, _⟩ => rfl)
theorem idx_main_v139_ix (r : Fin 50000) (j : Fin 128) : idx_main_v139 (ix2 r j) = ix2 r (0 : Fin 1) :=
  funext fun a => Fin.ext (by match a with | ⟨0, _⟩ => rfl | ⟨1, _⟩ => rfl)
theorem idx_main_v144_ix (r : Fin 50000) (j : Fin 128) : idx_main_v144 (ix2 r j) = ix2 r (0 : Fin 1) :=
  funext fun a => Fin.ext (by match a with | ⟨0, _⟩ => rfl | ⟨1, _⟩ => rfl)
theorem idx_main_v146_ix (r : Fin 1) (j : Fin 128) : idx_main_v146 (ix2 r j) = ix1 j :=
  funext fun a => Fin.ext (by match a with | ⟨0, _⟩ => rfl)
theorem idx_main_v147_ix (r : Fin 50000) (j : Fin 128) : idx_main_v147 (ix2 r j) = ix2 (0 : Fin 1) j :=
  funext fun a => Fin.ext (by match a with | ⟨0, _⟩ => rfl | ⟨1, _⟩ => rfl)
theorem idx_main_v149_ix (r : Fin 1) (j : Fin 128) : idx_main_v149 (ix2 r j) = ix1 j :=
  funext fun a => Fin.ext (by match a with | ⟨0, _⟩ => rfl)
theorem idx_main_v150_ix (r : Fin 50000) (j : Fin 128) : idx_main_v150 (ix2 r j) = ix2 (0 : Fin 1) j :=
  funext fun a => Fin.ext (by match a with | ⟨0, _⟩ => rfl | ⟨1, _⟩ => rfl)
theorem idx_main_v153_ix (r : Fin 128) (j : Fin 128) : idx_main_v153 (ix2 r j) = ix2 j r :=
  funext fun a => Fin.ext (by match a with | ⟨0, _⟩ => rfl | ⟨1, _⟩ => rfl)
theorem lidx_main_v154_ix (r : Fin 50000) (j : Fin 128) (k : Fin 128) : lidx_main_v154 (ix2 r j) k = ix2 r k :=
  funext fun a => Fin.ext (by match a with | ⟨0, _⟩ => rfl | ⟨1, _⟩ => rfl)
theorem ridx_main_v154_ix (r : Fin 50000) (j : Fin 128) (k : Fin 128) : ridx_main_v154 (ix2 r j) k = ix2 k j :=
  funext fun a => Fin.ext (by match a with | ⟨0, _⟩ => rfl | ⟨1, _⟩ => rfl)
theorem idx_main_v155_ix (r : Fin 50000) (k : Fin 128) : idx_main_v155 (ix1 r) k = ix2 r k :=
  funext fun a => Fin.ext (by match a with | ⟨0, _⟩ => rfl | ⟨1, _⟩ => rfl)
theorem idx_main_v156_ix (r : Fin 50000) (j : Fin 1) : idx_main_v156 (ix2 r j) = ix1 r :=
  funext fun a => Fin.ext (by match a with | ⟨0, _⟩ => rfl)
theorem idx_main_v159_ix (r : Fin 50000) (j : Fin 128) : idx_main_v159 (ix2 r j) = ix2 r (0 : Fin 1) :=
  funext fun a => Fin.ext (by match a with | ⟨0, _⟩ => rfl | ⟨1, _⟩ => rfl)
theorem idx_main_v162_ix (r : Fin 50000) (k : Fin 128) : idx_main_v162 (ix1 r) k = ix2 r k :=
  funext fun a => Fin.ext (by match a with | ⟨0, _⟩ => rfl | ⟨1, _⟩ => rfl)
theorem idx_main_v163_ix (r : Fin 50000) (j : Fin 1) : idx_main_v163 (ix2 r j) = ix1 r :=
  funext fun a => Fin.ext (by match a with | ⟨0, _⟩ => rfl)
theorem idx_main_v166_ix (r : Fin 50000) (j : Fin 128) : idx_main_v166 (ix2 r j) = ix2 r (0 : Fin 1) :=
  funext fun a => Fin.ext (by match a with | ⟨0, _⟩ => rfl | ⟨1, _⟩ => rfl)
theorem idx_main_v171_ix (r : Fin 50000) (j : Fin 128) : idx_main_v171 (ix2 r j) = ix2 r (0 : Fin 1) :=
  funext fun a => Fin.ext (by match a with | ⟨0, _⟩ => rfl | ⟨1, _⟩ => rfl)
theorem idx_main_v173_ix (r : Fin 1) (j : Fin 128) : idx_main_v173 (ix2 r j) = ix1 j :=
  funext fun a => Fin.ext (by match a with | ⟨0, _⟩ => rfl)
theorem idx_main_v174_ix (r : Fin 50000) (j : Fin 128) : idx_main_v174 (ix2 r j) = ix2 (0 : Fin 1) j :=
  funext fun a => Fin.ext (by match a with | ⟨0, _⟩ => rfl | ⟨1, _⟩ => rfl)
theorem idx_main_v176_ix (r : Fin 1) (j : Fin 128) : idx_main_v176 (ix2 r j) = ix1 j :=
  funext fun a => Fin.ext (by match a with | ⟨0, _⟩ => rfl)
theorem idx_main_v177_ix (r : Fin 50000) (j : Fin 128) : idx_main_v177 (ix2 r j) = ix2 (0 : Fin 1) j :=
  funext fun a => Fin.ext (by match a with | ⟨0, _⟩ => rfl | ⟨1, _⟩ => rfl)

/-! ## The stages, row by row -/

/-- Each row of this product is the operand's row times the transposed weight matrix. -/
theorem lin_v120 (x0 : (⟨S50000x128, .f32⟩ : BufTy).Contents (Elt Ideal)) (x18 : (⟨S128x128, .f32⟩ : BufTy).Contents (Elt Ideal)) (r : Fin 50000) :
    Spec.row (val_main_v120 (F := Ideal) x0 x18) r = Spec.lin (Spec.row x0 r) x18 := by
  funext j
  show val_main_v120 (F := Ideal) x0 x18 (ix2 r j) = _
  simp only [val_main_v120_apply, val_main_v119_apply]

  simp only [idx_main_v119_ix, lidx_main_v120_ix, ridx_main_v120_ix]
  rfl

/-- The accumulating scatter is its operand plus, at each element, the sum of the updates that land there. -/
theorem scat_arr (x0 x1 : (⟨S50000x128, .f32⟩ : BufTy).Contents (Elt Ideal)) (x2 x3 : (⟨S50000x2, .f32⟩ : BufTy).Contents (Elt Ideal)) (x4 x5 : (⟨S300000, .i32⟩ : BufTy).Contents (Elt Ideal)) (x6 : (⟨S128x2, .f32⟩ : BufTy).Contents (Elt Ideal)) (x7 : (⟨S128, .f32⟩ : BufTy).Contents (Elt Ideal)) (x8 : (⟨S128x128, .f32⟩ : BufTy).Contents (Elt Ideal)) (x9 x10 : (⟨S128, .f32⟩ : BufTy).Contents (Elt Ideal)) (x11 : (⟨S128x128, .f32⟩ : BufTy).Contents (Elt Ideal)) (x12 x13 : (⟨S128, .f32⟩ : BufTy).Contents (Elt Ideal)) (x14 : (⟨S128x384, .f32⟩ : BufTy).Contents (Elt Ideal)) (x15 x16 : (⟨S128, .f32⟩ : BufTy).Contents (Elt Ideal)) (x17 x18 : (⟨S128x128, .f32⟩ : BufTy).Contents (Elt Ideal)) :
    val_main_v127 (F := Ideal) x0 x1 x2 x3 x4 x5 x6 x7 x8 x9 x10 x11 x12 x13 x14 x15 x16 x17 x18 = fun i => val_main_v120 (F := Ideal) x0 x18 i + Spec.landed scatter_S50000x128_S300000x1_S300000x128_1_0_0_1 (val_main_v126 (F := Ideal) x4) (val_main_v118 (F := Ideal) x0 x1 x2 x3 x4 x5 x6 x7 x8 x9 x10 x11 x12 x13 x14 x15 x16 x17) i := by
  unfold val_main_v127
  generalize val_main_v120 (F := Ideal) x0 x18 = Y0
  generalize val_main_v126 (F := Ideal) x4 = Y1
  generalize val_main_v118 (F := Ideal) x0 x1 x2 x3 x4 x5 x6 x7 x8 x9 x10 x11 x12 x13 x14 x15 x16 x17 = Y2
  exact Spec.hostScatterAdd_eq _ Y0 Y1 Y2

/-- Row `r` after the scatter: the node's own product with `w_a` plus the row of landed messages. -/
theorem scat_v127 (x0 x1 : (⟨S50000x128, .f32⟩ : BufTy).Contents (Elt Ideal)) (x2 x3 : (⟨S50000x2, .f32⟩ : BufTy).Contents (Elt Ideal)) (x4 x5 : (⟨S300000, .i32⟩ : BufTy).Contents (Elt Ideal)) (x6 : (⟨S128x2, .f32⟩ : BufTy).Contents (Elt Ideal)) (x7 : (⟨S128, .f32⟩ : BufTy).Contents (Elt Ideal)) (x8 : (⟨S128x128, .f32⟩ : BufTy).Contents (Elt Ideal)) (x9 x10 : (⟨S128, .f32⟩ : BufTy).Contents (Elt Ideal)) (x11 : (⟨S128x128, .f32⟩ : BufTy).Contents (Elt Ideal)) (x12 x13 : (⟨S128, .f32⟩ : BufTy).Contents (Elt Ideal)) (x14 : (⟨S128x384, .f32⟩ : BufTy).Contents (Elt Ideal)) (x15 x16 : (⟨S128, .f32⟩ : BufTy).Contents (Elt Ideal)) (x17 x18 : (⟨S128x128, .f32⟩ : BufTy).Contents (Elt Ideal)) (r : Fin 50000) :
    Spec.row (val_main_v127 (F := Ideal) x0 x1 x2 x3 x4 x5 x6 x7 x8 x9 x10 x11 x12 x13 x14 x15 x16 x17 x18) r = fun j => Spec.lin (Spec.row x0 r) x18 j + Spec.row (Spec.landed scatter_S50000x128_S300000x1_S300000x128_1_0_0_1 (val_main_v126 (F := Ideal) x4) (val_main_v118 (F := Ideal) x0 x1 x2 x3 x4 x5 x6 x7 x8 x9 x10 x11 x12 x13 x14 x15 x16 x17)) r j := by
  funext j
  show val_main_v127 (F := Ideal) x0 x1 x2 x3 x4 x5 x6 x7 x8 x9 x10 x11 x12 x13 x14 x15 x16 x17 x18 (ix2 r j) = _
  rw [scat_arr]
  generalize Spec.landed scatter_S50000x128_S300000x1_S300000x128_1_0_0_1 (val_main_v126 (F := Ideal) x4) (val_main_v118 (F := Ideal) x0 x1 x2 x3 x4 x5 x6 x7 x8 x9 x10 x11 x12 x13 x14 x15 x16 x17) = L
  show Spec.row (val_main_v120 (F := Ideal) x0 x18) r j + L (ix2 r j) = Spec.lin (Spec.row x0 r) x18 j + L (ix2 r j)
  rw [lin_v120]

/-- Each row normalised by its own mean and variance over the 128 features, then scaled and shifted. -/
theorem gn_v151 (x0 x1 : (⟨S50000x128, .f32⟩ : BufTy).Contents (Elt Ideal)) (x2 x3 : (⟨S50000x2, .f32⟩ : BufTy).Contents (Elt Ideal)) (x4 x5 : (⟨S300000, .i32⟩ : BufTy).Contents (Elt Ideal)) (x6 : (⟨S128x2, .f32⟩ : BufTy).Contents (Elt Ideal)) (x7 : (⟨S128, .f32⟩ : BufTy).Contents (Elt Ideal)) (x8 : (⟨S128x128, .f32⟩ : BufTy).Contents (Elt Ideal)) (x9 x10 : (⟨S128, .f32⟩ : BufTy).Contents (Elt Ideal)) (x11 : (⟨S128x128, .f32⟩ : BufTy).Contents (Elt Ideal)) (x12 x13 : (⟨S128, .f32⟩ : BufTy).Contents (Elt Ideal)) (x14 : (⟨S128x384, .f32⟩ : BufTy).Contents (Elt Ideal)) (x15 x16 : (⟨S128, .f32⟩ : BufTy).Contents (Elt Ideal)) (x17 x18 : (⟨S128x128, .f32⟩ : BufTy).Contents (Elt Ideal)) (x19 x20 : (⟨S128, .f32⟩ : BufTy).Contents (Elt Ideal)) (r : Fin 50000) :
    Spec.row (val_main_v151 (F := Ideal) x0 x1 x2 x3 x4 x5 x6 x7 x8 x9 x10 x11 x12 x13 x14 x15 x16 x17 x18 x19 x20) r = Spec.gn (Spec.row (val_main_v127 (F := Ideal) x0 x1 x2 x3 x4 x5 x6 x7 x8 x9 x10 x11 x12 x13 x14 x15 x16 x17 x18) r) x19 x20 := by
  funext j
  show val_main_v151 (F := Ideal) x0 x1 x2 x3 x4 x5 x6 x7 x8 x9 x10 x11 x12 x13 x14 x15 x16 x17 x18 x19 x20 (ix2 r j) = _
  simp only [val_main_v151_apply, val_main_v150_apply, val_main_v149_apply, val_main_v148_apply, val_main_v147_apply, val_main_v146_apply, val_main_v145_apply,
    val_main_v144_apply, val_main_v143_apply, val_main_v142_apply, val_main_v141_apply, val_main_cst_27_apply, val_main_v140_apply, val_main_v139_apply,
    val_main_v138_apply, val_main_v137_apply, val_main_cst_26_apply, val_main_v136_apply, val_main_v135_apply, val_main_cst_25_apply, val_main_v134_apply,
    val_main_v133_apply, val_main_v132_apply, val_main_v131_apply, val_main_v130_apply, val_main_cst_24_apply, val_main_v129_apply, val_main_v128_apply,
    val_main_cst_23_apply]
  generalize val_main_v127 (F := Ideal) x0 x1 x2 x3 x4 x5 x6 x7 x8 x9 x10 x11 x12 x13 x14 x15 x16 x17 x18 = Y0
  simp only [idx_main_v128_ix, idx_main_v129_ix, idx_main_v132_ix, idx_main_v135_ix, idx_main_v136_ix, idx_main_v139_ix, idx_main_v144_ix, idx_main_v146_ix,
    idx_main_v147_ix, idx_main_v149_ix, idx_main_v150_ix]
  simp only [Ideal.addf_def, Ideal.subf_def, Ideal.mulf_def, Ideal.hostDivf_def, Ideal.hostUnary_rsqrt_def, Ideal.ofBits_def, Ideal.ofBits_zero_f32, zero_add]
  rfl

/-- The maximum with zero, entry by entry. -/
theorem relu_v152 (x0 x1 : (⟨S50000x128, .f32⟩ : BufTy).Contents (Elt Ideal)) (x2 x3 : (⟨S50000x2, .f32⟩ : BufTy).Contents (Elt Ideal)) (x4 x5 : (⟨S300000, .i32⟩ : BufTy).Contents (Elt Ideal)) (x6 : (⟨S128x2, .f32⟩ : BufTy).Contents (Elt Ideal)) (x7 : (⟨S128, .f32⟩ : BufTy).Contents (Elt Ideal)) (x8 : (⟨S128x128, .f32⟩ : BufTy).Contents (Elt Ideal)) (x9 x10 : (⟨S128, .f32⟩ : BufTy).Contents (Elt Ideal)) (x11 : (⟨S128x128, .f32⟩ : BufTy).Contents (Elt Ideal)) (x12 x13 : (⟨S128, .f32⟩ : BufTy).Contents (Elt Ideal)) (x14 : (⟨S128x384, .f32⟩ : BufTy).Contents (Elt Ideal)) (x15 x16 : (⟨S128, .f32⟩ : BufTy).Contents (Elt Ideal)) (x17 x18 : (⟨S128x128, .f32⟩ : BufTy).Contents (Elt Ideal)) (x19 x20 : (⟨S128, .f32⟩ : BufTy).Contents (Elt Ideal)) (r : Fin 50000) :
    Spec.row (val_main_v152 (F := Ideal) x0 x1 x2 x3 x4 x5 x6 x7 x8 x9 x10 x11 x12 x13 x14 x15 x16 x17 x18 x19 x20) r = Spec.relu (Spec.row (val_main_v151 (F := Ideal) x0 x1 x2 x3 x4 x5 x6 x7 x8 x9 x10 x11 x12 x13 x14 x15 x16 x17 x18 x19 x20) r) := by
  funext j
  show val_main_v152 (F := Ideal) x0 x1 x2 x3 x4 x5 x6 x7 x8 x9 x10 x11 x12 x13 x14 x15 x16 x17 x18 x19 x20 (ix2 r j) = _
  simp only [val_main_v152_apply, val_main_call4_v0_apply, val_main_call4_cst_apply]
  generalize val_main_v151 (F := Ideal) x0 x1 x2 x3 x4 x5 x6 x7 x8 x9 x10 x11 x12 x13 x14 x15 x16 x17 x18 x19 x20 = Y0
  simp only [Ideal.maximumf_def, Ideal.ofBits_def, Ideal.ofBits_zero_f32]
  rfl

/-- Each row of this product is the operand's row times the transposed weight matrix. -/
theorem lin_v154 (x0 x1 : (⟨S50000x128, .f32⟩ : BufTy).Contents (Elt Ideal)) (x2 x3 : (⟨S50000x2, .f32⟩ : BufTy).Contents (Elt Ideal)) (x4 x5 : (⟨S300000, .i32⟩ : BufTy).Contents (Elt Ideal)) (x6 : (⟨S128x2, .f32⟩ : BufTy).Contents (Elt Ideal)) (x7 : (⟨S128, .f32⟩ : BufTy).Contents (Elt Ideal)) (x8 : (⟨S128x128, .f32⟩ : BufTy).Contents (Elt Ideal)) (x9 x10 : (⟨S128, .f32⟩ : BufTy).Contents (Elt Ideal)) (x11 : (⟨S128x128, .f32⟩ : BufTy).Contents (Elt Ideal)) (x12 x13 : (⟨S128, .f32⟩ : BufTy).Contents (Elt Ideal)) (x14 : (⟨S128x384, .f32⟩ : BufTy).Contents (Elt Ideal)) (x15 x16 : (⟨S128, .f32⟩ : BufTy).Contents (Elt Ideal)) (x17 x18 : (⟨S128x128, .f32⟩ : BufTy).Contents (Elt Ideal)) (x19 x20 : (⟨S128, .f32⟩ : BufTy).Contents (Elt Ideal)) (x21 : (⟨S128x128, .f32⟩ : BufTy).Contents (Elt Ideal)) (r : Fin 50000) :
    Spec.row (val_main_v154 (F := Ideal) x0 x1 x2 x3 x4 x5 x6 x7 x8 x9 x10 x11 x12 x13 x14 x15 x16 x17 x18 x19 x20 x21) r = Spec.lin (Spec.row (val_main_v152 (F := Ideal) x0 x1 x2 x3 x4 x5 x6 x7 x8 x9 x10 x11 x12 x13 x14 x15 x16 x17 x18 x19 x20) r) x21 := by
  funext j
  show val_main_v154 (F := Ideal) x0 x1 x2 x3 x4 x5 x6 x7 x8 x9 x10 x11 x12 x13 x14 x15 x16 x17 x18 x19 x20 x21 (ix2 r j) = _
  simp only [val_main_v154_apply, val_main_v153_apply]
  generalize val_main_v152 (F := Ideal) x0 x1 x2 x3 x4 x5 x6 x7 x8 x9 x10 x11 x12 x13 x14 x15 x16 x17 x18 x19 x20 = Y0
  simp only [idx_main_v153_ix, lidx_main_v154_ix, ridx_main_v154_ix]
  rfl

/-- Each row normalised by its own mean and variance over the 128 features, then scaled and shifted. -/
theorem gn_v178 (x0 x1 : (⟨S50000x128, .f32⟩ : BufTy).Contents (Elt Ideal)) (x2 x3 : (⟨S50000x2, .f32⟩ : BufTy).Contents (Elt Ideal)) (x4 x5 : (⟨S300000, .i32⟩ : BufTy).Contents (Elt Ideal)) (x6 : (⟨S128x2, .f32⟩ : BufTy).Contents (Elt Ideal)) (x7 : (⟨S128, .f32⟩ : BufTy).Contents (Elt Ideal)) (x8 : (⟨S128x128, .f32⟩ : BufTy).Contents (Elt Ideal)) (x9 x10 : (⟨S128, .f32⟩ : BufTy).Contents (Elt Ideal)) (x11 : (⟨S128x128, .f32⟩ : BufTy).Contents (Elt Ideal)) (x12 x13 : (⟨S128, .f32⟩ : BufTy).Contents (Elt Ideal)) (x14 : (⟨S128x384, .f32⟩ : BufTy).Contents (Elt Ideal)) (x15 x16 : (⟨S128, .f32⟩ : BufTy).Contents (Elt Ideal)) (x17 x18 : (⟨S128x128, .f32⟩ : BufTy).Contents (Elt Ideal)) (x19 x20 : (⟨S128, .f32⟩ : BufTy).Contents (Elt Ideal)) (x21 : (⟨S128x128, .f32⟩ : BufTy).Contents (Elt Ideal)) (x22 x23 : (⟨S128, .f32⟩ : BufTy).Contents (Elt Ideal)) (r : Fin 50000) :
    Spec.row (val_main_v178 (F := Ideal) x0 x1 x2 x3 x4 x5 x6 x7 x8 x9 x10 x11 x12 x13 x14 x15 x16 x17 x18 x19 x20 x21 x22 x23) r = Spec.gn (Spec.row (val_main_v154 (F := Ideal) x0 x1 x2 x3 x4 x5 x6 x7 x8 x9 x10 x11 x12 x13 x14 x15 x16 x17 x18 x19 x20 x21) r) x22 x23 := by
  funext j
  show val_main_v178 (F := Ideal) x0 x1 x2 x3 x4 x5 x6 x7 x8 x9 x10 x11 x12 x13 x14 x15 x16 x17 x18 x19 x20 x21 x22 x23 (ix2 r j) = _
  simp only [val_main_v178_apply, val_main_v177_apply, val_main_v176_apply, val_main_v175_apply, val_main_v174_apply, val_main_v173_apply, val_main_v172_apply,
    val_main_v171_apply, val_main_v170_apply, val_main_v169_apply, val_main_v168_apply, val_main_cst_32_apply, val_main_v167_apply, val_main_v166_apply,
    val_main_v165_apply, val_main_v164_apply, val_main_cst_31_apply, val_main_v163_apply, val_main_v162_apply, val_main_cst_30_apply, val_main_v161_apply,
    val_main_v160_apply, val_main_v159_apply, val_main_v158_apply, val_main_v157_apply, val_main_cst_29_apply, val_main_v156_apply, val_main_v155_apply,
    val_main_cst_28_apply]
  generalize val_main_v154 (F := Ideal) x0 x1 x2 x3 x4 x5 x6 x7 x8 x9 x10 x11 x12 x13 x14 x15 x16 x17 x18 x19 x20 x21 = Y0
  simp only [idx_main_v155_ix, idx_main_v156_ix, idx_main_v159_ix, idx_main_v162_ix, idx_main_v163_ix, idx_main_v166_ix, idx_main_v171_ix, idx_main_v173_ix,
    idx_main_v174_ix, idx_main_v176_ix, idx_main_v177_ix]
  simp only [Ideal.addf_def, Ideal.subf_def, Ideal.mulf_def, Ideal.hostDivf_def, Ideal.hostUnary_rsqrt_def, Ideal.ofBits_def, Ideal.ofBits_zero_f32, zero_add]
  rfl

/-- The last two stages: the residual is added and the maximum with zero taken. -/
theorem res_v180 (x0 x1 : (⟨S50000x128, .f32⟩ : BufTy).Contents (Elt Ideal)) (x2 x3 : (⟨S50000x2, .f32⟩ : BufTy).Contents (Elt Ideal)) (x4 x5 : (⟨S300000, .i32⟩ : BufTy).Contents (Elt Ideal)) (x6 : (⟨S128x2, .f32⟩ : BufTy).Contents (Elt Ideal)) (x7 : (⟨S128, .f32⟩ : BufTy).Contents (Elt Ideal)) (x8 : (⟨S128x128, .f32⟩ : BufTy).Contents (Elt Ideal)) (x9 x10 : (⟨S128, .f32⟩ : BufTy).Contents (Elt Ideal)) (x11 : (⟨S128x128, .f32⟩ : BufTy).Contents (Elt Ideal)) (x12 x13 : (⟨S128, .f32⟩ : BufTy).Contents (Elt Ideal)) (x14 : (⟨S128x384, .f32⟩ : BufTy).Contents (Elt Ideal)) (x15 x16 : (⟨S128, .f32⟩ : BufTy).Contents (Elt Ideal)) (x17 x18 : (⟨S128x128, .f32⟩ : BufTy).Contents (Elt Ideal)) (x19 x20 : (⟨S128, .f32⟩ : BufTy).Contents (Elt Ideal)) (x21 : (⟨S128x128, .f32⟩ : BufTy).Contents (Elt Ideal)) (x22 x23 : (⟨S128, .f32⟩ : BufTy).Contents (Elt Ideal)) (r : Fin 50000) :
    Spec.row (val_main_v180 (F := Ideal) x0 x1 x2 x3 x4 x5 x6 x7 x8 x9 x10 x11 x12 x13 x14 x15 x16 x17 x18 x19 x20 x21 x22 x23) r = fun j => max (Spec.row (val_main_v178 (F := Ideal) x0 x1 x2 x3 x4 x5 x6 x7 x8 x9 x10 x11 x12 x13 x14 x15 x16 x17 x18 x19 x20 x21 x22 x23) r j + Spec.row x0 r j) 0 := by
  funext j
  show val_main_v180 (F := Ideal) x0 x1 x2 x3 x4 x5 x6 x7 x8 x9 x10 x11 x12 x13 x14 x15 x16 x17 x18 x19 x20 x21 x22 x23 (ix2 r j) = _
  simp only [val_main_v180_apply, val_main_call5_v0_apply, val_main_call5_cst_apply, val_main_v179_apply]
  generalize val_main_v178 (F := Ideal) x0 x1 x2 x3 x4 x5 x6 x7 x8 x9 x10 x11 x12 x13 x14 x15 x16 x17 x18 x19 x20 x21 x22 x23 = Y0
  simp only [Ideal.addf_def, Ideal.maximumf_def, Ideal.ofBits_def, Ideal.ofBits_zero_f32]
  rfl

end Cert.RefValue

end
-- ==== Proof.RefValue.lean ====
/-
  The reference's result is the specification.

  Row `r` of the result is the node row function of row `r` of the features and row `r` of the landed
  messages; the messages are the edge row function of each edge's three gathered rows. This module
  composes the node half with the edge half.
-/
import proofs.«109786_j60155311948394_2_alg».proof.Proof.RefEdge
import proofs.«109786_j60155311948394_2_alg».proof.Proof.RefNode

noncomputable section

namespace Cert.RefValue

open Cert.ReferenceIdeal Cert.ReferenceIdeal.ReadP Idealize.ShloMosaic Idealize.ShloMosaic.ValueIdx

/-- THE REFERENCE IS THE SPECIFICATION: its result is the node row function applied to each node's feature
    row and to the row of messages landed on it, the messages being the edge row function of the gathered rows. -/
theorem ref_eq (x0 x1 : (⟨S50000x128, .f32⟩ : BufTy).Contents (Elt Ideal)) (x2 x3 : (⟨S50000x2, .f32⟩ : BufTy).Contents (Elt Ideal)) (x4 x5 : (⟨S300000, .i32⟩ : BufTy).Contents (Elt Ideal)) (x6 : (⟨S128x2, .f32⟩ : BufTy).Contents (Elt Ideal)) (x7 : (⟨S128, .f32⟩ : BufTy).Contents (Elt Ideal)) (x8 : (⟨S128x128, .f32⟩ : BufTy).Contents (Elt Ideal)) (x9 x10 : (⟨S128, .f32⟩ : BufTy).Contents (Elt Ideal)) (x11 : (⟨S128x128, .f32⟩ : BufTy).Contents (Elt Ideal)) (x12 x13 : (⟨S128, .f32⟩ : BufTy).Contents (Elt Ideal)) (x14 : (⟨S128x384, .f32⟩ : BufTy).Contents (Elt Ideal)) (x15 x16 : (⟨S128, .f32⟩ : BufTy).Contents (Elt Ideal)) (x17 x18 : (⟨S128x128, .f32⟩ : BufTy).Contents (Elt Ideal)) (x19 x20 : (⟨S128, .f32⟩ : BufTy).Contents (Elt Ideal)) (x21 : (⟨S128x128, .f32⟩ : BufTy).Contents (Elt Ideal)) (x22 x23 : (⟨S128, .f32⟩ : BufTy).Contents (Elt Ideal)) :
    val_main_v180 (F := Ideal) x0 x1 x2 x3 x4 x5 x6 x7 x8 x9 x10 x11 x12 x13 x14 x15 x16 x17 x18 x19 x20 x21 x22 x23
      = Spec.nodeArr x0 (Spec.landed scatter_S50000x128_S300000x1_S300000x128_1_0_0_1 (val_main_v126 (F := Ideal) x4) (Spec.edgeArr (val_main_v14 (F := Ideal) x2 x3 x4 x5) (val_main_v54 (F := Ideal) x0 x4) (val_main_v88 (F := Ideal) x1 x5) x6 x7 x8 x9 x10 x11 x12 x13 x14 x15 x16 x17)) x18 x19 x20 x21 x22 x23 := by
  funext i
  obtain ⟨r, j, rfl⟩ : ∃ (r : Fin 50000) (j : Fin 128), i = ix2 r j := ⟨i 0, i 1, eq_ix2 i⟩
  show Spec.row (val_main_v180 (F := Ideal) x0 x1 x2 x3 x4 x5 x6 x7 x8 x9 x10 x11 x12 x13 x14 x15 x16 x17 x18 x19 x20 x21 x22 x23) r j = _
  rw [res_v180, gn_v178, lin_v154, relu_v152, gn_v151, scat_v127, edge_eq]
  rfl

end Cert.RefValue

end
-- ==== Proof.Bridge.lean ====
/-
  The two programs are fed the same arrays.

  Both gather with the same wrapped indices (a negative index counts from the end), the same rows of
  the same argument arrays, and scatter with the same target indices. The kernel narrows the node
  features and the centre differences to a shorter float format before the edge kernel reads them;
  on the extended reals a change of format is the identity, so the gathered arrays are equal as they
  stand.
-/
import proofs.«109786_j60155311948394_2_alg».proof.Proof.Inputs
import proofs.«109786_j60155311948394_2_alg».proof.Proof.RefRead

noncomputable section

namespace Cert.Bridge

open Idealize.ShloMosaic Idealize.SL.Sem
open Cert.KernelIdeal Cert.KernelIdeal.Gen Cert.KernelValue

variable (m : (ℓ : Loc nD τ sig) → Buf (Elt Ideal) ℓ) (c : Dev nD)

/-- The reference's centre differences are the kernel's. -/
theorem AD_eq :
    Cert.ReferenceIdeal.ReadP.val_main_v14 (F := Ideal) (m ((c.tc : Thread nD τ).loc main_arg2)) (m ((c.tc : Thread nD τ).loc main_arg3))
      (m ((c.tc : Thread nD τ).loc main_arg4)) (m ((c.tc : Thread nD τ).loc main_arg5)) = AD m c := rfl

/-- The reference's gathered target-node rows are the kernel's. -/
theorem AH_eq :
    Cert.ReferenceIdeal.ReadP.val_main_v54 (F := Ideal) (m ((c.tc : Thread nD τ).loc main_arg0)) (m ((c.tc : Thread nD τ).loc main_arg4)) = AH m c := rfl

/-- The reference's gathered context-node rows are the kernel's. -/
theorem CW_eq :
    Cert.ReferenceIdeal.ReadP.val_main_v88 (F := Ideal) (m ((c.tc : Thread nD τ).loc main_arg1)) (m ((c.tc : Thread nD τ).loc main_arg5)) = CW m c := rfl

/-- The reference scatters to the kernel's target indices. -/
theorem IDX_eq :
    Cert.ReferenceIdeal.ReadP.val_main_v126 (F := Ideal) (m ((c.tc : Thread nD τ).loc main_arg4)) = IDX m c := rfl

/-- The two programs' scatters have the same dimension numbers. -/
theorem scatter_eq :
    Cert.ReferenceIdeal.scatter_S50000x128_S300000x1_S300000x128_1_0_0_1 = Cert.KernelIdeal.scatter_S50000x128_S300000x1_S300000x128_1_0_0_1 := rfl

end Cert.Bridge

end
-- ==== Proof.lean ====
/-
  The certificate of the graph-attention block: the two-kernel program against its whole-array
  reference, over the extended reals.

  Per edge, both programs form the same message from the same three gathered rows: two linear maps
  and a normalisation for the distance features, a linear map and a normalisation for the query, a
  linear map over the concatenation [distance | query | context] with a normalisation, and a last
  linear map (`Spec.edgeRow`). The kernel takes the linear map over the concatenation as three
  partial products against the three column blocks of the weight matrix; that is the same sum,
  regrouped (`Spec.lin3_eq_sum384`). Per node, both add the landed messages to the node's own
  transform, normalise twice with a linear map between, add the residual row and take `max · 0`
  (`Spec.nodeRow`). The reference scatters the messages onto the node transform; the kernel scatters
  them onto zeros and adds the node transform inside the second kernel: `a + s` against `a + (0 + s)`.
  Every change of float format is the identity on the extended reals. Only commutativity and
  associativity of `+` are used, so the finiteness precondition is never opened.

  The kernel's value is read off its run region by region: each kernel body computes the row function
  of its block's rows (EdgeBody, NodeBody), the blocks tile the arrays (EdgeArray, NodeArray), the
  host stretches between the regions gather and scatter (HostRead0, HostRead1). The reference's value is
  read off its run stage by stage (RefEdge, RefNode, RefValue). Bridge identifies the gathered inputs.
-/
import proofs.«109786_j60155311948394_2_alg».proof.Defs
import proofs.«109786_j60155311948394_2_alg».proof.Proof.Gen.Kernel
import proofs.«109786_j60155311948394_2_alg».proof.Proof.Gen.Kernel.Frame
import proofs.«109786_j60155311948394_2_alg».proof.Proof.Gen.KernelIdeal
import proofs.«109786_j60155311948394_2_alg».proof.Proof.Gen.KernelIdeal.Frame
import proofs.«109786_j60155311948394_2_alg».proof.Proof.Gen.ReferenceIdeal
import proofs.«109786_j60155311948394_2_alg».proof.Proof.Gen.Pre_finite_inputs
import proofs.«109786_j60155311948394_2_alg».proof.Proof.KernelValue
import proofs.«109786_j60155311948394_2_alg».proof.Proof.EdgeBody
import proofs.«109786_j60155311948394_2_alg».proof.Proof.NodeBody
import proofs.«109786_j60155311948394_2_alg».proof.Proof.RefRun
import proofs.«109786_j60155311948394_2_alg».proof.Proof.RefValue
import proofs.«109786_j60155311948394_2_alg».proof.Proof.Bridge
import Idealize.ShloMosaic.Adequacy
import Idealize.ShloMosaic.Init

noncomputable section

namespace Cert.Proof

open Idealize.ShloMosaic Idealize.SL.Sem

/-- The word-level kernel runs and leaves its arguments alone. -/
theorem frame_k : Cert.frame_Kernel := fun m ρ _ => Cert.Kernel.Gen.frame m ρ

/-- So does the idealized kernel. -/
theorem frame_ki : Cert.frame_KernelIdeal := fun m ρ _ => Cert.KernelIdeal.Gen.frame m ρ

/-- The reference runs and leaves its arguments alone: its run with the result dropped. -/
theorem frame_ri : Cert.frame_ReferenceIdeal := fun m ρ _ =>
  (θ_run Cert.ReferenceIdeal.defs _ _).mono (fun _ h c => (h c).2) (Cert.ReferenceIdeal.ValueP.run (F := Ideal) m ρ)

/-- The idealization rewrote nothing. -/
theorem preserves : Cert.preserves_Kernel_KernelIdeal := trivial

set_option maxHeartbeats 2000000 in
/-- The reference's result, from a memory agreeing with the kernel's on the arguments, is the kernel's result:
    the reference's stages are the row functions (`RefValue.ref_eq`), and the gathered inputs and the scatter's
    indices are the kernel's as they stand (Bridge). -/
theorem ref_result (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (hagree : (m' ((c.tc : Thread Cert.ReferenceIdeal.nD Cert.ReferenceIdeal.τ).loc Cert.ReferenceIdeal.main_arg0)) = (m ((c.tc : Thread Cert.KernelIdeal.nD Cert.KernelIdeal.τ).loc Cert.KernelIdeal.main_arg0))
      ∧ (m' ((c.tc : Thread Cert.ReferenceIdeal.nD Cert.ReferenceIdeal.τ).loc Cert.ReferenceIdeal.main_arg1)) = (m ((c.tc : Thread Cert.KernelIdeal.nD Cert.KernelIdeal.τ).loc Cert.KernelIdeal.main_arg1))
      ∧ (m' ((c.tc : Thread Cert.ReferenceIdeal.nD Cert.ReferenceIdeal.τ).loc Cert.ReferenceIdeal.main_arg2)) = (m ((c.tc : Thread Cert.KernelIdeal.nD Cert.KernelIdeal.τ).loc Cert.KernelIdeal.main_arg2))
      ∧ (m' ((c.tc : Thread Cert.ReferenceIdeal.nD Cert.ReferenceIdeal.τ).loc Cert.ReferenceIdeal.main_arg3)) = (m ((c.tc : Thread Cert.KernelIdeal.nD Cert.KernelIdeal.τ).loc Cert.KernelIdeal.main_arg3))
      ∧ (m' ((c.tc : Thread Cert.ReferenceIdeal.nD Cert.ReferenceIdeal.τ).loc Cert.ReferenceIdeal.main_arg4)) = (m ((c.tc : Thread Cert.KernelIdeal.nD Cert.KernelIdeal.τ).loc Cert.KernelIdeal.main_arg4))
      ∧ (m' ((c.tc : Thread Cert.ReferenceIdeal.nD Cert.ReferenceIdeal.τ).loc Cert.ReferenceIdeal.main_arg5)) = (m ((c.tc : Thread Cert.KernelIdeal.nD Cert.KernelIdeal.τ).loc Cert.KernelIdeal.main_arg5))
      ∧ (m' ((c.tc : Thread Cert.ReferenceIdeal.nD Cert.ReferenceIdeal.τ).loc Cert.ReferenceIdeal.main_arg6)) = (m ((c.tc : Thread Cert.KernelIdeal.nD Cert.KernelIdeal.τ).loc Cert.KernelIdeal.main_arg6))
      ∧ (m' ((c.tc : Thread Cert.ReferenceIdeal.nD Cert.ReferenceIdeal.τ).loc Cert.ReferenceIdeal.main_arg7)) = (m ((c.tc : Thread Cert.KernelIdeal.nD Cert.KernelIdeal.τ).loc Cert.KernelIdeal.main_arg7))
      ∧ (m' ((c.tc : Thread Cert.ReferenceIdeal.nD Cert.ReferenceIdeal.τ).loc Cert.ReferenceIdeal.main_arg8)) = (m ((c.tc : Thread Cert.KernelIdeal.nD Cert.KernelIdeal.τ).loc Cert.KernelIdeal.main_arg8))
      ∧ (m' ((c.tc : Thread Cert.ReferenceIdeal.nD Cert.ReferenceIdeal.τ).loc Cert.ReferenceIdeal.main_arg9)) = (m ((c.tc : Thread Cert.KernelIdeal.nD Cert.KernelIdeal.τ).loc Cert.KernelIdeal.main_arg9))
      ∧ (m' ((c.tc : Thread Cert.ReferenceIdeal.nD Cert.ReferenceIdeal.τ).loc Cert.ReferenceIdeal.main_arg10)) = (m ((c.tc : Thread Cert.KernelIdeal.nD Cert.KernelIdeal.τ).loc Cert.KernelIdeal.main_arg10))
      ∧ (m' ((c.tc : Thread Cert.ReferenceIdeal.nD Cert.ReferenceIdeal.τ).loc Cert.ReferenceIdeal.main_arg11)) = (m ((c.tc : Thread Cert.KernelIdeal.nD Cert.KernelIdeal.τ).loc Cert.KernelIdeal.main_arg11))
      ∧ (m' ((c.tc : Thread Cert.ReferenceIdeal.nD Cert.ReferenceIdeal.τ).loc Cert.ReferenceIdeal.main_arg12)) = (m ((c.tc : Thread Cert.KernelIdeal.nD Cert.KernelIdeal.τ).loc Cert.KernelIdeal.main_arg12))
      ∧ (m' ((c.tc : Thread Cert.ReferenceIdeal.nD Cert.ReferenceIdeal.τ).loc Cert.ReferenceIdeal.main_arg13)) = (m ((c.tc : Thread Cert.KernelIdeal.nD Cert.KernelIdeal.τ).loc Cert.KernelIdeal.main_arg13))
      ∧ (m' ((c.tc : Thread Cert.ReferenceIdeal.nD Cert.ReferenceIdeal.τ).loc Cert.ReferenceIdeal.main_arg14)) = (m ((c.tc : Thread Cert.KernelIdeal.nD Cert.KernelIdeal.τ).loc Cert.KernelIdeal.main_arg14))
      ∧ (m' ((c.tc : Thread Cert.ReferenceIdeal.nD Cert.ReferenceIdeal.τ).loc Cert.ReferenceIdeal.main_arg15)) = (m ((c.tc : Thread Cert.KernelIdeal.nD Cert.KernelIdeal.τ).loc Cert.KernelIdeal.main_arg15))
      ∧ (m' ((c.tc : Thread Cert.ReferenceIdeal.nD Cert.ReferenceIdeal.τ).loc Cert.ReferenceIdeal.main_arg16)) = (m ((c.tc : Thread Cert.KernelIdeal.nD Cert.KernelIdeal.τ).loc Cert.KernelIdeal.main_arg16))
      ∧ (m' ((c.tc : Thread Cert.ReferenceIdeal.nD Cert.ReferenceIdeal.τ).loc Cert.ReferenceIdeal.main_arg17)) = (m ((c.tc : Thread Cert.KernelIdeal.nD Cert.KernelIdeal.τ).loc Cert.KernelIdeal.main_arg17))
      ∧ (m' ((c.tc : Thread Cert.ReferenceIdeal.nD Cert.ReferenceIdeal.τ).loc Cert.ReferenceIdeal.main_arg18)) = (m ((c.tc : Thread Cert.KernelIdeal.nD Cert.KernelIdeal.τ).loc Cert.KernelIdeal.main_arg18))
      ∧ (m' ((c.tc : Thread Cert.ReferenceIdeal.nD Cert.ReferenceIdeal.τ).loc Cert.ReferenceIdeal.main_arg19)) = (m ((c.tc : Thread Cert.KernelIdeal.nD Cert.KernelIdeal.τ).loc Cert.KernelIdeal.main_arg19))
      ∧ (m' ((c.tc : Thread Cert.ReferenceIdeal.nD Cert.ReferenceIdeal.τ).loc Cert.ReferenceIdeal.main_arg20)) = (m ((c.tc : Thread Cert.KernelIdeal.nD Cert.KernelIdeal.τ).loc Cert.KernelIdeal.main_arg20))
      ∧ (m' ((c.tc : Thread Cert.ReferenceIdeal.nD Cert.ReferenceIdeal.τ).loc Cert.ReferenceIdeal.main_arg21)) = (m ((c.tc : Thread Cert.KernelIdeal.nD Cert.KernelIdeal.τ).loc Cert.KernelIdeal.main_arg21))
      ∧ (m' ((c.tc : Thread Cert.ReferenceIdeal.nD Cert.ReferenceIdeal.τ).loc Cert.ReferenceIdeal.main_arg22)) = (m ((c.tc : Thread Cert.KernelIdeal.nD Cert.KernelIdeal.τ).loc Cert.KernelIdeal.main_arg22))
      ∧ (m' ((c.tc : Thread Cert.ReferenceIdeal.nD Cert.ReferenceIdeal.τ).loc Cert.ReferenceIdeal.main_arg23)) = (m ((c.tc : Thread Cert.KernelIdeal.nD Cert.KernelIdeal.τ).loc Cert.KernelIdeal.main_arg23))) :
    Cert.ReferenceIdeal.ReadP.val_main_v180 (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg11)) (m' ((c.tc : Thread Cert.ReferenceIdeal.nD Cert.ReferenceIdeal.τ).loc Cert.ReferenceIdeal.main_arg12)) (m' ((c.tc : Thread Cert.ReferenceIdeal.nD Cert.ReferenceIdeal.τ).loc Cert.ReferenceIdeal.main_arg13)) (m' ((c.tc : Thread Cert.ReferenceIdeal.nD Cert.ReferenceIdeal.τ).loc Cert.ReferenceIdeal.main_arg14)) (m' ((c.tc : Thread Cert.ReferenceIdeal.nD Cert.ReferenceIdeal.τ).loc Cert.ReferenceIdeal.main_arg15)) (m' ((c.tc : Thread Cert.ReferenceIdeal.nD Cert.ReferenceIdeal.τ).loc Cert.ReferenceIdeal.main_arg16)) (m' ((c.tc : Thread Cert.ReferenceIdeal.nD Cert.ReferenceIdeal.τ).loc Cert.ReferenceIdeal.main_arg17)) (m' ((c.tc : Thread Cert.ReferenceIdeal.nD Cert.ReferenceIdeal.τ).loc Cert.ReferenceIdeal.main_arg18)) (m' ((c.tc : Thread Cert.ReferenceIdeal.nD Cert.ReferenceIdeal.τ).loc Cert.ReferenceIdeal.main_arg19)) (m' ((c.tc : Thread Cert.ReferenceIdeal.nD Cert.ReferenceIdeal.τ).loc Cert.ReferenceIdeal.main_arg20)) (m' ((c.tc : Thread Cert.ReferenceIdeal.nD Cert.ReferenceIdeal.τ).loc Cert.ReferenceIdeal.main_arg21)) (m' ((c.tc : Thread Cert.ReferenceIdeal.nD Cert.ReferenceIdeal.τ).loc Cert.ReferenceIdeal.main_arg22)) (m' ((c.tc : Thread Cert.ReferenceIdeal.nD Cert.ReferenceIdeal.τ).loc Cert.ReferenceIdeal.main_arg23))
      = Cert.Spec.nodeArr (m ((c.tc : Thread Cert.KernelIdeal.nD Cert.KernelIdeal.τ).loc Cert.KernelIdeal.main_arg0)) (Cert.Spec.landed Cert.KernelIdeal.scatter_S50000x128_S300000x1_S300000x128_1_0_0_1 (Cert.KernelValue.IDX m c) (Cert.Spec.edgeArr (Cert.KernelValue.AD m c) (Cert.KernelValue.AH m c) (Cert.KernelValue.CW m c) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)))) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) := by
  obtain ⟨h0, h1, h2, h3, h4, h5, h6, h7, h8, h9, h10, h11, h12, h13, h14, h15, h16, h17, h18, h19, h20, h21, h22, h23⟩ := hagree
  rw [h0, h1, h2, h3, h4, h5, h6, h7, h8, h9, h10, h11, h12, h13, h14, h15, h16, h17, h18, h19, h20, h21, h22, h23, Cert.RefValue.ref_eq]
  rfl

set_option maxHeartbeats 2000000 in
/-- From memories agreeing on the arguments both programs end with the same array: the node outputs
    of the node features and of the landed edge messages of the same gathered rows. -/
theorem algebraic : Cert.algebraic_KernelIdeal_ReferenceIdeal := by
  intro m ρ m' ρ' _ hagree
  refine ⟨fun c => Cert.Spec.nodeArr (m ((c.tc : Thread Cert.KernelIdeal.nD Cert.KernelIdeal.τ).loc Cert.KernelIdeal.main_arg0)) (Cert.Spec.landed Cert.KernelIdeal.scatter_S50000x128_S300000x1_S300000x128_1_0_0_1 (Cert.KernelValue.IDX m c) (Cert.Spec.edgeArr (Cert.KernelValue.AD m c) (Cert.KernelValue.AH m c) (Cert.KernelValue.CW m c) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)))) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)),
    Cert.KernelValue.run Cert.KernelValue.Edge.edge_body Cert.KernelValue.node_body m ρ, ?_⟩
  exact (θ_run Cert.ReferenceIdeal.defs _ _).mono
    (fun _ h c => ⟨(h c).1.trans (ref_result m m' c (hagree c)), (h c).2⟩)
    (Cert.ReferenceIdeal.ValueP.run (F := Ideal) m' ρ')

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
